-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000000x64 : Shape := ⟨2, ![1000000, 64]⟩
abbrev S200x4096 : Shape := ⟨2, ![200, 4096]⟩
abbrev S_ : Shape := ⟨0, ![]⟩
abbrev S1000000x128 : Shape := ⟨2, ![1000000, 128]⟩
abbrev S200x4096x128 : Shape := ⟨3, ![200, 4096, 128]⟩
abbrev S200x128 : Shape := ⟨2, ![200, 128]⟩
abbrev S512x128 : Shape := ⟨2, ![512, 128]⟩
abbrev S128x128 : Shape := ⟨2, ![128, 128]⟩
abbrev S1x128 : Shape := ⟨2, ![1, 128]⟩
abbrev S128 : Shape := ⟨1, ![128]⟩
abbrev S1x128x128 : Shape := ⟨3, ![1, 128, 128]⟩
abbrev S200x4096x64 : Shape := ⟨3, ![200, 4096, 64]⟩

abbrev nBuf : Table → Nat
  | .hbm => 8
  | .local .scVector .vmem => 2
  | _ => 0

abbrev bufTy : (tb : Table) → Fin (nBuf tb) → BufTy
  | .hbm, ⟨0, _⟩ => ⟨S4096x200, .i32⟩
  | .hbm, ⟨1, _⟩ => ⟨S1000000x64, .f32⟩
  | .hbm, ⟨2, _⟩ => ⟨S200x4096, .i32⟩
  | .hbm, ⟨3, _⟩ => ⟨S_, .i32⟩
  | .hbm, ⟨4, _⟩ => ⟨S_, .f32⟩
  | .hbm, ⟨5, _⟩ => ⟨S1000000x128, .f32⟩
  | .hbm, ⟨6, _⟩ => ⟨S200x4096x128, .f32⟩
  | .hbm, ⟨7, _⟩ => ⟨S200x4096x64, .f32⟩
  | .local .scVector .vmem, ⟨0, _⟩ => ⟨S200x128, .i32⟩
  | .local .scVector .vmem, ⟨1, _⟩ => ⟨S512x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 2, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_201_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k0_off2 (i : grid0.Coords) : Fin 3 → Nat :=
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_19 : BitVec 32 := 0#32
  ![0, v2.toNat, 0]
def k0_off3 (i : grid0.Coords) : Fin 3 → Nat :=
  let c1_i32_34 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_37 : BitVec 32 := 0#32
  ![1, v2.toNat, 0]
def k0_off4 (i : grid0.Coords) : Fin 3 → Nat :=
  let c2_i32_51 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_54 : BitVec 32 := 0#32
  ![2, v2.toNat, 0]
def k0_off5 (i : grid0.Coords) : Fin 3 → Nat :=
  let c3_i32_76 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_79 : BitVec 32 := 0#32
  ![3, v2.toNat, 0]
@[reducible] def k0_t1_loop : Scf.Loop 32 :=
  let c1_i32_96 : BitVec 32 := 1#32
  let c48_i32 : BitVec 32 := 48#32
  let v79 : BitVec 32 := Scalar.addi c1_i32_96 c48_i32
  let c1_i32_97 : BitVec 32 := 1#32
  ⟨c1_i32_96, v79, c1_i32_97⟩
def k0_off6 (i : grid0.Coords) (k0_t1 : Fin k0_t1_loop.trips) (c0_i32_202 : BitVec 32) : Fin 3 → Nat :=
  let c1_i32_96 : BitVec 32 := 1#32
  let c1_i32_97 : BitVec 32 := 1#32
  let arg15 : BitVec 32 := Scf.iv c1_i32_96 c1_i32_97 k0_t1
  let c4_i32_201 : BitVec 32 := 4#32
  let v164 : BitVec 32 := Scalar.muli arg15 c4_i32_201
  let v165 : BitVec 32 := Scalar.addi v164 c0_i32_202
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_211 : BitVec 32 := 0#32
  ![v165.toNat, v2.toNat, 0]
def k0_off7 (i : grid0.Coords) : Fin 3 → Nat :=
  let c0_i32_215 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_218 : BitVec 32 := 0#32
  ![0, v2.toNat, 0]
def k0_off8 (k0_t1 : Fin k0_t1_loop.trips) (c0_i32_202 : BitVec 32) : Fin 2 → Nat :=
  let c1_i32_96 : BitVec 32 := 1#32
  let c1_i32_97 : BitVec 32 := 1#32
  let arg15 : BitVec 32 := Scf.iv c1_i32_96 c1_i32_97 k0_t1
  let c4_i32_201 : BitVec 32 := 4#32
  let v164 : BitVec 32 := Scalar.muli arg15 c4_i32_201
  let v165 : BitVec 32 := Scalar.addi v164 c0_i32_202
  let c2_i32_222 : BitVec 32 := 2#32
  let v182 : BitVec 32 := Scalar.addi v165 c2_i32_222
  let c0_i32_225 : BitVec 32 := 0#32
  ![v182.toNat, 0]
def k0_off9 (i : grid0.Coords) : Fin 3 → Nat :=
  let c196_i32 : BitVec 32 := 196#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_107 : BitVec 32 := 0#32
  ![196, v2.toNat, 0]
def k0_off10 (i : grid0.Coords) : Fin 3 → Nat :=
  let c197_i32 : BitVec 32 := 197#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_131 : BitVec 32 := 0#32
  ![197, v2.toNat, 0]
def k0_off11 (i : grid0.Coords) : Fin 3 → Nat :=
  let c198_i32_153 : BitVec 32 := 198#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_156 : BitVec 32 := 0#32
  ![198, v2.toNat, 0]
def k0_off12 (i : grid0.Coords) : Fin 3 → Nat :=
  let c199_i32_166 : BitVec 32 := 199#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_169 : BitVec 32 := 0#32
  ![199, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200_S200x4096_1_0 : S4096x200.Transposes [1, 0] S200x4096
  pads_S1000000x64_S1000000x128_000_0640 : S1000000x64.Pads (![0, 0] : Fin 2 → Nat) ![0, 64] ![0, 0] S1000000x128
  h_S_ : 0 < S_.numel
  inb_S512x128_S128x128_0_0 : ∀ a, (![0, 0] : Fin 2 → Nat) a + S128x128.size a ≤ S512x128.size a
  inb_S200x128_S1x128_0_0 : ∀ a, (![0, 0] : Fin 2 → Nat) a + S1x128.size a ≤ S200x128.size a
  squeezes_S1x128_S128 : S1x128.Squeezes S128
  inb_S1000000x128_S1000000x128_0_0 : ∀ a, (![0, 0] : Fin 2 → Nat) a + S1000000x128.size a ≤ S1000000x128.size a
  gathers_S1000000x128_S128x128 : S1000000x128.Gathers 0 S128x128
  inb_S512x128_S128x128_128_0 : ∀ a, (![128, 0] : Fin 2 → Nat) a + S128x128.size a ≤ S512x128.size a
  inb_S200x128_S1x128_1_0 : ∀ a, (![1, 0] : Fin 2 → Nat) a + S1x128.size a ≤ S200x128.size a
  squeezes_S1x128x128_S128x128 : S1x128x128.Squeezes S128x128
  inb_S512x128_S128x128_256_0 : ∀ a, (![256, 0] : Fin 2 → Nat) a + S128x128.size a ≤ S512x128.size a
  inb_S200x128_S1x128_2_0 : ∀ a, (![2, 0] : Fin 2 → Nat) a + S1x128.size a ≤ S200x128.size a
  inb_S512x128_S128x128_384_0 : ∀ a, (![384, 0] : Fin 2 → Nat) a + S128x128.size a ≤ S512x128.size a
  inb_S200x128_S1x128_3_0 : ∀ a, (![3, 0] : Fin 2 → Nat) a + S1x128.size a ≤ S200x128.size a
  inb_S200x128_S1x128_4_0 : ∀ a, (![4, 0] : Fin 2 → Nat) a + S1x128.size a ≤ S200x128.size a
  inb_S200x128_S1x128_5_0 : ∀ a, (![5, 0] : Fin 2 → Nat) a + S1x128.size a ≤ S200x128.size a
  inb_S200x128_S1x128_198_0 : ∀ a, (![198, 0] : Fin 2 → Nat) a + S1x128.size a ≤ S200x128.size a
  inb_S200x128_S1x128_199_0 : ∀ a, (![199, 0] : Fin 2 → Nat) a + S1x128.size a ≤ S200x128.size a
  slices_S200x4096x128_S200x4096x64_0_0_0 : S200x4096x128.Slices ![0, 0, 0] S200x4096x64
  hcc0_scratch2 : 0 + S_.numel ≤ 9
  hcc0_scratch3 : 1 + S_.numel ≤ 9
  hcc0_scratch4 : 2 + S_.numel ≤ 9
  hcc0_scratch5 : 3 + S_.numel ≤ 9
  hcc0_scratch6 : 4 + S_.numel ≤ 9
  hcc0_scratch7 : 5 + S_.numel ≤ 9
  hcc0_scratch8 : 6 + S_.numel ≤ 9
  hcc0_scratch9 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S200x4096.size a
  k0_off2_inb : ∀ i : grid0.Coords, ∀ a, (k0_off2 i) a + S1x128x128.size a ≤ S200x4096x128.size a
  k0_off3_inb : ∀ i : grid0.Coords, ∀ a, (k0_off3 i) a + S1x128x128.size a ≤ S200x4096x128.size a
  k0_off4_inb : ∀ i : grid0.Coords, ∀ a, (k0_off4 i) a + S1x128x128.size a ≤ S200x4096x128.size a
  k0_off5_inb : ∀ i : grid0.Coords, ∀ a, (k0_off5 i) a + S1x128x128.size a ≤ S200x4096x128.size a
  k0_t1_ok : k0_t1_loop.OK
  k0_off6_inb : ∀ (i : grid0.Coords) (k0_t1 : Fin k0_t1_loop.trips), ∀ (r : Fin 4), ∀ a, (k0_off6 i k0_t1 (BitVec.ofNat 32 r.val)) a + S1x128x128.size a ≤ S200x4096x128.size a
  k0_off7_inb : ∀ i : grid0.Coords, ∀ a, (k0_off7 i) a + S1x128x128.size a ≤ S200x4096x128.size a
  k0_off8_inb : ∀ k0_t1 : Fin k0_t1_loop.trips, ∀ (r : Fin 4), ∀ a, (k0_off8 k0_t1 (BitVec.ofNat 32 r.val)) a + S1x128.size a ≤ S200x128.size a
  k0_off9_inb : ∀ i : grid0.Coords, ∀ a, (k0_off9 i) a + S1x128x128.size a ≤ S200x4096x128.size a
  k0_off10_inb : ∀ i : grid0.Coords, ∀ a, (k0_off10 i) a + S1x128x128.size a ≤ S200x4096x128.size a
  k0_off11_inb : ∀ i : grid0.Coords, ∀ a, (k0_off11 i) a + S1x128x128.size a ≤ S200x4096x128.size a
  k0_off12_inb : ∀ i : grid0.Coords, ∀ a, (k0_off12 i) a + S1x128x128.size a ≤ S200x4096x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scoped0 : DmaSems sig S_ := SemArray.consecutive 8 S_ hcc0_scoped0

class Facts : Prop extends Facts₀ where

variable [Facts]
-- ==== ReferenceIdeal.lean ====
abbrev S4096x200 : Shape := ⟨2, ![4096, 200]⟩
abbrev S1000000x64 : Shape := ⟨2, ![1000000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S200x4096x64 : Shape := ⟨3, ![200, 4096, 64]⟩

abbrev nBuf : Space → Nat
  | .hbm => 26
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | .hbm, ⟨25, _⟩ => ⟨S200x4096x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  transposes_S4096x200x64_S200x4096x64_1_0_2 : S4096x200x64.Transposes [1, 0, 2] S200x4096x64
  gather_S1000000x64_S4096x200x1_S4096x200x64_2_0_n_n_0_2_164_wf : GatherDims.WF S1000000x64 S4096x200x1 S4096x200x64 [2] [0] [] [0] [] 2 ![1, 64]

variable [Facts₀]

def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf

class Facts : Prop extends Facts₀ where

variable [Facts]
-- ==== Proof.Spec.lean ====
/-
  The specification both programs meet: an embedding lookup laid out position-major.
  For row numbers `x : [4096, 200]` (batch entry, position) and a table `[1000000, 64]`, the result `[200, 4096, 64]`
  holds at `(s, b, d)` column `d` of the table row that `x[b, s]` names. The row number is the word read as a natural
  number and clamped to the last row, so the function is total; where every word of `x` is below the number of rows
  (`InRange`) the clamp is the identity and the signed and unsigned readings of a word agree.
-/
import Idealize.ShloMosaic.PureOps
import Idealize.ShloMosaic.Lib.ValueIdx

namespace Cert.Spec

open Idealize.ShloMosaic Idealize.ShloMosaic.ValueIdx

abbrev SX : Shape := ⟨2, ![4096, 200]⟩
abbrev ST : Shape := ⟨2, ![1000000, 64]⟩
abbrev SO : Shape := ⟨3, ![200, 4096, 64]⟩

/-- The table row that batch entry `b` names at position `s`. -/
def row (x : IVec SX 32) (b : Fin 4096) (s : Fin 200) : Fin 1000000 :=
  ⟨min (x (ix2 b s)).toNat 999999, by omega⟩

/-- The lookup, position-major: `(s, b, d) ↦ table[x[b, s], d]`. -/
def lookup {α : Type} (x : IVec SX 32) (table : ST.Idx → α) : SO.Idx → α :=
  fun i => table (ix2 (row x (i 1) (i 0)) (i 2))

theorem lookup_apply {α : Type} (x : IVec SX 32) (table : ST.Idx → α) (s : Fin 200) (b : Fin 4096) (d : Fin 64) :
    lookup x table (ix3 s b d) = table (ix2 (row x b s) d) := rfl

/-- Every row number names a row of the table. -/
def InRange (x : IVec SX 32) : Prop := ∀ (b : Fin 4096) (s : Fin 200), (x (ix2 b s)).toNat < 1000000

theorem row_val {x : IVec SX 32} (h : InRange x) (b : Fin 4096) (s : Fin 200) : (row x b s).val = (x (ix2 b s)).toNat := by
  have := h b s
  show min (x (ix2 b s)).toNat 999999 = _
  omega

/-- In range, a word's signed reading is its unsigned one. -/
theorem toInt_toNat {x : IVec SX 32} (h : InRange x) (b : Fin 4096) (s : Fin 200) :
    (x (ix2 b s)).toInt.toNat = (x (ix2 b s)).toNat := by
  have := h b s
  rw [BitVec.toInt_eq_toNat_cond]
  split <;> omega

end Cert.Spec
-- ==== Proof.PreRange.lean ====
/-
  From the statement's precondition to the range of the row numbers.

  The precondition is the conjunction of two tests over whole arrays, each an "all": every entry of the table is finite,
  and every row number satisfies 0 ≤ x[b, s] and x[b, s] ≤ 999999, both comparisons reading the 32-bit word as a signed
  number.  Only the second test matters here.  A word that is nonnegative as a signed number has its top bit clear, so
  its signed and its unsigned reading agree; the upper comparison then bounds the unsigned reading by 999999, which is
  below the number of rows of the table.
-/
import proofs.«206931_g83167746720501_cont_9to1_m_74_15_alg».proof.Pre_input_domain
import proofs.«206931_g83167746720501_cont_9to1_m_74_15_alg».proof.Proof.Spec
import Idealize.ShloMosaic.Lib.ReduceAll

namespace Cert.PreRange

open Idealize.ShloMosaic Idealize.ShloMosaic.ValueIdx

/-- A reduction over every axis has a result of one index. -/
instance : Subsingleton Cert.Pre_input_domain.S_.Idx := ⟨fun a b => funext fun d => d.elim0⟩

/-- A 32-bit word that tests `0 ≤ v` and `v ≤ 999999` as a signed number is, read unsigned, below 1000000:
    the first test clears the top bit, so the two readings of `v` agree, and the second bounds them. -/
theorem word_lt (v : BitVec 32) (h0 : IntOp.cmpi .sge v 0#32 = 1#1) (h1 : IntOp.cmpi .sle v 999999#32 = 1#1) :
    v.toNat < 1000000 := by
  rw [IntOp.cmpi_sge] at h0
  rw [IntOp.cmpi_sle] at h1
  have z : (0#32 : BitVec 32).toInt = 0 := by decide
  have n : (999999#32 : BitVec 32).toInt = 999999 := by decide
  rw [z] at h0
  rw [n] at h1
  rw [BitVec.toInt_eq_toNat_cond] at h0 h1
  split at h0 <;> omega

/-- Under the precondition every row number names a row of the table. -/
theorem inRange_of_pre {F : FTy → Type} [FloatOps F] [Cert.Pre_input_domain.Facts]
    (x : IVec Cert.Pre_input_domain.S4096x200 32) (tbl : FVec F Cert.Pre_input_domain.S1000000x64 .f32)
    (h : Cert.Pre_input_domain.fn (F := F) x tbl = fun _ => 1#1) : Cert.Spec.InRange x := by
  intro b s
  -- the predicate's one word is the conjunction of the two "all"s
  have e := congrFun h ix0
  dsimp only [Cert.Pre_input_domain.fn, andi] at e
  -- the second "all": the test holds at every entry of `x`, in particular at `(b, s)`
  have e3 := Host.reduce_andi_all _ _ _ _ _ (IntOp.andi_eq_one.1 e).2 (ix2 b s)
  obtain ⟨h0, h1⟩ := IntOp.andi_eq_one.1 e3
  exact word_lt _ h0 h1

end Cert.PreRange
-- ==== Proof.LibRowTake.lean ====
/-
  A general fact about a row lookup on the host, independent of any particular program: `x[idx]` for a table
  `x : [N, C]` and an array of row numbers `idx : [R, K]` (carried as `[R, K, 1]`) lowers to a gather with offset axis 2,
  collapsed axis 0, start index map `[0]`, index-vector axis 2 and slices of one whole row.  Read at result index
  `(r, k, c)` it is the table at column `c` of the row the start index `idx[r, k, 0]` names, read as a signed integer
  and clamped into `[0, N - 1]`.
-/
import Idealize.ShloMosaic.PureOps
import Idealize.ShloMosaic.Lib.ValueIdx

namespace Cert.Lib.RowTake

open Idealize.ShloMosaic Idealize.ShloMosaic.ValueIdx

/-- The dimension numbers of a row lookup: operand `[N, C]`, start indices `[R, K, 1]`, result `[R, K, C]`. -/
abbrev rowTakeDims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- THE ROW LOOKUP READ AT `(r, k, c)`: column `c` of the row `ρ`, where `ρ` is the start index `idx[r, k, 0]` read as a
    signed integer and clamped into `[0, N - 1]`. -/
theorem gather_rowTake_apply {α : Type} {N C R K w : Nat}
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C)
    (ρ : Fin N) (hρ : ρ.val = min (idx (ix3 r k (0 : Fin 1))).toInt.toNat (N - 1)) :
    Host.gather (rowTakeDims N C R K wf) x idx (ix3 r k c) = x (ix2 ρ c) := by
  unfold Host.gather
  refine congrArg x ?_
  funext a
  refine Fin.ext ?_
  match a with
  | ⟨0, _⟩ =>
    -- the row axis: collapsed, its start the clamped start index
    show (rowTakeDims N C R K wf).start (ix3 r k c) idx 0 + (rowTakeDims N C R K wf).batchCoord (ix3 r k c) 0
      + (rowTakeDims N C R K wf).offCoord (ix3 r k c) 0 = ρ.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N C R K wf).startIndexMap from List.mem_singleton.mpr rfl)]
    have hsi : (rowTakeDims N C R K wf).siIdx (ix3 r k c) ⟨List.idxOf (0 : Fin 2) (rowTakeDims N C R K wf).startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi, hρ]
    rfl
  | ⟨1, _⟩ =>
    -- the column axis: no start index names it, and the result's offset coordinate is the column
    show (rowTakeDims N C R K wf).start (ix3 r k c) idx 1 + (rowTakeDims N C R K wf).batchCoord (ix3 r k c) 1
      + (rowTakeDims N C R K wf).offCoord (ix3 r k c) 1 = c.val
    rw [GatherDims.batchCoord_eq_zero _ _ _ List.not_mem_nil]
    have hs : (rowTakeDims N C R K wf).start (ix3 r k c) idx 1 = 0 := by
      unfold GatherDims.start
      have h : (1 : Fin 2) ∉ (rowTakeDims N C R K wf).startIndexMap := (by decide : (1 : Fin 2) ∉ ([0] : List (Fin 2)))
      rw [dif_neg h]
    have ho : (rowTakeDims N C R K wf).offCoord (ix3 r k c) 1 = c.val := by
      unfold GatherDims.offCoord
      have h : (1 : Fin 2) ∈ (rowTakeDims N C R K wf).sKept := (by decide : (1 : Fin 2) ∈ ([1] : List (Fin 2)))
      rw [dif_pos h]
      rfl
    rw [hs, ho]; omega

end Cert.Lib.RowTake
-- ==== Proof.RefRun.lean ====
/-
  The reference program, run: a lookup of table rows by row number, laid out position-major.

  The program is a straight line of twenty-four array operations. Twenty-three are the lookup `take(table, x, axis 0)` in
  fill mode: a negative row number is wrapped by adding the number of rows, 1000000; the wrapped numbers, with a trailing
  unit axis, are the start indices of a gather of whole rows; a start index is tested against `[0, 999999]`, the test
  reduced by "and" over the unit axis, and where it fails the gathered row is replaced by NaN. The last operation
  exchanges the result's first two axes, so that position comes before batch entry.

  Three steps: the program is that line of operations, so it runs to the end and leaves in each buffer the line's fold
  over the launch contents; read back, the result buffer holds one closed term of the two arguments (`refOut`); and
  for row numbers that all lie below 1000000 that term is the lookup `(s, b, d) ↦ table[x[b, s], d]` — the wrap and the
  gather's clamp leave such a number alone and the range test holds everywhere, so the fill is never taken.
-/
import proofs.«206931_g83167746720501_cont_9to1_m_74_15_alg».proof.ReferenceIdeal
import proofs.«206931_g83167746720501_cont_9to1_m_74_15_alg».proof.Proof.Spec
import proofs.«206931_g83167746720501_cont_9to1_m_74_15_alg».proof.Proof.LibRowTake
import Idealize.ShloMosaic.Lib.StableHlo.Run
import Idealize.ShloMosaic.Lib.Pipeline.Value
import Idealize.ShloMosaic.Lib.Affine
import Idealize.ShloMosaic.PureOps.Reduce

noncomputable section

namespace Cert.RefRun

open Cert.ReferenceIdeal Cert.ReferenceIdeal.Facts₀ Idealize.ShloMosaic Idealize.ShloMosaic.TcCoe Idealize.SL.Sem
  Idealize.ShloMosaic.StableHlo Idealize.ShloMosaic.ValueIdx

variable {F : FTy → Type} [FloatOps F] [Cert.ReferenceIdeal.Facts]

/-- The program as one straight line: the lookup's twenty-three operations (the wrap of negative row numbers, the
    range test, the gather, the fill) in the buffers of its one call, then the transpose. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S1000000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    unary main_v0 main_v1 ((transpose S200x4096x64 [1, 0, 2] · transposes_S4096x200x64_S200x4096x64_1_0_2) : (⟨S4096x200x64, .f32⟩ : BufTy).Contents (Elt F) → (⟨S200x4096x64, .f32⟩ : BufTy).Contents (Elt F)) ]

set_option maxRecDepth 1024 in
/-- The program is that line: the two outlined functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

/-! ## The result as a function of the arguments

The line's last buffer, read back, is the composition below: the row numbers with negative ones wrapped by the number of
rows (`wrapped`), carried as start indices with a trailing unit axis (`starts`), the test that a start index names a row
(`inside`), the gathered rows with NaN filled where the test fails (`taken`), and the transpose of that. -/

/-- `x` with `1000000` added where `x < 0`. -/
def wrapped (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 1000000#32))) x

/-- The start indices of the gather: `wrapped x` with a trailing unit axis. -/
def starts (x : IVec S4096x200 32) : IVec S4096x200x1 32 :=
  broadcastInDim S4096x200x1 ![0, 1] bcast_S4096x200_S4096x200x1_0_1 (wrapped x)

/-- Whether the start index at `(b, s)` lies in `[0, 999999]`: the "and" over the unit axis of the two comparisons. -/
def inside (x : IVec S4096x200 32) : IVec S4096x200 1 :=
  Host.reduce IntOp.andi
    (andi (cmpi .sge (starts x) (broadcastInDim S4096x200x1 ![] bcast_S_S4096x200x1 (constantI S_ 32 0#32)))
      (cmpi .sle (starts x) (broadcastInDim S4096x200x1 ![0, 1, 2] bcast_S1x1x1_S4096x200x1_0_1_2
        (broadcastInDim S1x1x1 ![2] bcast_S1_S1x1x1_2 (constantI S1 32 999999#32)))))
    (constantI S_ 1 1#1) reducesTo_S4096x200x1_S4096x200_d2 h_S_

/-- The lookup before the transpose: the gathered row where the start index is inside, NaN elsewhere. -/
def taken (x : IVec S4096x200 32) (tbl : FVec F S1000000x64 .f32) : FVec F S4096x200x64 .f32 :=
  select (broadcastInDim S4096x200x64 ![0, 1] bcast_S4096x200_S4096x200x64_0_1 (inside x))
    (Host.gather gather_S1000000x64_S4096x200x1_S4096x200x64_2_0_n_n_0_2_164 tbl (starts x))
    (broadcastInDim S4096x200x64 ![] bcast_S_S4096x200x64 (constant S_ .f32 0x7FC00000#32))

/-- The program's result: `taken` with its first two axes exchanged. -/
def refOut (x : IVec S4096x200 32) (tbl : FVec F S1000000x64 .f32) : FVec F S200x4096x64 .f32 :=
  transpose S200x4096x64 [1, 0, 2] (taken x tbl) transposes_S4096x200x64_S200x4096x64_1_0_2

/-! ## Contents at a buffer's own type

Inside an outlined function a value is stated at its tensor type and moved to its buffer's type along the equation
between the two; at the literal buffers of the one call that equation is the identity. -/

/-- Moved to the buffer's type and back, contents are unchanged. -/
theorem ofBuf_toBuf {T : BufTy} (y : TRef sig T) (v : T.Contents (Elt F)) : y.ofBuf (y.toBuf v) = v := by
  obtain ⟨r, h, _, _⟩ := y
  subst h
  rfl

/-- The lookup's result buffer has the type of the value written to it. -/
theorem v0_toBuf (h1 h2 h3) (v : (⟨S4096x200x64, .f32⟩ : BufTy).Contents (Elt F)) :
    (TRef.of (T := ⟨S4096x200x64, .f32⟩) main_v0 h1 h2 h3).toBuf v = v := rfl

/-! ## The line read back -/

/-- After the line, the result buffer holds `refOut` of the two arguments' contents. -/
theorem out_eq (V : Valuation τ sig (Elt F)) :
    after ops V (main_v1 : DevRef τ sig) = refOut (F := F) (V (main_arg0 : DevRef τ sig)) (V (main_arg1 : DevRef τ sig)) := by
  after_results
  simp only [ofBuf_toBuf, v0_toBuf]
  rfl

/-- The line writes neither argument. -/
theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

/-! ## The result at an index, for row numbers in range

With every row number below the number of rows: no row number is negative, so the wrap leaves it; both comparisons of
the range test hold everywhere, so the test is one at every position and the fill is never taken; and the gather's
clamp of a start index into `[0, 999999]` leaves it, so the row gathered at `(b, s)` is the row `x[b, s]` names. -/

/-- An "and" of ones from one is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by "and" of an array of ones, from one, is one at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_ones x _ fun n _ => hx n

/-- A word below 1000000 is not negative as a signed number: the wrap leaves it. -/
theorem wrap_id (v : BitVec 32) (hv : v.toNat < 1000000) :
    Scalar.select (IntOp.cmpi .slt v 0#32) (IntOp.addi v 1000000#32) v = v := by
  have hn : ¬IntOp.cmpi .slt v 0#32 = 1#1 := by
    rw [IntOp.cmpi_slt, show (0#32 : BitVec 32).toInt = 0 from by decide, BitVec.toInt_eq_toNat_of_lt (by omega)]
    omega
  rw [eq_zero_of_ne_one hn]
  exact select_zero _ _

/-- A word below 1000000 passes both comparisons of the range test. -/
theorem range_test (v : BitVec 32) (hv : v.toNat < 1000000) :
    IntOp.andi (IntOp.cmpi .sge v 0#32) (IntOp.cmpi .sle v 999999#32) = 1#1 := by
  have z : (0#32 : BitVec 32).toInt = 0 := by decide
  have n : (999999#32 : BitVec 32).toInt = 999999 := by decide
  rw [IntOp.andi_eq_one, IntOp.cmpi_sge, IntOp.cmpi_sle, z, n, BitVec.toInt_eq_toNat_of_lt (by omega)]
  omega

variable {x : IVec S4096x200 32}

/-- The start index at `(b, s)` is the row number `x[b, s]`. -/
theorem starts_apply (h : Cert.Spec.InRange x) (b : Fin 4096) (s : Fin 200) (z : Fin 1) :
    starts x (ix3 b s z) = x (ix2 b s) := by
  unfold starts
  refine (broadcastInDim_apply _ _ _ (ix3 b s z) (ix2 b s) (fun a => match a with | ⟨0, _⟩ => rfl | ⟨1, _⟩ => rfl)).trans ?_
  show Scalar.select (IntOp.cmpi .slt (x (ix2 b s)) 0#32) (IntOp.addi (x (ix2 b s)) 1000000#32) (x (ix2 b s)) = _
  exact wrap_id _ (h b s)

/-- The range test holds at every position. -/
theorem inside_apply (h : Cert.Spec.InRange x) (j : S4096x200.Idx) : inside x j = 1#1 := by
  unfold inside
  refine reduce_andi_ones _ _ _ _ j (fun i => ?_) (fun _ => rfl)
  obtain ⟨b, s, z, rfl⟩ : ∃ (b : Fin 4096) (s : Fin 200) (z : Fin 1), i = ix3 b s z := ⟨i 0, i 1, i 2, eq_ix3 i⟩
  show IntOp.andi (IntOp.cmpi .sge (starts x (ix3 b s z)) 0#32) (IntOp.cmpi .sle (starts x (ix3 b s z)) 999999#32) = 1#1
  rw [starts_apply h]
  exact range_test _ (h b s)

/-- Before the transpose, position `(b, s)` holds the table row `x[b, s]` names. -/
theorem taken_apply (h : Cert.Spec.InRange x) (tbl : FVec F S1000000x64 .f32) (b : Fin 4096) (s : Fin 200) (d : Fin 64) :
    taken x tbl (ix3 b s d) = tbl (ix2 (Cert.Spec.row x b s) d) := by
  have hm : broadcastInDim S4096x200x64 ![0, 1] bcast_S4096x200_S4096x200x64_0_1 (inside x) (ix3 b s d) = 1#1 :=
    (broadcastInDim_apply _ _ _ (ix3 b s d) (ix2 b s) (fun a => match a with | ⟨0, _⟩ => rfl | ⟨1, _⟩ => rfl)).trans
      (inside_apply h _)
  unfold taken
  rw [select_apply, hm, select_one]
  refine Cert.Lib.RowTake.gather_rowTake_apply _ tbl (starts x) b s d (Cert.Spec.row x b s) ?_
  rw [starts_apply h, Cert.Spec.toInt_toNat h, Cert.Spec.row_val h]
  have := h b s
  omega

/-- For row numbers in range the program's result is the lookup. -/
theorem refOut_eq (h : Cert.Spec.InRange x) (tbl : FVec F S1000000x64 .f32) : refOut x tbl = Cert.Spec.lookup x tbl := by
  funext i
  obtain ⟨s, b, d, rfl⟩ : ∃ (s : Fin 200) (b : Fin 4096) (d : Fin 64), i = ix3 s b d := ⟨i 0, i 1, i 2, eq_ix3 i⟩
  rw [Cert.Spec.lookup_apply]
  unfold refOut
  exact (transpose_apply _ _ _ (ix3 s b d) (ix3 b s d)
    (fun a => match a with | ⟨0, _⟩ => rfl | ⟨1, _⟩ => rfl | ⟨2, _⟩ => rfl)).trans (taken_apply h tbl b s d)

/-! ## The run -/

/-- From any memory with zero counters whose row numbers are in range: every weakly fair execution of the program
    terminates, with the result buffer at the lookup of the launch contents of the two arguments, and both arguments
    unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (hr : ∀ c : Dev Cert.ReferenceIdeal.nD,
      Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread _ _).loc Cert.ReferenceIdeal.main_v1)
            = Cert.Spec.lookup (m ((c.tc : Thread _ _).loc Cert.ReferenceIdeal.main_arg0))
                (m ((c.tc : Thread _ _).loc Cert.ReferenceIdeal.main_arg1))
          ∧ r.2.mem ((c.tc : Thread _ _).loc Cert.ReferenceIdeal.main_arg0) = m ((c.tc : Thread _ _).loc Cert.ReferenceIdeal.main_arg0)
          ∧ r.2.mem ((c.tc : Thread _ _).loc Cert.ReferenceIdeal.main_arg1) = m ((c.tc : Thread _ _).loc Cert.ReferenceIdeal.main_arg1)) :=
  (θ_run defs _ _).mono
    (fun _ h c => ⟨(h c main_v1).trans ((out_eq _).trans (refOut_eq (hr c) _)),
      (h c main_arg0).trans (arg0_eq _), (h c main_arg1).trans (arg1_eq _)⟩)
    (run_seq scopedRefs_eq scopedSems_eq defs main (fun _ => ops) main_eq (fun _ => ops_sub) m g)

end Cert.RefRun

end
-- ==== Proof.KISetup.lean ====
/-
  The program as the SparseCore launch theorem sees it: its one vector-subcore call, the kernels' body table lifted
  through the (empty) family of TensorCore pipelines, the launch semaphores' facts, and the resource algebra — the
  handshakes' rounds beside the exclusive counters the local transfers are run under.
-/
import proofs.«206931_g83167746720501_cont_9to1_m_74_15_alg».proof.KernelIdeal
import Idealize.ShloMosaic.Lib.SparseCore.Launch
import Idealize.ShloMosaic.Lib.StableHlo.Run
import Idealize.ShloMosaic.Lib.Pipeline.Kit
import Idealize.ShloMosaic.Lib.Tactic
import proofs.«206931_g83167746720501_cont_9to1_m_74_15_alg».proof.Proof.Gen.KernelIdeal
import proofs.«206931_g83167746720501_cont_9to1_m_74_15_alg».proof.Proof.Gen.KernelIdeal.Skeleton

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

end Cert.Proof.KernelIdeal

end
-- ==== Proof.KIDefs.lean ====
/-
  The objects the kernel's proof is stated over.
  One tile (vector subcore `(L 0, L 1)`, worker number `w = 2 · L 1 + L 0`) owns batch columns `[128 w, 128 w + 128)`:
  it copies those columns of the transposed row numbers into its index scratch, and for each position `s` gathers the
  128 table rows the index scratch's row `s` names into slot `s mod 4` of its row scratch, then copies the slot out to
  slab `(s, columns of w)` of the result.
  * the memrefs, spelt as the program slices them (literal offsets before and after the counted loop, the loop's own
    offset functions inside it);
  * the element sets of those pieces, by coordinates: membership is arithmetic on an index's coordinates;
  * the contents: `idxOf` (the index scratch after the first copy), `gathered s` (a slot after the gather of position
    `s`), `outOf` (the result array, each entry the table row its position and batch column name).
-/
import proofs.«206931_g83167746720501_cont_9to1_m_74_15_alg».proof.Proof.KISetup
import Idealize.ShloMosaic.Lib.ValueIdx

noncomputable section

namespace Cert.Proof.KernelIdeal

open Cert.KernelIdeal Cert.KernelIdeal.Gen

open Idealize.ShloMosaic Idealize.ShloMosaic.ValueIdx
open Idealize.ShloMosaic.SparseCore (S V T)

variable {F : FTy → Type}

/-! ## Threads and memrefs -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
/-- The worker number of a tile: `2 · subcore + core`. -/
abbrev wOf (L : grid0.Coords) : ℕ := 2 * (L 1).val + (L 0).val

abbrev xW : Memref sig .scVector .hbm S200x4096 .i32 := Memref.whole main_v0_scv
abbrev tW : Memref sig .scVector .hbm S1000000x128 .f32 := Memref.whole main_v1_scv
abbrev oW : Memref sig .scVector .hbm S200x4096x128 .f32 := Memref.whole main_v2_scv
abbrev iS : Memref sig .scVector .vmem S200x128 .i32 := Memref.whole cc0_scratch0
abbrev rS : Memref sig .scVector .vmem S512x128 .f32 := Memref.whole cc0_scratch1

/-- The tile's columns of the transposed row numbers. -/
abbrev xtM (L : grid0.Coords) : Memref sig .scVector .hbm S200x128 .i32 :=
  xW.slice (Rect.unit (s := S200x4096) (k0_off1 L) S200x128.size (k0_off1_inb L)) (fun _ => rfl)
/-- The table as the gathers name it: its whole-array slice. -/
abbrev tM : Memref sig .scVector .hbm S1000000x128 .f32 :=
  tW.slice (Rect.unit (s := S1000000x128) ![0, 0] S1000000x128.size inb_S1000000x128_S1000000x128_0_0) (fun _ => rfl)

/-- Slot `j` of the row scratch: rows `[128 j, 128 j + 128)`. -/
abbrev slot0 : Memref sig .scVector .vmem S128x128 .f32 := rS.slice (Rect.unit (s := S512x128) ![0, 0] S128x128.size inb_S512x128_S128x128_0_0) (fun _ => rfl)
abbrev slot1 : Memref sig .scVector .vmem S128x128 .f32 := rS.slice (Rect.unit (s := S512x128) ![128, 0] S128x128.size inb_S512x128_S128x128_128_0) (fun _ => rfl)
abbrev slot2 : Memref sig .scVector .vmem S128x128 .f32 := rS.slice (Rect.unit (s := S512x128) ![256, 0] S128x128.size inb_S512x128_S128x128_256_0) (fun _ => rfl)
abbrev slot3 : Memref sig .scVector .vmem S128x128 .f32 := rS.slice (Rect.unit (s := S512x128) ![384, 0] S128x128.size inb_S512x128_S128x128_384_0) (fun _ => rfl)

/-- Row `s` of the index scratch as an offset list, at a literal or computed offset vector. -/
abbrev rowAt (off : Fin 2 → Nat) (h : ∀ a, off a + S1x128.size a ≤ S200x128.size a) : Memref sig .scVector .vmem S128 .i32 :=
  (iS.slice (Rect.unit (s := S200x128) off S1x128.size h) (fun _ => rfl)).squeeze S128 squeezes_S1x128_S128
/-- The loop's rows: trip `k` issues the gathers of positions `4 k + r + 6`. -/
abbrev rowK (k : Fin k0_t1_loop.trips) (r : Fin 4) : Memref sig .scVector .vmem S128 .i32 :=
  rowAt (k0_off8 k (BitVec.ofNat 32 r.val)) (k0_off8_inb k r)

/-- Slab `(s, columns of the tile)` of the result as a copy's target, at a literal or computed offset vector. -/
abbrev slabAt (off : Fin 3 → Nat) (h : ∀ a, off a + S1x128x128.size a ≤ S200x4096x128.size a) : Memref sig .scVector .hbm S128x128 .f32 :=
  (oW.slice (Rect.unit (s := S200x4096x128) off S1x128x128.size h) (fun _ => rfl)).squeeze S128x128 squeezes_S1x128x128_S128x128
/-- The loop's slabs: trip `k` copies out positions `4 k + r + 4`. -/
abbrev slabK (L : grid0.Coords) (k : Fin k0_t1_loop.trips) (r : Fin 4) : Memref sig .scVector .hbm S128x128 .f32 :=
  slabAt (k0_off6 L k (BitVec.ofNat 32 r.val)) (k0_off6_inb L k r)

/-! ## Element sets, by coordinates -/

/-- The tile's columns of the transposed row numbers: batch column `b` with `b / 128 = w`. -/
def xtSet (w : ℕ) : Finset S200x4096.Idx := Finset.univ.filter fun i => (i 1).val / 128 = w
/-- Slab `(s, w)` of the result: position `s`, batch columns of worker `w`, every lane. -/
def slabSet (w s : ℕ) : Finset S200x4096x128.Idx := Finset.univ.filter fun i => (i 0).val = s ∧ (i 1).val / 128 = w
/-- Row `s` of the index scratch. -/
def rowSet (s : ℕ) : Finset S200x128.Idx := Finset.univ.filter fun i => (i 0).val = s
/-- Slot `j` of the row scratch. -/
def slotSet (j : ℕ) : Finset S512x128.Idx := Finset.univ.filter fun i => (i 0).val / 128 = j

/-! ## Contents -/

/-- The index scratch after the first copy: row `s`, lane `j` is the row number of position `s`, batch column
    `128 w + j` (a total function: the column is reduced into range, which changes nothing for `w < 32`). -/
def idxOf (w : ℕ) (X : IVec S200x4096 32) : IVec S200x128 32 :=
  fun i => X (ix2 (i 0) ⟨(128 * w + (i 1).val) % 4096, Nat.mod_lt _ (by decide)⟩)

/-- The table row a word names: the word as a natural number, clamped to the last row. -/
def rowNo (v : BitVec 32) : Fin 1000000 := ⟨min v.toNat 999999, by omega⟩

/-- A slot after the gather of position `s`: lane-row `r` (within the slot) holds the table row that row number
    `(s, r mod 128)` of the index scratch names. Stated on the whole row scratch, the same function for every slot. -/
def gathered {α : Type} (TB : S1000000x128.Idx → α) (FI : IVec S200x128 32) (s : ℕ) : S512x128.Idx → α :=
  fun i => TB (ix2 (rowNo (FI (ix2 ⟨s % 200, Nat.mod_lt _ (by decide)⟩ ⟨(i 0).val % 128, Nat.mod_lt _ (by decide)⟩))) (i 1))

/-- The result array: entry `(s, b, l)` is lane `l` of the table row that row number `(s, b)` names. -/
def outOf {α : Type} (TB : S1000000x128.Idx → α) (X : IVec S200x4096 32) : S200x4096x128.Idx → α :=
  fun i => TB (ix2 (rowNo (X (ix2 (i 0) (i 1)))) (i 2))

/-- Every row number the tile reads names a row of the table. -/
def XInRange (X : IVec S200x4096 32) : Prop := ∀ i, (X i).toNat < 1000000

end Cert.Proof.KernelIdeal

end
-- ==== Proof.KIValue.lean ====
/-
  What the tile's copies and gathers leave in memory, read at an index.

  Every piece of memory the tile touches is a rectangle of a buffer, some with a leading axis of extent one dropped; an
  index of the piece sits in the buffer at the rectangle's offset plus the index's own coordinates (a dropped axis
  contributing coordinate 0). With that:
  * the tile's columns of the transposed row numbers, read through their rectangle, are `idxOf`: entry `(s, j)` is row
    number `(s, 128 w + j)`; copied whole into the index scratch they are its contents;
  * a gather of the table rows that row `s` of the index scratch names, written whole into a 128-row window of the row
    scratch, leaves `gathered` there: row `r` of the window is the table row that word `(s, r)` names — the word is
    below the number of rows, so clamping it to the last row changes nothing;
  * such a window copied whole into slab `(s, w)` of the result leaves `outOf` there: entry `(s, 128 w + r, l)` is lane
    `l` of the table row that row number `(s, 128 w + r)` names;
  * around the call: the result's first 64 lanes over the table padded with 64 lanes, at the transposed row numbers, are
    the lookup; and the transposed row numbers are in range when the row numbers are.
-/
import proofs.«206931_g83167746720501_cont_9to1_m_74_15_alg».proof.Proof.KIDefs
import proofs.«206931_g83167746720501_cont_9to1_m_74_15_alg».proof.Proof.Spec
import Idealize.ShloMosaic.Lib.SparseCore.Stream
import Idealize.ShloMosaic.Lib.Pipeline.Value
import Idealize.ShloMosaic.Lib.KernelVsHost

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## Reading and writing through the program's views, at an index -/

theorem writes_whole_emb {κ : Kind} {sp : Space} {s : Shape} {e : EltTy} (v : View sig κ sp s e) (f : v.ty.Contents (Elt F))
    (w : s.Idx → Elt F e) (rest : List (View.Piece (Elt F) s e)) (y : s.Idx) :
    v.writes (Elt F) f (⟨Rect.whole s, w⟩ :: rest) (v.emb y) = cast (congrArg (Elt F) v.elt_eq.symm) (w y) := by
  show (v.slice (Rect.whole s)).write (Elt F) (v.writes (Elt F) f rest) w Finset.univ (v.emb y) = _
  have e1 : (v.slice (Rect.whole s)).emb y = v.emb y := by
    show v.emb ((Rect.whole s).emb y) = v.emb y
    rw [Rect.emb_whole_apply]
  rw [← e1]
  exact View.write_emb_of_mem _ _ (Finset.mem_univ _)

theorem rowMajor_symm_one {n : ℕ} (k : Fin (⟨1, ![n]⟩ : Shape).numel) :
    (((⟨1, ![n]⟩ : Shape).rowMajor.symm k) 0).val = k.val := by
  rw [← Shape.rowMajor_val_one, Equiv.apply_symm_apply]

/-- Where entry `x` of an offset-list row sits in the index scratch: row `off 0`, lane `off 1 + x`. -/
theorem rowAt_emb_val (off : Fin 2 → Nat) (h : ∀ a, off a + S1x128.size a ≤ S200x128.size a) (x : S128.Idx) (a : Fin 2) :
    ((rowAt off h).view.emb x a).val = off a + ((Fin.cons ⟨0, Nat.one_pos⟩ x : S1x128.Idx) a).val := by
  have hq := Shape.reshapeEquiv_cons_one (n := 1) (d := ![128]) (Shape.Squeezes.numel_eq squeezes_S1x128_S128) x
  have hv : ((rowAt off h).view.emb x a).val
      = off a + 1 * ((Shape.reshapeEquiv (Shape.Squeezes.numel_eq squeezes_S1x128_S128) x) a).val := rfl
  rw [hv, Nat.one_mul]
  exact congrArg (fun q : S1x128.Idx => off a + (q a).val) hq

theorem rowAt_read (FI : IVec S200x128 32) (off : Fin 2 → Nat) (h : ∀ a, off a + S1x128.size a ≤ S200x128.size a)
    (s : ℕ) (hs : off = ![s, 0]) (hs200 : s < 200) (x : S128.Idx) :
    (rowAt off h).view.read (Elt F) FI x = FI (ix2 ⟨s, hs200⟩ (x 0)) := by
  subst hs
  refine (View.read_apply _ _).trans ((cast_eq _ _).trans ?_)
  refine congrArg FI (funext fun a => Fin.ext ?_)
  refine (rowAt_emb_val _ h x a).trans ?_
  match a with
  | ⟨0, _⟩ => show s + 0 = s; omega
  | ⟨1, _⟩ => show 0 + (x 0).val = (x 0).val; omega

/-- Where index `y` of a 128-row window of the row scratch sits: the window's offset added on each axis. -/
theorem slot_emb_val (offS : Fin 2 → Nat) (hS : ∀ a, offS a + S128x128.size a ≤ S512x128.size a) (y : S128x128.Idx) (a : Fin 2) :
    ((rS.slice (Rect.unit (s := S512x128) offS S128x128.size hS) (fun _ => rfl)).view.emb y a).val = offS a + (y a).val := by
  show offS a + 1 * (y a).val = _
  rw [Nat.one_mul]

/-- The table read through its whole-array slice is the table. -/
theorem read_tM (TB : S1000000x128.Idx → Elt F .f32) : (tM).view.read (Elt F) TB = TB := by
  funext x
  refine (View.read_apply _ _).trans ((cast_eq _ _).trans ?_)
  refine congrArg TB (funext fun a => Fin.ext ?_)
  show (![0, 0] : Fin 2 → Nat) a + 1 * (x a).val = (x a).val
  match a with
  | ⟨0, _⟩ => show 0 + 1 * _ = _; omega
  | ⟨1, _⟩ => show 0 + 1 * _ = _; omega

/-- Entry `k` of the rows an offset-list row names is the word at `(s, k)` of the index scratch. -/
theorem rows_val (FI : IVec S200x128 32) (off : Fin 2 → Nat) (h : ∀ a, off a + S1x128.size a ≤ S200x128.size a)
    (s : ℕ) (hs : off = ![s, 0]) (hs200 : s < 200)
    (hn : S128.numel = S128x128.size gathers_S1000000x128_S128x128.axis')
    (hin : ∀ x, ((rowAt off h).view.read (Elt F) FI x).toNat < S1000000x128.size gathers_S1000000x128_S128x128.axis)
    (k : Fin 128) :
    (SparseCore.rows ((rowAt off h).view.read (Elt F) FI) hn hin k).val = (FI (ix2 ⟨s, hs200⟩ k)).toNat := by
  show ((rowAt off h).view.read (Elt F) FI (S128.rowMajor.symm (Fin.cast hn.symm k))).toNat = _
  rw [rowAt_read FI off h s hs hs200]
  refine congrArg (fun z : Fin 128 => (FI (ix2 ⟨s, hs200⟩ z)).toNat) (Fin.ext ?_)
  exact rowMajor_symm_one _

/-- A slot after the gather of position `s`, at an index whose row within the slot is `r`. -/
theorem gathered_apply {α : Type} (TB : S1000000x128.Idx → α) (FI : IVec S200x128 32) (s : ℕ) (hs200 : s < 200)
    (i : S512x128.Idx) (r : Fin 128) (hr : (i 0).val % 128 = r.val) :
    gathered TB FI s i = TB (ix2 (rowNo (FI (ix2 ⟨s, hs200⟩ r))) (i 1)) := by
  have e0 : (⟨s % 200, Nat.mod_lt _ (by decide)⟩ : Fin 200) = ⟨s, hs200⟩ := Fin.ext (Nat.mod_eq_of_lt hs200)
  have e1 : (⟨(i 0).val % 128, Nat.mod_lt _ (by decide)⟩ : Fin 128) = r := Fin.ext hr
  show TB (ix2 (rowNo (FI (ix2 ⟨s % 200, _⟩ ⟨(i 0).val % 128, _⟩))) (i 1)) = _
  rw [e0, e1]

/-- Where index `y` of a result slab sits in the result array: position `off 0`, batch column `off 1 + y 0`,
    lane `off 2 + y 1`. -/
theorem slabAt_emb_val (off : Fin 3 → Nat) (h : ∀ a, off a + S1x128x128.size a ≤ S200x4096x128.size a) (y : S128x128.Idx) (a : Fin 3) :
    ((slabAt off h).view.emb y a).val = off a + ((Fin.cons ⟨0, Nat.one_pos⟩ y : S1x128x128.Idx) a).val := by
  have hq := Shape.reshapeEquiv_cons_one (n := 2) (d := ![128, 128]) (Shape.Squeezes.numel_eq squeezes_S1x128x128_S128x128) y
  have hv : ((slabAt off h).view.emb y a).val
      = off a + 1 * ((Shape.reshapeEquiv (Shape.Squeezes.numel_eq squeezes_S1x128x128_S128x128) y) a).val := rfl
  rw [hv, Nat.one_mul]
  exact congrArg (fun q : S1x128x128.Idx => off a + (q a).val) hq

/-- A slot after the gather of position `s`, the index scratch holding the tile's columns of the row numbers: at an
    index whose row within the slot is `r` and whose lane is `l`, lane `l` of the table row that row number
    `(s, 128 w + r)` names. -/
theorem gathered_idxOf {α : Type} (TB : S1000000x128.Idx → α) (X : IVec S200x4096 32) (w s : ℕ) (hs200 : s < 200)
    (i : S512x128.Idx) (r l : Fin 128) (b : Fin 4096) (hr : (i 0).val % 128 = r.val) (hl : (i 1).val = l.val)
    (hb : b.val = 128 * w + r.val) :
    gathered TB (idxOf w X) s i = TB (ix2 (rowNo (X (ix2 ⟨s, hs200⟩ b))) l) := by
  rw [gathered_apply TB (idxOf w X) s hs200 i r hr]
  have e1 : i 1 = l := Fin.ext hl
  have e2 : (⟨(128 * w + r.val) % 4096, Nat.mod_lt _ (by decide)⟩ : Fin 4096) = b :=
    Fin.ext (by show (128 * w + r.val) % 4096 = b.val; have := b.isLt; omega)
  show TB (ix2 (rowNo (X (ix2 ⟨s, hs200⟩ ⟨(128 * w + r.val) % 4096, _⟩))) (i 1)) = _
  rw [e1, e2]

/-- The result array at an index given by its three coordinates. -/
theorem outOf_apply {α : Type} (TB : S1000000x128.Idx → α) (X : IVec S200x4096 32) (i : S200x4096x128.Idx)
    (p : Fin 200) (b : Fin 4096) (l : Fin 128) (h0 : (i 0).val = p.val) (h1 : (i 1).val = b.val) (h2 : (i 2).val = l.val) :
    outOf TB X i = TB (ix2 (rowNo (X (ix2 p b))) l) := by
  have e0 : i 0 = p := Fin.ext h0
  have e1 : i 1 = b := Fin.ext h1
  have e2 : i 2 = l := Fin.ext h2
  show TB (ix2 (rowNo (X (ix2 (i 0) (i 1)))) (i 2)) = _
  rw [e0, e1, e2]

/-! ## The index scratch -/

/-- The first copy's payload: the tile's columns of the transposed row numbers, read through their slice. -/
theorem read_xtM (d : Dev nD) (L : grid0.Coords) (X : Buf (Elt F) ((xtM L).view.loc (thr d L))) :
    (xtM L).view.read (Elt F) X = idxOf (wOf L) X := by
  funext i
  refine (View.read_apply _ _).trans ((cast_eq _ _).trans ?_)
  show X _ = X (ix2 (i 0) ⟨(128 * wOf L + (i 1).val) % 4096, _⟩)
  refine congrArg X (funext fun a => Fin.ext ?_)
  have hv : ((xtM L).view.emb i a).val = k0_off1 L a + (i a).val := by
    show k0_off1 L a + 1 * (i a).val = _
    rw [Nat.one_mul]
  have h0 : k0_off1 L 0 = 0 := congrFun (k0_off1_eq L) 0
  have h1 : k0_off1 L 1 = 256 * (L 1).val + 128 * (L 0).val := congrFun (k0_off1_eq L) 1
  have hb : k0_off1 L 1 + 128 ≤ 4096 := k0_off1_inb L 1
  have hi1 : (i 1).val < 128 := (i 1).isLt
  rw [hv]
  match a with
  | ⟨0, _⟩ => show k0_off1 L 0 + (i 0).val = (i 0).val; omega
  | ⟨1, _⟩ => show k0_off1 L 1 + (i 1).val = (128 * (2 * (L 1).val + (L 0).val) + (i 1).val) % 4096; omega

/-- Written whole into the index scratch, whatever it held. -/
theorem idx_after_copy (d : Dev nD) (L : grid0.Coords) (fi : Buf (Elt F) ((iS).view.loc (thr d L))) (X : Buf (Elt F) ((xtM L).view.loc (thr d L))) :
    (iS).view.write (Elt F) fi ((xtM L).view.read (Elt F) X) Finset.univ = idxOf (wOf L) X := by
  rw [read_xtM d L X]
  exact View.write_whole_univ _ _ _

/-- Every word of every row of the index scratch names a table row, when the row numbers do. -/
theorem hin_of_range (d : Dev nD) (L : grid0.Coords) (X : Buf (Elt F) ((xtM L).view.loc (thr d L))) (hX : XInRange X)
    (off : Fin 2 → Nat) (h : ∀ a, off a + S1x128.size a ≤ S200x128.size a) (x : S128.Idx) :
    ((rowAt off h).view.read (Elt F) (idxOf (wOf L) X) x).toNat < 1000000 := by
  have e : (rowAt off h).view.read (Elt F) (idxOf (wOf L) X) x = idxOf (wOf L) X ((rowAt off h).view.emb x) :=
    (View.read_apply _ _).trans (cast_eq _ _)
  rw [e]
  exact hX _

/-! ## A slot after a gather -/

/-- The gather of the table rows that row `s` of the index scratch names, written whole into a slot (whatever was
    written there before): on the slot's elements it is `gathered TB FI s`. The slot is any 128-row window of the row
    scratch at a row offset that is a multiple of 128. -/
theorem gather_writes_eq (d : Dev nD) (L : grid0.Coords) (TB : Buf (Elt F) ((tW).view.loc (thr d L))) (FI : Buf (Elt F) ((iS).view.loc (thr d L)))
    (offS : Fin 2 → Nat) (hS : ∀ a, offS a + S128x128.size a ≤ S512x128.size a) (j : ℕ) (hj : offS = ![128 * j, 0])
    (off : Fin 2 → Nat) (h : ∀ a, off a + S1x128.size a ≤ S200x128.size a) (s : ℕ) (hs : off = ![s, 0]) (hs200 : s < 200)
    (hn : S128.numel = S128x128.size gathers_S1000000x128_S128x128.axis')
    (hin : ∀ x, ((rowAt off h).view.read (Elt F) FI x).toNat < S1000000x128.size gathers_S1000000x128_S128x128.axis)
    (base : Buf (Elt F) ((rS).view.loc (thr d L))) (rest : List (View.Piece (Elt F) S128x128 .f32)) :
    ∀ i ∈ (rS.slice (Rect.unit (s := S512x128) offS S128x128.size hS) (fun _ => rfl)).view.set,
      (rS.slice (Rect.unit (s := S512x128) offS S128x128.size hS) (fun _ => rfl)).view.writes (Elt F) base
          (⟨Rect.whole S128x128, SparseCore.gatherPayload gathers_S1000000x128_S128x128 ((tM).view.read (Elt F) TB)
              (SparseCore.rows ((rowAt off h).view.read (Elt F) FI) hn hin)⟩ :: rest) i
        = gathered TB FI s i := by
  intro i hi
  obtain ⟨y, -, rfl⟩ := Finset.mem_map.mp hi
  refine (writes_whole_emb _ _ _ _ y).trans ((cast_eq _ _).trans ?_)
  have hy0 : (y 0).val < 128 := (y 0).isLt
  have hj0 : offS 0 = 128 * j := congrFun hj 0
  have hj1 : offS 1 = 0 := congrFun hj 1
  have hr : (((rS.slice (Rect.unit (s := S512x128) offS S128x128.size hS) (fun _ => rfl)).view.emb y) 0).val % 128 = (y 0).val := by
    rw [slot_emb_val, hj0]
    omega
  refine Eq.trans ?_ (gathered_apply TB FI s hs200 _ (y 0) hr).symm
  unfold SparseCore.gatherPayload
  rw [read_tM]
  have hv := rows_val FI off h s hs hs200 hn hin (y 0)
  have hlt : (SparseCore.rows ((rowAt off h).view.read (Elt F) FI) hn hin (y 0)).val < 1000000 :=
    (SparseCore.rows ((rowAt off h).view.read (Elt F) FI) hn hin (y 0)).isLt
  generalize SparseCore.rows ((rowAt off h).view.read (Elt F) FI) hn hin = R at hv hlt ⊢
  refine congrArg TB (funext fun a => Fin.ext ?_)
  match a with
  | ⟨0, _⟩ =>
    -- the gathered axis: the row the offset list names, which the clamp leaves
    have h0 := Shape.Gathers.idx_axis gathers_S1000000x128_S128x128 R y
    show (gathers_S1000000x128_S128x128.idx R y gathers_S1000000x128_S128x128.axis).val
        = min (FI (ix2 ⟨s, hs200⟩ (y 0))).toNat 999999
    rw [h0]
    show (R (y 0)).val = _
    omega
  | ⟨1, _⟩ =>
    -- the lane axis: the destination's own coordinate
    have h1 := Shape.Gathers.idx_of_ne gathers_S1000000x128_S128x128 R y ⟨1, by decide⟩ (by decide)
    refine h1.trans ?_
    show (y 1).val = ((rS.slice (Rect.unit (s := S512x128) offS S128x128.size hS) (fun _ => rfl)).view.emb y 1).val
    rw [slot_emb_val, hj1]
    omega

/-! ## A slab after a copy-out -/

/-- A slot whose contents are the gather of position `s`, copied whole into slab `(s, w)` of the result: on the slab's
    elements the result holds `outOf TB X`. -/
theorem copyout_writes_eq (d : Dev nD) (L : grid0.Coords) (TB : Buf (Elt F) ((tW).view.loc (thr d L))) (X : Buf (Elt F) ((xtM L).view.loc (thr d L)))
    (offS : Fin 2 → Nat) (hS : ∀ a, offS a + S128x128.size a ≤ S512x128.size a) (j : ℕ) (hj : offS = ![128 * j, 0])
    (off : Fin 3 → Nat) (h : ∀ a, off a + S1x128x128.size a ≤ S200x4096x128.size a) (s : ℕ) (ho : off = ![s, 128 * wOf L, 0]) (hs200 : s < 200)
    (c : Buf (Elt F) ((rS).view.loc (thr d L)))
    (hc : ∀ i ∈ (rS.slice (Rect.unit (s := S512x128) offS S128x128.size hS) (fun _ => rfl)).view.set, c i = gathered TB (idxOf (wOf L) X) s i)
    (base : Buf (Elt F) ((oW).view.loc (thr d L))) (rest : List (View.Piece (Elt F) S128x128 .f32)) :
    ∀ i ∈ (slabAt off h).view.set,
      (slabAt off h).view.writes (Elt F) base
          (⟨Rect.whole S128x128, (rS.slice (Rect.unit (s := S512x128) offS S128x128.size hS) (fun _ => rfl)).view.read (Elt F) c⟩ :: rest) i
        = outOf TB X i := by
  intro i hi
  obtain ⟨y, -, rfl⟩ := Finset.mem_map.mp hi
  refine (writes_whole_emb _ _ _ _ y).trans ((cast_eq _ _).trans ?_)
  refine (View.read_apply _ _).trans ((cast_eq _ _).trans ?_)
  rw [hc _ (View.emb_mem_set _ y)]
  have hy0 : (y 0).val < 128 := (y 0).isLt
  have hj0 : offS 0 = 128 * j := congrFun hj 0
  have hj1 : offS 1 = 0 := congrFun hj 1
  have ho0 : off 0 = s := congrFun ho 0
  have ho1 : off 1 = 128 * wOf L := congrFun ho 1
  have ho2 : off 2 = 0 := congrFun ho 2
  have hb : off 1 + 128 ≤ 4096 := h 1
  -- the batch column the slab's row `y 0` stands for
  have hcol : 128 * wOf L + (y 0).val < 4096 := by omega
  rw [gathered_idxOf TB X (wOf L) s hs200 _ (y 0) (y 1) ⟨128 * wOf L + (y 0).val, hcol⟩
      (by rw [slot_emb_val, hj0]; omega) (by rw [slot_emb_val, hj1]; omega) rfl]
  refine (outOf_apply TB X _ ⟨s, hs200⟩ ⟨128 * wOf L + (y 0).val, hcol⟩ (y 1) ?_ ?_ ?_).symm
  · rw [slabAt_emb_val, ho0]; show s + 0 = s; omega
  · rw [slabAt_emb_val, ho1]; show 128 * wOf L + (y 0).val = _; rfl
  · rw [slabAt_emb_val, ho2]; show 0 + (y 1).val = _; omega

/-! ## The host operations around the call -/

/-- The first 64 lanes of the result over the zero-padded table and the transposed row numbers are the lookup. -/
theorem host_value [Cert.KernelIdeal.Facts] (x : IVec S4096x200 32) (table : FVec F S1000000x64 .f32) (z : FVec F S_ .f32) :
    extractStridedSlice S200x4096x64 ![0, 0, 0]
        (outOf (pad S1000000x128 ![0, 0] ![0, 64] ![0, 0] table z Facts₀.pads_S1000000x64_S1000000x128_000_0640 Facts₀.h_S_)
          (transpose S200x4096 [1, 0] x Facts₀.transposes_S4096x200_S200x4096_1_0))
        Facts₀.slices_S200x4096x128_S200x4096x64_0_0_0
      = Cert.Spec.lookup x table := by
  funext i
  obtain ⟨s, b, dd, rfl⟩ : ∃ (s : Fin 200) (b : Fin 4096) (dd : Fin 64), i = ix3 s b dd := ⟨i 0, i 1, i 2, eq_ix3 i⟩
  have hd : dd.val < 128 := by have := dd.isLt; omega
  -- the slice keeps the leading 64 lanes: the same coordinates in the wider array
  rw [extractStridedSlice_apply _ _ _ (ix3 s b dd) (ix3 s b (⟨dd.val, hd⟩ : Fin 128))
    (fun a => match a with
      | ⟨0, _⟩ => by show s.val = 0 + s.val; omega
      | ⟨1, _⟩ => by show b.val = 0 + b.val; omega
      | ⟨2, _⟩ => by show dd.val = 0 + dd.val; omega)]
  rw [Cert.Spec.lookup_apply]
  show pad S1000000x128 ![0, 0] ![0, 64] ![0, 0] table z Facts₀.pads_S1000000x64_S1000000x128_000_0640 Facts₀.h_S_
      (ix2 (rowNo (transpose S200x4096 [1, 0] x Facts₀.transposes_S4096x200_S200x4096_1_0 (ix2 s b))) (⟨dd.val, hd⟩ : Fin 128)) = _
  -- the transposed row numbers at (s, b) are the row numbers at (b, s)
  rw [transpose_apply _ _ _ (ix2 s b) (ix2 b s) (fun a => match a with | ⟨0, _⟩ => rfl | ⟨1, _⟩ => rfl)]
  -- below lane 64 the padded table is the table
  exact pad_apply_of_inside _ _ _ table z _ _ _ (ix2 (Cert.Spec.row x b s) dd)
    (fun a => match a with
      | ⟨0, _⟩ => by show min (x (ix2 b s)).toNat 999999 = 0 + min (x (ix2 b s)).toNat 999999 * (0 + 1); omega
      | ⟨1, _⟩ => by show dd.val = 0 + dd.val * (0 + 1); omega)

/-- Transposed row numbers are in range when the row numbers are. -/
theorem xinrange_transpose [Cert.KernelIdeal.Facts] (x : IVec S4096x200 32) (h : Cert.Spec.InRange x) :
    XInRange (transpose S200x4096 [1, 0] x Facts₀.transposes_S4096x200_S200x4096_1_0) := by
  intro i
  obtain ⟨s, b, rfl⟩ : ∃ (s : Fin 200) (b : Fin 4096), i = ix2 s b := ⟨i 0, i 1, eq_ix2 i⟩
  rw [transpose_apply _ _ _ (ix2 s b) (ix2 b s) (fun a => match a with | ⟨0, _⟩ => rfl | ⟨1, _⟩ => rfl)]
  exact h b s

end Cert.Proof.KernelIdeal

end
-- ==== Proof.KIGeom.lean ====
import proofs.«206931_g83167746720501_cont_9to1_m_74_15_alg».proof.Proof.KIDefs

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The element sets of the program's memrefs -/

/-- Membership in a unit-stride rectangle of a rank-two shape, axis by axis. -/
theorem mem_unit2 {d : Fin 2 → Nat} {off size : Fin 2 → Nat} {inb : ∀ a, off a + size a ≤ (⟨2, d⟩ : Shape).size a}
    {i : (⟨2, d⟩ : Shape).Idx} :
    i ∈ (Rect.unit (s := ⟨2, d⟩) off size inb).set ↔
      (off 0 ≤ (i 0).val ∧ (i 0).val < off 0 + size 0) ∧ (off 1 ≤ (i 1).val ∧ (i 1).val < off 1 + size 1) := by
  rw [Rect.mem_set_unit]; exact Fin.forall_fin_two

/-- Membership in a unit-stride rectangle of a rank-three shape, axis by axis. -/
theorem mem_unit3 {d : Fin 3 → Nat} {off size : Fin 3 → Nat} {inb : ∀ a, off a + size a ≤ (⟨3, d⟩ : Shape).size a}
    {i : (⟨3, d⟩ : Shape).Idx} :
    i ∈ (Rect.unit (s := ⟨3, d⟩) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  constructor
  · intro h; exact ⟨h 0, h 1, h 2⟩
  · rintro ⟨h0, h1, h2⟩ a
    match a with
    | 0 => exact h0
    | 1 => exact h1
    | 2 => exact h2

/-- The tile's first batch column, `256 · subcore + 128 · core`, is `128` times its worker number. -/
theorem off_w (L : grid0.Coords) : 256 * (L 1).val + 128 * (L 0).val = 128 * wOf L := by
  show 256 * (L 1).val + 128 * (L 0).val = 128 * (2 * (L 1).val + (L 0).val); omega

theorem set_xtM (L : grid0.Coords) : (xtM L).view.set = xtSet (wOf L) := by
  simp only [Memref.view_slice, Memref.view_whole, View.set_slice_whole]
  refine Finset.ext fun (i : S200x4096.Idx) => ?_
  have h0 : (i 0).val < 200 := (i 0).isLt
  have h1 : (i 1).val < 4096 := (i 1).isLt
  rw [mem_unit2, k0_off1_eq L, off_w L]
  simp only [xtSet, Finset.mem_filter, Finset.mem_univ, true_and]
  show ((0 ≤ (i 0).val ∧ (i 0).val < 0 + 200) ∧ (128 * wOf L ≤ (i 1).val ∧ (i 1).val < 128 * wOf L + 128)) ↔ (i 1).val / 128 = wOf L
  omega

theorem set_tM : (tM).view.set = Finset.univ := by
  simp only [Memref.view_slice, Memref.view_whole, View.set_slice_whole]
  refine Finset.ext fun (i : S1000000x128.Idx) => ?_
  have h0 : (i 0).val < 1000000 := (i 0).isLt
  have h1 : (i 1).val < 128 := (i 1).isLt
  rw [mem_unit2]
  simp only [Finset.mem_univ, iff_true]
  show ((0 ≤ (i 0).val ∧ (i 0).val < 0 + 1000000) ∧ (0 ≤ (i 1).val ∧ (i 1).val < 0 + 128))
  omega

/-- Rows `[o, o + 128)` of the row scratch are slot `j` when `o = 128 j`. -/
theorem set_slot_aux (o j : ℕ) (ho : o = 128 * j) (h : ∀ a, (![o, 0] : Fin 2 → Nat) a + S128x128.size a ≤ S512x128.size a) :
    ((rS.slice (Rect.unit (s := S512x128) ![o, 0] S128x128.size h) (fun _ => rfl)).view.set) = slotSet j := by
  simp only [Memref.view_slice, Memref.view_whole, View.set_slice_whole]
  refine Finset.ext fun (i : S512x128.Idx) => ?_
  have h0 : (i 0).val < 512 := (i 0).isLt
  have h1 : (i 1).val < 128 := (i 1).isLt
  rw [mem_unit2]
  simp only [slotSet, Finset.mem_filter, Finset.mem_univ, true_and]
  show ((o ≤ (i 0).val ∧ (i 0).val < o + 128) ∧ (0 ≤ (i 1).val ∧ (i 1).val < 0 + 128)) ↔ (i 0).val / 128 = j
  omega

theorem set_slot0 : (slot0).view.set = slotSet 0 := set_slot_aux 0 0 rfl _
theorem set_slot1 : (slot1).view.set = slotSet 1 := set_slot_aux 128 1 rfl _
theorem set_slot2 : (slot2).view.set = slotSet 2 := set_slot_aux 256 2 rfl _
theorem set_slot3 : (slot3).view.set = slotSet 3 := set_slot_aux 384 3 rfl _

theorem set_rowAt (off : Fin 2 → Nat) (h : ∀ a, off a + S1x128.size a ≤ S200x128.size a) (s : ℕ) (hs : off = ![s, 0]) :
    (rowAt off h).view.set = rowSet s := by
  subst hs
  simp only [Memref.view_squeeze, Memref.view_slice, Memref.view_whole, View.set_reshape, View.set_slice_whole]
  refine Finset.ext fun (i : S200x128.Idx) => ?_
  have h0 : (i 0).val < 200 := (i 0).isLt
  have h1 : (i 1).val < 128 := (i 1).isLt
  rw [mem_unit2]
  simp only [rowSet, Finset.mem_filter, Finset.mem_univ, true_and]
  show ((s ≤ (i 0).val ∧ (i 0).val < s + 1) ∧ (0 ≤ (i 1).val ∧ (i 1).val < 0 + 128)) ↔ (i 0).val = s
  omega

theorem set_rowK (k : Fin k0_t1_loop.trips) (r : Fin 4) : (rowK k r).view.set = rowSet (4 * k.val + r.val + 6) :=
  set_rowAt _ _ _ (k0_off8_eq k r)

theorem set_slabAt (off : Fin 3 → Nat) (h : ∀ a, off a + S1x128x128.size a ≤ S200x4096x128.size a) (s w : ℕ) (ho : off = ![s, 128 * w, 0]) :
    (slabAt off h).view.set = slabSet w s := by
  subst ho
  simp only [Memref.view_squeeze, Memref.view_slice, Memref.view_whole, View.set_reshape, View.set_slice_whole]
  refine Finset.ext fun (i : S200x4096x128.Idx) => ?_
  have h0 : (i 0).val < 200 := (i 0).isLt
  have h1 : (i 1).val < 4096 := (i 1).isLt
  have h2 : (i 2).val < 128 := (i 2).isLt
  rw [mem_unit3]
  simp only [slabSet, Finset.mem_filter, Finset.mem_univ, true_and]
  show ((s ≤ (i 0).val ∧ (i 0).val < s + 1) ∧ (128 * w ≤ (i 1).val ∧ (i 1).val < 128 * w + 128) ∧ (0 ≤ (i 2).val ∧ (i 2).val < 0 + 128))
    ↔ ((i 0).val = s ∧ (i 1).val / 128 = w)
  omega

theorem set_slabK (L : grid0.Coords) (k : Fin k0_t1_loop.trips) (r : Fin 4) : (slabK L k r).view.set = slabSet (wOf L) (4 * k.val + r.val + 4) :=
  set_slabAt _ _ _ _ (by rw [k0_off6_eq L k r, off_w L])
theorem set_slab_off2 (L : grid0.Coords) : (slabAt (k0_off2 L) (k0_off2_inb L)).view.set = slabSet (wOf L) 0 :=
  set_slabAt _ _ _ _ (by rw [k0_off2_eq L, off_w L])
theorem set_slab_off3 (L : grid0.Coords) : (slabAt (k0_off3 L) (k0_off3_inb L)).view.set = slabSet (wOf L) 1 :=
  set_slabAt _ _ _ _ (by rw [k0_off3_eq L, off_w L])
theorem set_slab_off4 (L : grid0.Coords) : (slabAt (k0_off4 L) (k0_off4_inb L)).view.set = slabSet (wOf L) 2 :=
  set_slabAt _ _ _ _ (by rw [k0_off4_eq L, off_w L])
theorem set_slab_off5 (L : grid0.Coords) : (slabAt (k0_off5 L) (k0_off5_inb L)).view.set = slabSet (wOf L) 3 :=
  set_slabAt _ _ _ _ (by rw [k0_off5_eq L, off_w L])
theorem set_slab_off9 (L : grid0.Coords) : (slabAt (k0_off9 L) (k0_off9_inb L)).view.set = slabSet (wOf L) 196 :=
  set_slabAt _ _ _ _ (by rw [k0_off9_eq L, off_w L])
theorem set_slab_off10 (L : grid0.Coords) : (slabAt (k0_off10 L) (k0_off10_inb L)).view.set = slabSet (wOf L) 197 :=
  set_slabAt _ _ _ _ (by rw [k0_off10_eq L, off_w L])
theorem set_slab_off11 (L : grid0.Coords) : (slabAt (k0_off11 L) (k0_off11_inb L)).view.set = slabSet (wOf L) 198 :=
  set_slabAt _ _ _ _ (by rw [k0_off11_eq L, off_w L])
theorem set_slab_off12 (L : grid0.Coords) : (slabAt (k0_off12 L) (k0_off12_inb L)).view.set = slabSet (wOf L) 199 :=
  set_slabAt _ _ _ _ (by rw [k0_off12_eq L, off_w L])
/-- The loop runs forty-eight trips. -/
theorem trips_eq : k0_t1_loop.trips = 48 := by decide

/-! ## Splitting a buffer into its pieces (all at one contents `f`, full share unless a share is named) -/

/-- The tile's block of the result: every position, the batch columns of worker `w`, every lane. -/
def oblkSet (w : ℕ) : Finset S200x4096x128.Idx := Finset.univ.filter fun i => (i 1).val / 128 = w

/-- Distinct rows of the index scratch share no element: an element's first coordinate names its row. -/
theorem rowSet_disjoint (S : Finset ℕ) : ∀ s ∈ S, ∀ s' ∈ S, s ≠ s' → Disjoint (rowSet s) (rowSet s') := by
  intro s _ s' _ hne
  rw [Finset.disjoint_left]
  intro i hi hi'
  simp only [rowSet, Finset.mem_filter, Finset.mem_univ, true_and] at hi hi'
  exact hne (hi.symm.trans hi')
/-- Every element of the index scratch lies in the row its first coordinate names. -/
theorem rowSet_cover : (Finset.range 200).biUnion rowSet = Finset.univ := by
  refine Finset.ext fun (i : S200x128.Idx) => ?_
  have h0 : (i 0).val < 200 := (i 0).isLt
  simp only [Finset.mem_biUnion, Finset.mem_range, rowSet, Finset.mem_filter, Finset.mem_univ, true_and, iff_true]
  exact ⟨(i 0).val, h0, rfl⟩

theorem slotSet_disjoint (S : Finset ℕ) : ∀ j ∈ S, ∀ j' ∈ S, j ≠ j' → Disjoint (slotSet j) (slotSet j') := by
  intro j _ j' _ hne
  rw [Finset.disjoint_left]
  intro i hi hi'
  simp only [slotSet, Finset.mem_filter, Finset.mem_univ, true_and] at hi hi'
  exact hne (hi.symm.trans hi')
theorem slotSet_cover : (Finset.range 4).biUnion slotSet = Finset.univ := by
  refine Finset.ext fun (i : S512x128.Idx) => ?_
  have h0 : (i 0).val < 512 := (i 0).isLt
  simp only [Finset.mem_biUnion, Finset.mem_range, slotSet, Finset.mem_filter, Finset.mem_univ, true_and, iff_true]
  exact ⟨(i 0).val / 128, by omega, rfl⟩

theorem slabSet_disjoint (w : ℕ) (S : Finset ℕ) : ∀ s ∈ S, ∀ s' ∈ S, s ≠ s' → Disjoint (slabSet w s) (slabSet w s') := by
  intro s _ s' _ hne
  rw [Finset.disjoint_left]
  intro i hi hi'
  simp only [slabSet, Finset.mem_filter, Finset.mem_univ, true_and] at hi hi'
  exact hne (hi.1.symm.trans hi'.1)
theorem slabSet_cover (w : ℕ) : (Finset.range 200).biUnion (slabSet w) = oblkSet w := by
  refine Finset.ext fun (i : S200x4096x128.Idx) => ?_
  have h0 : (i 0).val < 200 := (i 0).isLt
  simp only [Finset.mem_biUnion, Finset.mem_range, slabSet, oblkSet, Finset.mem_filter, Finset.mem_univ, true_and]
  constructor
  · rintro ⟨s, _, _, h⟩; exact h
  · intro h; exact ⟨(i 0).val, h0, rfl, h⟩

theorem idx_rows (d : Dev nD) (L : grid0.Coords) (f : Buf (Elt F) ((iS).view.loc (thr d L))) :
    ((iS).view.loc (thr d L) ↦{fullShare} f : sProp 𝕄) = bigSep (Finset.range 200) fun s => (iS).view.loc (thr d L) ↦[rowSet s]{fullShare} f := by
  rw [← pointsTo_biUnion (Finset.range 200) (ℓ := (iS).view.loc (thr d L)) rowSet (rowSet_disjoint _), rowSet_cover]; try rfl
theorem scratch_slots (d : Dev nD) (L : grid0.Coords) (f : Buf (Elt F) ((rS).view.loc (thr d L))) :
    ((rS).view.loc (thr d L) ↦{fullShare} f : sProp 𝕄) = bigSep (Finset.range 4) fun j => (rS).view.loc (thr d L) ↦[slotSet j]{fullShare} f := by
  rw [← pointsTo_biUnion (Finset.range 4) (ℓ := (rS).view.loc (thr d L)) slotSet (slotSet_disjoint _), slotSet_cover]; try rfl
theorem oblk_slabs (d : Dev nD) (L : grid0.Coords) (w : ℕ) (f : Buf (Elt F) ((oW).view.loc (thr d L))) :
    ((oW).view.loc (thr d L) ↦[oblkSet w]{fullShare} f : sProp 𝕄) = bigSep (Finset.range 200) fun s => (oW).view.loc (thr d L) ↦[slabSet w s]{fullShare} f := by
  rw [← pointsTo_biUnion (Finset.range 200) (ℓ := (oW).view.loc (thr d L)) (slabSet w) (slabSet_disjoint w _), slabSet_cover]
/-- The same family with contents that may differ from slab to slab but agree with `g` on each slab. -/
theorem oblk_slabs_join (d : Dev nD) (L : grid0.Coords) (w : ℕ) (g : Buf (Elt F) ((oW).view.loc (thr d L))) :
    (bigSep (Finset.range 200) fun s => ((oW).view.loc (thr d L) ↦[slabSet w s]{fullShare} g : sProp 𝕄)) ⊢ ((oW).view.loc (thr d L) ↦[oblkSet w]{fullShare} g) := by
  rw [oblk_slabs]

/-! ## Splitting the launch arrays among the thirty-two tiles

Core `c < 2` and subcore `i < 16` name worker `2 i + c`; a worker number below thirty-two names exactly one
such pair (`c` its parity, `i` its half). An array whose every element carries a worker number below thirty-two is
therefore the thirty-two workers' pieces. -/

/-- A buffer whose elements are keyed by worker numbers below thirty-two, split by core and subcore. -/
theorem pts_workers {ℓ : Loc nD τ sig} (key : Idx ℓ → ℕ) (hkey : ∀ j, key j < 32) (f : Buf (Elt F) ℓ) :
    (ℓ ↦{fullShare} f : sProp 𝕄)
      = bigSep (Finset.univ : Finset (Fin 2)) fun c => bigSep (Finset.univ : Finset (Fin 16)) fun i =>
          ℓ ↦[Finset.univ.filter fun j => key j = 2 * i.val + c.val]{fullShare} f := by
  -- the pieces of one core, together
  let Kc : Fin 2 → Finset (Idx ℓ) := fun c =>
    (Finset.univ : Finset (Fin 16)).biUnion fun i => Finset.univ.filter fun j => key j = 2 * i.val + c.val
  have hin : ∀ c : Fin 2,
      (bigSep (Finset.univ : Finset (Fin 16)) fun i =>
        (ℓ ↦[Finset.univ.filter fun j => key j = 2 * i.val + c.val]{fullShare} f : sProp 𝕄)) = ℓ ↦[Kc c]{fullShare} f := by
    intro c
    refine (pointsTo_biUnion Finset.univ (fun i : Fin 16 => Finset.univ.filter fun j => key j = 2 * i.val + c.val) ?_).symm
    intro i _ i' _ hne
    rw [Finset.disjoint_left]; intro j hj hj'
    simp only [Finset.mem_filter, Finset.mem_univ, true_and] at hj hj'
    exact hne (Fin.ext (by omega))
  have hout : ∀ c ∈ (Finset.univ : Finset (Fin 2)), ∀ c' ∈ (Finset.univ : Finset (Fin 2)), c ≠ c' → Disjoint (Kc c) (Kc c') := by
    intro c _ c' _ hne
    rw [Finset.disjoint_left]; intro j hj hj'
    simp only [Kc, Finset.mem_biUnion, Finset.mem_filter, Finset.mem_univ, true_and] at hj hj'
    obtain ⟨i, hi⟩ := hj; obtain ⟨i', hi'⟩ := hj'
    have hc := c.isLt; have hc' := c'.isLt
    exact hne (Fin.ext (by omega))
  have hcov : (Finset.univ : Finset (Fin 2)).biUnion Kc = Finset.univ := by
    ext j
    simp only [Kc, Finset.mem_biUnion, Finset.mem_filter, Finset.mem_univ, true_and, iff_true]
    have hj := hkey j
    exact ⟨⟨key j % 2, by omega⟩, ⟨key j / 2, by omega⟩, by show key j = 2 * (key j / 2) + key j % 2; omega⟩
  simp only [hin]
  rw [← pointsTo_biUnion Finset.univ Kc hout, hcov]

/-- The same family back into the whole buffer, the pieces' contents agreeing with `g` piece by piece. -/
theorem pts_workers_join {ℓ : Loc nD τ sig} (key : Idx ℓ → ℕ) (hkey : ∀ j, key j < 32)
    (fs : Fin 2 → Fin 16 → Buf (Elt F) ℓ) (g : Buf (Elt F) ℓ)
    (hg : ∀ (c : Fin 2) (i : Fin 16) (j : Idx ℓ), key j = 2 * i.val + c.val → fs c i j = g j) :
    (bigSep (Finset.univ : Finset (Fin 2)) fun c => bigSep (Finset.univ : Finset (Fin 16)) fun i =>
        (ℓ ↦[Finset.univ.filter fun j => key j = 2 * i.val + c.val]{fullShare} fs c i : sProp 𝕄))
      ⊢ ℓ ↦{fullShare} g := by
  have hcg : ∀ (c : Fin 2) (i : Fin 16),
      (ℓ ↦[Finset.univ.filter fun j => key j = 2 * i.val + c.val]{fullShare} fs c i : sProp 𝕄)
        = ℓ ↦[Finset.univ.filter fun j => key j = 2 * i.val + c.val]{fullShare} g := fun c i =>
    pointsTo_congr fun j hj => hg c i j (by simpa only [Finset.mem_filter, Finset.mem_univ, true_and] using hj)
  simp only [hcg]
  rw [← pts_workers key hkey g]

/-- (a) The transposed row numbers are the thirty-two tiles' column blocks. -/
theorem xt_workers (d : Dev nD) (f : Buf (Elt F) ((SparseCore.T d).loc main_v0)) :
    ((SparseCore.T d).loc main_v0 ↦{fullShare} f : sProp 𝕄)
      = bigSep (Finset.univ : Finset (Fin 2)) fun c => bigSep (Finset.univ : Finset (Fin 16)) fun i =>
          (SparseCore.T d).loc main_v0 ↦[xtSet (2 * i.val + c.val)]{fullShare} f :=
  pts_workers (ℓ := (SparseCore.T d).loc main_v0) (fun j : S200x4096.Idx => (j 1).val / 128)
    (fun j => by have h1 : (j 1).val < 4096 := (j 1).isLt; show (j 1).val / 128 < 32; omega) f

/-- (b) The result array is the thirty-two tiles' blocks. -/
theorem out_workers (d : Dev nD) (f : Buf (Elt F) ((SparseCore.T d).loc main_v2)) :
    ((SparseCore.T d).loc main_v2 ↦{fullShare} f : sProp 𝕄)
      = bigSep (Finset.univ : Finset (Fin 2)) fun c => bigSep (Finset.univ : Finset (Fin 16)) fun i =>
          (SparseCore.T d).loc main_v2 ↦[oblkSet (2 * i.val + c.val)]{fullShare} f :=
  pts_workers (ℓ := (SparseCore.T d).loc main_v2) (fun j : S200x4096x128.Idx => (j 1).val / 128)
    (fun j => by have h1 : (j 1).val < 4096 := (j 1).isLt; show (j 1).val / 128 < 32; omega) f

/-- (c) The tiles' blocks, each at contents that agree with `g` on that block, are the result array at `g`. -/
theorem out_workers_join (d : Dev nD) (fs : Fin 2 → Fin 16 → Buf (Elt F) ((SparseCore.T d).loc main_v2))
    (g : Buf (Elt F) ((SparseCore.T d).loc main_v2))
    (hg : ∀ (c : Fin 2) (i : Fin 16), ∀ j ∈ oblkSet (2 * i.val + c.val), fs c i j = g j) :
    (bigSep (Finset.univ : Finset (Fin 2)) fun c => bigSep (Finset.univ : Finset (Fin 16)) fun i =>
        ((SparseCore.T d).loc main_v2 ↦[oblkSet (2 * i.val + c.val)]{fullShare} fs c i : sProp 𝕄))
      ⊢ (SparseCore.T d).loc main_v2 ↦{fullShare} g :=
  pts_workers_join (ℓ := (SparseCore.T d).loc main_v2) (fun j : S200x4096x128.Idx => (j 1).val / 128)
    (fun j => by have h1 : (j 1).val < 4096 := (j 1).isLt; show (j 1).val / 128 < 32; omega) fs g
    (fun c i j hj => hg c i j (by simp only [oblkSet, Finset.mem_filter, Finset.mem_univ, true_and]; exact hj))

/-- (c), all blocks at the one contents `g`. -/
theorem out_workers_join' (d : Dev nD) (g : Buf (Elt F) ((SparseCore.T d).loc main_v2)) :
    (bigSep (Finset.univ : Finset (Fin 2)) fun c => bigSep (Finset.univ : Finset (Fin 16)) fun i =>
        ((SparseCore.T d).loc main_v2 ↦[oblkSet (2 * i.val + c.val)]{fullShare} g : sProp 𝕄))
      ⊢ (SparseCore.T d).loc main_v2 ↦{fullShare} g :=
  out_workers_join d (fun _ _ => g) g (fun _ _ _ _ => rfl)

end Cert.Proof.KernelIdeal

end
-- ==== Proof.KIConv.lean ====
import proofs.«206931_g83167746720501_cont_9to1_m_74_15_alg».proof.Proof.KIValue
import proofs.«206931_g83167746720501_cont_9to1_m_74_15_alg».proof.Proof.KIGeom

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## Families over an interval of positions -/

omit [FloatOps F] in
theorem Ico_pop (Φ : ℕ → sProp 𝕄) {a b : ℕ} (h : a < b) :
    bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, bigSep_insert (by simp)]; rfl
omit [FloatOps F] in
theorem range_push (Φ : ℕ → sProp 𝕄) (n : ℕ) :
    bigSep (Finset.range (n + 1)) Φ = iprop(Φ n ∗ bigSep (Finset.range n) Φ) := by
  rw [Finset.range_add_one, bigSep_insert Finset.notMem_range_self]; rfl
omit [FloatOps F] in
theorem Ico_empty' (Φ : ℕ → sProp 𝕄) (a : ℕ) : bigSep (Finset.Ico a a) Φ = iprop(emp) := by
  rw [Finset.Ico_self, bigSep_empty]; rfl

omit [FloatOps F] in
theorem Ico_pop4 (Φ : ℕ → sProp 𝕄) {a b : ℕ} (h : a + 3 < b) :
    bigSep (Finset.Ico a b) Φ = iprop(Φ a ∗ Φ (a + 1) ∗ Φ (a + 2) ∗ Φ (a + 3) ∗ bigSep (Finset.Ico (a + 4) b) Φ) := by
  rw [Ico_pop Φ (by omega : a < b), Ico_pop Φ (by omega : a + 1 < b), Ico_pop Φ (by omega : a + 1 + 1 < b), Ico_pop Φ (by omega : a + 1 + 1 + 1 < b)]
omit [FloatOps F] in
theorem range_push4 (Φ : ℕ → sProp 𝕄) (n : ℕ) :
    bigSep (Finset.range (n + 4)) Φ = iprop(Φ (n + 3) ∗ Φ (n + 2) ∗ Φ (n + 1) ∗ Φ n ∗ bigSep (Finset.range n) Φ) := by
  rw [show n + 4 = n + 3 + 1 from rfl, range_push Φ (n + 3), show n + 3 = n + 2 + 1 from rfl, range_push Φ (n + 2),
    show n + 2 = n + 1 + 1 from rfl, range_push Φ (n + 1), range_push Φ n]
omit [FloatOps F] in
theorem range200_pop6 (Φ : ℕ → sProp 𝕄) :
    bigSep (Finset.range 200) Φ = iprop(Φ 0 ∗ Φ 1 ∗ Φ 2 ∗ Φ 3 ∗ Φ 4 ∗ Φ 5 ∗ bigSep (Finset.Ico 6 200) Φ) := by
  rw [Finset.range_eq_Ico, Ico_pop4 Φ (by omega : 0 + 3 < 200), Ico_pop Φ (by omega : 0 + 4 < 200), Ico_pop Φ (by omega : 0 + 4 + 1 < 200)]
omit [FloatOps F] in
theorem range200_pop4 (Φ : ℕ → sProp 𝕄) :
    bigSep (Finset.range 200) Φ = iprop(Φ 0 ∗ Φ 1 ∗ Φ 2 ∗ Φ 3 ∗ bigSep (Finset.Ico 4 200) Φ) := by
  rw [Finset.range_eq_Ico, Ico_pop4 Φ (by omega : 0 + 3 < 200)]
omit [FloatOps F] in
theorem range4 (Φ : ℕ → sProp 𝕄) : bigSep (Finset.range 4) Φ = iprop(Φ 0 ∗ Φ 1 ∗ Φ 2 ∗ Φ 3 ∗ emp) := by
  rw [Finset.range_eq_Ico, Ico_pop4 Φ (by omega : 0 + 3 < 4), Ico_empty']

omit [FloatOps F] in
theorem fin4 (Φ : Fin 4 → sProp 𝕄) : bigSep (Finset.univ : Finset (Fin 4)) Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]; rfl

/-! ## The loop's offsets, by worker number -/

omit [FloatOps F] in
theorem off6_eq (L : grid0.Coords) (k : Fin k0_t1_loop.trips) (r : Fin 4) :
    k0_off6 L k (BitVec.ofNat 32 r.val) = ![4 * k.val + r.val + 4, 128 * wOf L, 0] := by
  rw [k0_off6_eq L k r]
  funext a
  match a with
  | ⟨0, _⟩ => rfl
  | ⟨1, _⟩ => show 256 * (L 1).val + 128 * (L 0).val = 128 * (2 * (L 1).val + (L 0).val); omega
  | ⟨2, _⟩ => rfl
omit [FloatOps F] in
theorem off8_eq (k : Fin k0_t1_loop.trips) (r : Fin 4) :
    k0_off8 k (BitVec.ofNat 32 r.val) = ![4 * k.val + r.val + 6, 0] := k0_off8_eq k r
omit [FloatOps F] in
theorem offw (L : grid0.Coords) : 256 * (L 1).val + 128 * (L 0).val = 128 * wOf L := by
  show 256 * (L 1).val + 128 * (L 0).val = 128 * (2 * (L 1).val + (L 0).val); omega
omit [FloatOps F] in
theorem offlit_eq (L : grid0.Coords) (s : ℕ) :
    (![s, 256 * (L 1).val + 128 * (L 0).val, 0] : Fin 3 → Nat) = ![s, 128 * wOf L, 0] := by rw [offw]

section Pieces

variable (d : Dev nD) (L : grid0.Coords)
variable (X : Buf (Elt F) ((xtM L).view.loc (thr d L))) (TB : Buf (Elt F) ((tW).view.loc (thr d L)))

/-- A row of the index scratch, spelt as an offset list, is the row's elements. -/
theorem row_pts_eq (off : Fin 2 → Nat) (h : ∀ a, off a + S1x128.size a ≤ S200x128.size a) (s : ℕ) (hs : off = ![s, 0])
    (f : Buf (Elt F) ((iS).view.loc (thr d L))) :
    ((rowAt off h).view.loc (thr d L) ↦[(rowAt off h).view.set]{fullShare} f : sProp 𝕄) = ((iS).view.loc (thr d L) ↦[rowSet s]{fullShare} f) := by
  rw [set_rowAt off h s hs]

/-- A slot of the row scratch, spelt as the program slices it, is the slot's elements. -/
theorem slot0_pts_eq (f : Buf (Elt F) ((rS).view.loc (thr d L))) :
    ((slot0).view.loc (thr d L) ↦[(slot0).view.set]{fullShare} f : sProp 𝕄) = ((rS).view.loc (thr d L) ↦[slotSet 0]{fullShare} f) := by rw [set_slot0]
theorem slot1_pts_eq (f : Buf (Elt F) ((rS).view.loc (thr d L))) :
    ((slot1).view.loc (thr d L) ↦[(slot1).view.set]{fullShare} f : sProp 𝕄) = ((rS).view.loc (thr d L) ↦[slotSet 1]{fullShare} f) := by rw [set_slot1]
theorem slot2_pts_eq (f : Buf (Elt F) ((rS).view.loc (thr d L))) :
    ((slot2).view.loc (thr d L) ↦[(slot2).view.set]{fullShare} f : sProp 𝕄) = ((rS).view.loc (thr d L) ↦[slotSet 2]{fullShare} f) := by rw [set_slot2]
theorem slot3_pts_eq (f : Buf (Elt F) ((rS).view.loc (thr d L))) :
    ((slot3).view.loc (thr d L) ↦[(slot3).view.set]{fullShare} f : sProp 𝕄) = ((rS).view.loc (thr d L) ↦[slotSet 3]{fullShare} f) := by rw [set_slot3]

/-- A slab of the result, spelt as a copy's target, is the slab's elements. -/
theorem slab_pts_eq (off : Fin 3 → Nat) (h : ∀ a, off a + S1x128x128.size a ≤ S200x4096x128.size a) (s : ℕ) (ho : off = ![s, 128 * wOf L, 0])
    (f : Buf (Elt F) ((oW).view.loc (thr d L))) :
    ((slabAt off h).view.loc (thr d L) ↦[(slabAt off h).view.set]{fullShare} f : sProp 𝕄) = ((oW).view.loc (thr d L) ↦[slabSet (wOf L) s]{fullShare} f) := by
  rw [set_slabAt off h s (wOf L) ho]

/-- A slot after a gather, as the canonical contents. -/
theorem slot_gathered_eq (offS : Fin 2 → Nat) (hS : ∀ a, offS a + S128x128.size a ≤ S512x128.size a) (j : ℕ) (hj : offS = ![128 * j, 0])
    (off : Fin 2 → Nat) (h : ∀ a, off a + S1x128.size a ≤ S200x128.size a) (s : ℕ) (hs : off = ![s, 0]) (hs200 : s < 200)
    (hn : S128.numel = S128x128.size gathers_S1000000x128_S128x128.axis')
    (hin : ∀ x, ((rowAt off h).view.read (Elt F) (idxOf (wOf L) X) x).toNat < S1000000x128.size gathers_S1000000x128_S128x128.axis)
    (base : Buf (Elt F) ((rS).view.loc (thr d L))) (rest : List (View.Piece (Elt F) S128x128 .f32)) :
    ((rS.slice (Rect.unit (s := S512x128) offS S128x128.size hS) (fun _ => rfl)).view.loc (thr d L)
        ↦[(rS.slice (Rect.unit (s := S512x128) offS S128x128.size hS) (fun _ => rfl)).view.set]{fullShare}
          (rS.slice (Rect.unit (s := S512x128) offS S128x128.size hS) (fun _ => rfl)).view.writes (Elt F) base
            (⟨Rect.whole S128x128, SparseCore.gatherPayload gathers_S1000000x128_S128x128 ((tM).view.read (Elt F) TB)
                (SparseCore.rows ((rowAt off h).view.read (Elt F) (idxOf (wOf L) X)) hn hin)⟩ :: rest) : sProp 𝕄)
      = ((rS.slice (Rect.unit (s := S512x128) offS S128x128.size hS) (fun _ => rfl)).view.loc (thr d L)
        ↦[(rS.slice (Rect.unit (s := S512x128) offS S128x128.size hS) (fun _ => rfl)).view.set]{fullShare} gathered TB (idxOf (wOf L) X) s) :=
  pointsTo_congr (gather_writes_eq d L TB (idxOf (wOf L) X) offS hS j hj off h s hs hs200 hn hin base rest)

/-- A slab after a copy-out of a slot holding the gather of its position, as the canonical contents. -/
theorem slab_done_eq (offS : Fin 2 → Nat) (hS : ∀ a, offS a + S128x128.size a ≤ S512x128.size a) (j : ℕ) (hj : offS = ![128 * j, 0])
    (off : Fin 3 → Nat) (h : ∀ a, off a + S1x128x128.size a ≤ S200x4096x128.size a) (s : ℕ) (ho : off = ![s, 128 * wOf L, 0]) (hs200 : s < 200)
    (c : Buf (Elt F) ((rS).view.loc (thr d L)))
    (hc : ∀ i ∈ (rS.slice (Rect.unit (s := S512x128) offS S128x128.size hS) (fun _ => rfl)).view.set, c i = gathered TB (idxOf (wOf L) X) s i)
    (base : Buf (Elt F) ((oW).view.loc (thr d L))) (rest : List (View.Piece (Elt F) S128x128 .f32)) :
    ((slabAt off h).view.loc (thr d L) ↦[(slabAt off h).view.set]{fullShare}
        (slabAt off h).view.writes (Elt F) base
          (⟨Rect.whole S128x128, ReadAs.same.apply ((rS.slice (Rect.unit (s := S512x128) offS S128x128.size hS) (fun _ => rfl)).view.read (Elt F) c)⟩ :: rest) : sProp 𝕄)
      = ((oW).view.loc (thr d L) ↦[slabSet (wOf L) s]{fullShare} outOf TB X) := by
  rw [pointsTo_congr (copyout_writes_eq d L TB X offS hS j hj off h s ho hs200 c hc base rest), set_slabAt off h s (wOf L) ho]

/-! ## Flights, restated -/

/-- A gather in flight whose slot is given as a list of writes, the newest the gathered rows, delivers the canonical pieces. -/
theorem gflight_canon (sm : SemLoc sig) (ι : HIx 1) (N : ℕ) (qt : PosShare TreeShare)
    (offS : Fin 2 → Nat) (hS : ∀ a, offS a + S128x128.size a ≤ S512x128.size a) (j : ℕ) (hj : offS = ![128 * j, 0])
    (off : Fin 2 → Nat) (h : ∀ a, off a + S1x128.size a ≤ S200x128.size a) (s : ℕ) (hs : off = ![s, 0]) (hs200 : s < 200)
    (hn : S128.numel = S128x128.size gathers_S1000000x128_S128x128.axis')
    (hin : ∀ x, ((rowAt off h).view.read (Elt F) (idxOf (wOf L) X) x).toNat < S1000000x128.size gathers_S1000000x128_S128x128.axis)
    (base : Buf (Elt F) ((rS).view.loc (thr d L))) (rest : List (View.Piece (Elt F) S128x128 .f32)) :
    (Transfers.Flight (countersEmb : UEmb Counters 𝕄) (thr d L) sm ι N
      iprop((((rS.slice (Rect.unit (s := S512x128) offS S128x128.size hS) (fun _ => rfl)).view.loc (thr d L)
            ↦[(rS.slice (Rect.unit (s := S512x128) offS S128x128.size hS) (fun _ => rfl)).view.set]{fullShare}
              (rS.slice (Rect.unit (s := S512x128) offS S128x128.size hS) (fun _ => rfl)).view.writes (Elt F) base
                (⟨Rect.whole S128x128, SparseCore.gatherPayload gathers_S1000000x128_S128x128 ((tM).view.read (Elt F) TB)
                    (SparseCore.rows ((rowAt off h).view.read (Elt F) (idxOf (wOf L) X)) hn hin)⟩ :: rest))
          ∗ ((rowAt off h).view.loc (thr d L) ↦[(rowAt off h).view.set]{fullShare} idxOf (wOf L) X))
        ∗ ((tW).view.loc (thr d L) ↦[(tM).view.set]{qt} TB)))
    ⊢ Transfers.Flight (countersEmb : UEmb Counters 𝕄) (thr d L) sm ι N
      iprop((((rS.slice (Rect.unit (s := S512x128) offS S128x128.size hS) (fun _ => rfl)).view.loc (thr d L)
            ↦[(rS.slice (Rect.unit (s := S512x128) offS S128x128.size hS) (fun _ => rfl)).view.set]{fullShare} gathered TB (idxOf (wOf L) X) s)
          ∗ ((iS).view.loc (thr d L) ↦[rowSet s]{fullShare} idxOf (wOf L) X))
        ∗ ((tW).view.loc (thr d L) ↦[(tM).view.set]{qt} TB)) := by
  refine Transfers.Flight_mono _ _ ?_
  rw [slot_gathered_eq d L X TB offS hS j hj off h s hs hs200 hn hin base rest, row_pts_eq d L off h s hs]

/-- A copy-out in flight whose slab is given as a list of writes, the newest the slot's contents, delivers the canonical pieces. -/
theorem sflight_canon (sm : SemLoc sig) (ι : HIx 1) (N : ℕ)
    (offS : Fin 2 → Nat) (hS : ∀ a, offS a + S128x128.size a ≤ S512x128.size a) (j : ℕ) (hj : offS = ![128 * j, 0])
    (off : Fin 3 → Nat) (h : ∀ a, off a + S1x128x128.size a ≤ S200x4096x128.size a) (s : ℕ) (ho : off = ![s, 128 * wOf L, 0]) (hs200 : s < 200)
    (c : Buf (Elt F) ((rS).view.loc (thr d L)))
    (hc : ∀ i ∈ (rS.slice (Rect.unit (s := S512x128) offS S128x128.size hS) (fun _ => rfl)).view.set, c i = gathered TB (idxOf (wOf L) X) s i)
    (base : Buf (Elt F) ((oW).view.loc (thr d L))) (rest : List (View.Piece (Elt F) S128x128 .f32)) :
    (Transfers.Flight (countersEmb : UEmb Counters 𝕄) (thr d L) sm ι N
      iprop(((slabAt off h).view.loc (thr d L) ↦[(slabAt off h).view.set]{fullShare}
            (slabAt off h).view.writes (Elt F) base
              (⟨Rect.whole S128x128, ReadAs.same.apply ((rS.slice (Rect.unit (s := S512x128) offS S128x128.size hS) (fun _ => rfl)).view.read (Elt F) c)⟩ :: rest))
        ∗ ((rS.slice (Rect.unit (s := S512x128) offS S128x128.size hS) (fun _ => rfl)).view.loc (thr d L)
            ↦[(rS.slice (Rect.unit (s := S512x128) offS S128x128.size hS) (fun _ => rfl)).view.set]{fullShare} c)))
    ⊢ Transfers.Flight (countersEmb : UEmb Counters 𝕄) (thr d L) sm ι N
      iprop(((oW).view.loc (thr d L) ↦[slabSet (wOf L) s]{fullShare} outOf TB X)
        ∗ ((rS.slice (Rect.unit (s := S512x128) offS S128x128.size hS) (fun _ => rfl)).view.loc (thr d L)
            ↦[(rS.slice (Rect.unit (s := S512x128) offS S128x128.size hS) (fun _ => rfl)).view.set]{fullShare} gathered TB (idxOf (wOf L) X) s)) := by
  refine Transfers.Flight_mono _ _ ?_
  rw [slab_done_eq d L X TB offS hS j hj off h s ho hs200 c hc base rest,
    show ((rS.slice (Rect.unit (s := S512x128) offS S128x128.size hS) (fun _ => rfl)).view.loc (thr d L)
            ↦[(rS.slice (Rect.unit (s := S512x128) offS S128x128.size hS) (fun _ => rfl)).view.set]{fullShare} c : sProp 𝕄)
        = ((rS.slice (Rect.unit (s := S512x128) offS S128x128.size hS) (fun _ => rfl)).view.loc (thr d L)
            ↦[(rS.slice (Rect.unit (s := S512x128) offS S128x128.size hS) (fun _ => rfl)).view.set]{fullShare} gathered TB (idxOf (wOf L) X) s)
      from pointsTo_congr hc]

end Pieces

end Cert.Proof.KernelIdeal

end
-- ==== Proof.KIInv.lean ====
import proofs.«206931_g83167746720501_cont_9to1_m_74_15_alg».proof.Proof.KIConv

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- A row of the index scratch at a literal position, spelt as the program slices it. -/
abbrev rowL (n : ℕ) (h : ∀ a, (![n, 0] : Fin 2 → Nat) a + S1x128.size a ≤ S200x128.size a) : Memref sig .scVector .vmem S128 .i32 := rowAt ![n, 0] h

section Core
variable (d : Dev nD) (L : grid0.Coords) (q : PosShare TreeShare)
variable (X : Buf (Elt F) ((xtM L).view.loc (thr d L))) (TB : Buf (Elt F) ((tW).view.loc (thr d L))) (O0 : Buf (Elt F) ((oW).view.loc (thr d L)))

/-- Row `s` of the index scratch at the copied row numbers. -/
abbrev rowPts (s : ℕ) : sProp 𝕄 := (iS).view.loc (thr d L) ↦[rowSet s]{fullShare} idxOf (wOf L) X
/-- Slab `s` of the tile's block at the looked-up rows; at what the block held before. -/
abbrev slabDone (s : ℕ) : sProp 𝕄 := (oW).view.loc (thr d L) ↦[slabSet (wOf L) s]{fullShare} outOf TB X
abbrev slabTodo (s : ℕ) : sProp 𝕄 := (oW).view.loc (thr d L) ↦[slabSet (wOf L) s]{fullShare} O0

/-- What holds between two trips of the counted loop, before trip `k` (positions `4 k + 4 … 4 k + 7` are this trip's):
    the gathers of positions `4 k + 4`, `4 k + 5` are in flight into slots 0, 1; the copy-outs of positions `4 k + 2`,
    `4 k + 3` are in flight out of slots 2, 3; every earlier position's slab holds its looked-up rows, every later one
    what the block held before; the rows of the index scratch not lent to a gather are in hand. -/
def tinv (O : CellTallies nD τ sig (HIx 1)) (W : Waits sig (HIx 1)) (k : ℕ) (_ : Unit) : sProp 𝕄 :=
  iprop(Transfers.MayWaits (thr d L) (none : HIx 1) O
    ∗ (Transfers.Flight (countersEmb : UEmb Counters 𝕄) (thr d L) (SemLoc.dma cc0_scratch2.sem) (default : HIx 1) 524288
        iprop((((slot0).view.loc (thr d L) ↦[(slot0).view.set]{fullShare} gathered TB (idxOf (wOf L) X) (4 * k + 4))
            ∗ ((iS).view.loc (thr d L) ↦[rowSet (4 * k + 4)]{fullShare} idxOf (wOf L) X))
          ∗ ((tW).view.loc (thr d L) ↦[(tM).view.set]{Transfers.shareTok q 4 0} TB)))
    ∗ (Transfers.Flight (countersEmb : UEmb Counters 𝕄) (thr d L) (SemLoc.dma cc0_scratch3.sem) (default : HIx 1) 524288
        iprop((((slot1).view.loc (thr d L) ↦[(slot1).view.set]{fullShare} gathered TB (idxOf (wOf L) X) (4 * k + 5))
            ∗ ((iS).view.loc (thr d L) ↦[rowSet (4 * k + 5)]{fullShare} idxOf (wOf L) X))
          ∗ ((tW).view.loc (thr d L) ↦[(tM).view.set]{Transfers.shareTok q 4 1} TB)))
    ∗ (Transfers.Flight (countersEmb : UEmb Counters 𝕄) (thr d L) (SemLoc.dma cc0_scratch8.sem) (default : HIx 1) 524288
        iprop(((oW).view.loc (thr d L) ↦[slabSet (wOf L) (4 * k + 2)]{fullShare} outOf TB X)
          ∗ ((slot2).view.loc (thr d L) ↦[(slot2).view.set]{fullShare} gathered TB (idxOf (wOf L) X) (4 * k + 2))))
    ∗ (Transfers.Flight (countersEmb : UEmb Counters 𝕄) (thr d L) (SemLoc.dma cc0_scratch9.sem) (default : HIx 1) 524288
        iprop(((oW).view.loc (thr d L) ↦[slabSet (wOf L) (4 * k + 3)]{fullShare} outOf TB X)
          ∗ ((slot3).view.loc (thr d L) ↦[(slot3).view.set]{fullShare} gathered TB (idxOf (wOf L) X) (4 * k + 3))))
    ∗ ((tW).view.loc (thr d L) ↦[Finset.univ \ (tM).view.set]{Transfers.shareTok q 4 0} TB)
    ∗ ((tW).view.loc (thr d L) ↦[Finset.univ \ (tM).view.set]{Transfers.shareTok q 4 1} TB)
    ∗ ((tW).view.loc (thr d L) ↦{Transfers.shareTok q 4 2} TB)
    ∗ ((tW).view.loc (thr d L) ↦{Transfers.shareTok q 4 3} TB)
    ∗ semVal (thr d L, SemLoc.dma cc0_scratch4.sem) 0 ∗ semVal (thr d L, SemLoc.dma cc0_scratch5.sem) 0
    ∗ semVal (thr d L, SemLoc.dma cc0_scratch6.sem) 0 ∗ semVal (thr d L, SemLoc.dma cc0_scratch7.sem) 0
    ∗ bigSep (Finset.range (4 * k + 4)) (rowPts d L X) ∗ bigSep (Finset.Ico (4 * k + 6) 200) (rowPts d L X)
    ∗ bigSep (Finset.range (4 * k + 2)) (slabDone d L X TB) ∗ bigSep (Finset.Ico (4 * k + 4) 200) (slabTodo d L O0)
    ∗ ∃ W', ⌜∀ p ∈ W', p ∈ W ∨ p.2 = none⌝ ∗ owes (thr d L) O W')

end Core

end Cert.Proof.KernelIdeal

end
-- ==== Proof.KITrip.lean ====
/-
  One trip of the tile's counted loop.

  Between two trips two gathers are in flight, into slots 0 and 1 of the row scratch, and two copy-outs, out of slots 2
  and 3. Trip `k` handles positions `4 k + 4 … 4 k + 7`. For each of the four slots in turn it waits for the gather into
  the slot, starts the copy of the slot to its position's slab of the result, waits for the copy-out issued two
  positions earlier — which hands back that slab and its slot — and starts into that slot the gather of the position two
  ahead. At the end the gathers of positions `4 k + 8`, `4 k + 9` and the copy-outs of positions `4 k + 6`, `4 k + 7` are
  in flight: the state between trips, one trip on. A slot just gathered holds, row by row, the table rows its position's
  row numbers name; copied whole into the position's slab it leaves there the looked-up rows; so four more slabs hold
  their rows, four more rows of the index scratch are back in hand, and the eight waits are recorded.
-/
import proofs.«206931_g83167746720501_cont_9to1_m_74_15_alg».proof.Proof.KIInv

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The trip's offsets at the program's literal words -/

omit [FloatOps F] in
theorem off8_0 (k : Fin k0_t1_loop.trips) : k0_off8 k 0#32 = ![4 * k.val + 6, 0] := off8_eq k 0
omit [FloatOps F] in
theorem off8_1 (k : Fin k0_t1_loop.trips) : k0_off8 k 1#32 = ![4 * k.val + 6 + 1, 0] := off8_eq k 1
omit [FloatOps F] in
theorem off8_2 (k : Fin k0_t1_loop.trips) : k0_off8 k 2#32 = ![4 * k.val + 6 + 2, 0] := off8_eq k 2
omit [FloatOps F] in
theorem off8_3 (k : Fin k0_t1_loop.trips) : k0_off8 k 3#32 = ![4 * k.val + 6 + 3, 0] := off8_eq k 3
omit [FloatOps F] in
theorem off6_0 (L : grid0.Coords) (k : Fin k0_t1_loop.trips) : k0_off6 L k 0#32 = ![4 * k.val + 4, 128 * wOf L, 0] := off6_eq L k 0
omit [FloatOps F] in
theorem off6_1 (L : grid0.Coords) (k : Fin k0_t1_loop.trips) : k0_off6 L k 1#32 = ![4 * k.val + 4 + 1, 128 * wOf L, 0] := off6_eq L k 1
omit [FloatOps F] in
theorem off6_2 (L : grid0.Coords) (k : Fin k0_t1_loop.trips) : k0_off6 L k 2#32 = ![4 * k.val + 4 + 2, 128 * wOf L, 0] := off6_eq L k 2
omit [FloatOps F] in
theorem off6_3 (L : grid0.Coords) (k : Fin k0_t1_loop.trips) : k0_off6 L k 3#32 = ![4 * k.val + 4 + 3, 128 * wOf L, 0] := off6_eq L k 3

omit [FloatOps F] in
theorem off8_0n (k : Fin k0_t1_loop.trips) : k0_off8 k 0#32 = ![4 * (k.val + 1) + 2, 0] := by
  rw [off8_0 k, show 4 * k.val + 6 = 4 * (k.val + 1) + 2 by omega]
omit [FloatOps F] in
theorem off8_1n (k : Fin k0_t1_loop.trips) : k0_off8 k 1#32 = ![4 * (k.val + 1) + 3, 0] := by
  rw [off8_1 k, show 4 * k.val + 6 + 1 = 4 * (k.val + 1) + 3 by omega]
omit [FloatOps F] in
theorem off8_2n (k : Fin k0_t1_loop.trips) : k0_off8 k 2#32 = ![4 * (k.val + 1) + 4, 0] := by
  rw [off8_2 k, show 4 * k.val + 6 + 2 = 4 * (k.val + 1) + 4 by omega]
omit [FloatOps F] in
theorem off8_3n (k : Fin k0_t1_loop.trips) : k0_off8 k 3#32 = ![4 * (k.val + 1) + 5, 0] := by
  rw [off8_3 k, show 4 * k.val + 6 + 3 = 4 * (k.val + 1) + 5 by omega]
omit [FloatOps F] in
theorem off8_1m (k : Fin k0_t1_loop.trips) : k0_off8 k 1#32 = ![4 * k.val + 7, 0] := off8_1 k
omit [FloatOps F] in
theorem off6_1m (L : grid0.Coords) (k : Fin k0_t1_loop.trips) : k0_off6 L k 1#32 = ![4 * k.val + 5, 128 * wOf L, 0] := off6_1 L k
omit [FloatOps F] in
theorem off6_2n (L : grid0.Coords) (k : Fin k0_t1_loop.trips) : k0_off6 L k 2#32 = ![4 * (k.val + 1) + 2, 128 * wOf L, 0] := by
  rw [off6_2 L k, show 4 * k.val + 4 + 2 = 4 * (k.val + 1) + 2 by omega]
omit [FloatOps F] in
theorem off6_3n (L : grid0.Coords) (k : Fin k0_t1_loop.trips) : k0_off6 L k 3#32 = ![4 * (k.val + 1) + 3, 128 * wOf L, 0] := by
  rw [off6_3 L k, show 4 * k.val + 4 + 3 = 4 * (k.val + 1) + 3 by omega]

/-! ## The families of positions, one trip on -/

omit [FloatOps F] in
theorem range_next4 (Φ : ℕ → sProp 𝕄) (k a : ℕ) :
    (iprop(Φ (4 * k + a + 3) ∗ Φ (4 * k + a + 2) ∗ Φ (4 * k + a + 1) ∗ Φ (4 * k + a) ∗ bigSep (Finset.range (4 * k + a)) Φ) : sProp 𝕄)
      = bigSep (Finset.range (4 * (k + 1) + a)) Φ := by
  rw [show 4 * (k + 1) + a = 4 * k + a + 4 by omega]
  exact (range_push4 Φ (4 * k + a)).symm
omit [FloatOps F] in
theorem Ico_next4 (Φ : ℕ → sProp 𝕄) (k a b : ℕ) :
    bigSep (Finset.Ico (4 * k + a + 4) b) Φ = bigSep (Finset.Ico (4 * (k + 1) + a) b) Φ := by
  rw [show 4 * (k + 1) + a = 4 * k + a + 4 by omega]

section Core
variable (d : Dev nD) (L : grid0.Coords) (q : PosShare TreeShare)
variable (X : Buf (Elt F) ((xtM L).view.loc (thr d L))) (TB : Buf (Elt F) ((tW).view.loc (thr d L))) (O0 : Buf (Elt F) ((oW).view.loc (thr d L)))

/-- One trip of the counted loop carries the invariant from `k` to `k + 1`. -/
theorem trip (O : CellTallies nD τ sig (HIx 1)) (W : Waits sig (HIx 1)) (hX : XInRange X) (k : Fin k0_t1_loop.trips) :
    tinv d L q X TB O0 O W k.val ()
      ⊢ wp frame (wpE (defs₀ (F := F)) 𝒱₀ (thr d L) none) Set.univ
          (k0_t1_body L xW (Memref.isWhole_whole _) tW (Memref.isWhole_whole _) oW (Memref.isWhole_whole _) iS (Memref.isWhole_whole _) rS (Memref.isWhole_whole _)
            cc0_scratch2 cc0_scratch3 cc0_scratch4 cc0_scratch5 cc0_scratch6 cc0_scratch7 cc0_scratch8 cc0_scratch9 cc0_scoped0 k ())
          (fun r => tinv d L q X TB O0 O W (k.val + 1) r) := by
  have hk : k.val < 48 := lt_of_lt_of_eq k.isLt trips_eq
  unfold tinv
  iintro ⟨Hmw, Hg0, Hg1, Hc2, Hc3, Htr0, Htr1, Ht2, Ht3, Hs4, Hs5, Hs6, Hs7, Hrlo, Hrhi, Hdone, Htodo, ⟨%W', %hW', HO⟩⟩
  -- this trip's rows of the index scratch, as the gathers' offset lists
  ihave Hrhi := (Entails.of_eq (Ico_pop4 _ (by omega))) $$ Hrhi
  icases Hrhi with ⟨Hr6, Hr7, Hr8, Hr9, Hrhi⟩
  ihave Hr6 := (Entails.of_eq (row_pts_eq d L (k0_off8 k 0#32) (k0_off8_inb k 0) (4 * k.val + 6) (off8_0 k) _).symm) $$ Hr6
  ihave Hr7 := (Entails.of_eq (row_pts_eq d L (k0_off8 k 1#32) (k0_off8_inb k 1) (4 * k.val + 6 + 1) (off8_1 k) _).symm) $$ Hr7
  ihave Hr8 := (Entails.of_eq (row_pts_eq d L (k0_off8 k 2#32) (k0_off8_inb k 2) (4 * k.val + 6 + 2) (off8_2 k) _).symm) $$ Hr8
  ihave Hr9 := (Entails.of_eq (row_pts_eq d L (k0_off8 k 3#32) (k0_off8_inb k 3) (4 * k.val + 6 + 3) (off8_3 k) _).symm) $$ Hr9
  -- this trip's slabs of the result, as the copies' targets
  ihave Htodo := (Entails.of_eq (Ico_pop4 _ (by omega))) $$ Htodo
  icases Htodo with ⟨Ho4, Ho5, Ho6, Ho7, Htodo⟩
  ihave Ho4 := (Entails.of_eq (slab_pts_eq d L (k0_off6 L k 0#32) (k0_off6_inb L k 0) (4 * k.val + 4) (off6_0 L k) _).symm) $$ Ho4
  ihave Ho5 := (Entails.of_eq (slab_pts_eq d L (k0_off6 L k 1#32) (k0_off6_inb L k 1) (4 * k.val + 4 + 1) (off6_1 L k) _).symm) $$ Ho5
  ihave Ho6 := (Entails.of_eq (slab_pts_eq d L (k0_off6 L k 2#32) (k0_off6_inb L k 2) (4 * k.val + 4 + 2) (off6_2 L k) _).symm) $$ Ho6
  ihave Ho7 := (Entails.of_eq (slab_pts_eq d L (k0_off6 L k 3#32) (k0_off6_inb L k 3) (4 * k.val + 4 + 3) (off6_3 L k) _).symm) $$ Ho7
  have hin : ∀ (off : Fin 2 → Nat) (h : ∀ a, off a + S1x128.size a ≤ S200x128.size a) (x : S128.Idx),
      ((rowAt off h).view.read (Elt F) (idxOf (wOf L) X) x).toNat < 1000000 := fun off h x => hin_of_range d L X hX off h x
  unfold k0_t1_body
  sl_exec
  sl_step
  isplitl [Hmw]; · iexact Hmw
  -- the gathers of the next trip's first two positions, in flight into slots 0 and 1
  isplitl [Hg0]
  · iapply (gflight_canon d L X TB (SemLoc.dma cc0_scratch2.sem) default 524288 (Transfers.shareTok q 4 0)
      ![0, 0] inb_S512x128_S128x128_0_0 0 rfl (k0_off8 k 2#32) (k0_off8_inb k 2) (4 * (k.val + 1) + 4) (off8_2n k) (by omega)
      (by decide) (fun x => hin _ _ x) (gathered TB (idxOf (wOf L) X) (4 * k.val + 4)) [])
    iexact Hg0
  isplitl [Hg1]
  · iapply (gflight_canon d L X TB (SemLoc.dma cc0_scratch3.sem) default 524288 (Transfers.shareTok q 4 1)
      ![128, 0] inb_S512x128_S128x128_128_0 1 rfl (k0_off8 k 3#32) (k0_off8_inb k 3) (4 * (k.val + 1) + 5) (off8_3n k) (by omega)
      (by decide) (fun x => hin _ _ x) (gathered TB (idxOf (wOf L) X) (4 * k.val + 5)) [])
    iexact Hg1
  -- the copy-outs of this trip's last two positions, in flight out of slots 2 and 3
  isplitl [Hc2]
  · iapply (sflight_canon d L X TB (SemLoc.dma cc0_scratch8.sem) default 524288
      ![256, 0] inb_S512x128_S128x128_256_0 2 rfl (k0_off6 L k 2#32) (k0_off6_inb L k 2) (4 * (k.val + 1) + 2) (off6_2n L k) (by omega) _
      (gather_writes_eq d L TB (idxOf (wOf L) X) ![256, 0] inb_S512x128_S128x128_256_0 2 rfl (k0_off8 k 0#32) (k0_off8_inb k 0)
        (4 * (k.val + 1) + 2) (off8_0n k) (by omega) (by decide) (fun x => hin _ _ x) (gathered TB (idxOf (wOf L) X) (4 * k.val + 2)) [])
      O0 [])
    iexact Hc2
  isplitl [Hc3]
  · iapply (sflight_canon d L X TB (SemLoc.dma cc0_scratch9.sem) default 524288
      ![384, 0] inb_S512x128_S128x128_384_0 3 rfl (k0_off6 L k 3#32) (k0_off6_inb L k 3) (4 * (k.val + 1) + 3) (off6_3n L k) (by omega) _
      (gather_writes_eq d L TB (idxOf (wOf L) X) ![384, 0] inb_S512x128_S128x128_384_0 3 rfl (k0_off8 k 1#32) (k0_off8_inb k 1)
        (4 * (k.val + 1) + 3) (off8_1n k) (by omega) (by decide) (fun x => hin _ _ x) (gathered TB (idxOf (wOf L) X) (4 * k.val + 3)) [])
      O0 [])
    iexact Hc3
  -- the table's read tokens and the four counters at rest
  isplitl [Htr0]; · iexact Htr0
  isplitl [Htr1]; · iexact Htr1
  isplitl [Ht2]; · iexact Ht2
  isplitl [Ht3]; · iexact Ht3
  isplitl [Hs4]; · iexact Hs4
  isplitl [Hs5]; · iexact Hs5
  isplitl [Hs6]; · iexact Hs6
  isplitl [Hs7]; · iexact Hs7
  -- the rows of the index scratch in hand: four more below, four fewer above
  isplitl [Hrlo Hg0_dst_and Hg1_dst_and Hr6 Hr7]
  · iapply (Entails.of_eq (range_next4 (rowPts d L X) k.val 4))
    isplitl [Hr7]
    · iapply (Entails.of_eq (row_pts_eq d L (k0_off8 k 1#32) (k0_off8_inb k 1) (4 * k.val + 4 + 3) (off8_1 k) _))
      iexact Hr7
    isplitl [Hr6]
    · iapply (Entails.of_eq (row_pts_eq d L (k0_off8 k 0#32) (k0_off8_inb k 0) (4 * k.val + 4 + 2) (off8_0 k) _))
      iexact Hr6
    isplitl [Hg1_dst_and]; · iexact Hg1_dst_and
    isplitl [Hg0_dst_and]; · iexact Hg0_dst_and
    iexact Hrlo
  isplitl [Hrhi]
  · iapply (Entails.of_eq (Ico_next4 (rowPts d L X) k.val 6 200))
    iexact Hrhi
  -- the result's slabs: four more hold their rows, four fewer are untouched
  isplitl [Hdone Hc2_dst Hc3_dst Ho4 Ho5]
  · iapply (Entails.of_eq (range_next4 (slabDone d L X TB) k.val 2))
    isplitl [Ho5]
    · iapply (Entails.of_eq (slab_done_eq d L X TB ![128, 0] inb_S512x128_S128x128_128_0 1 rfl (k0_off6 L k 1#32) (k0_off6_inb L k 1)
        (4 * k.val + 2 + 3) (off6_1 L k) (by omega) (gathered TB (idxOf (wOf L) X) (4 * k.val + 5)) (fun _ _ => rfl) O0 []))
      iexact Ho5
    isplitl [Ho4]
    · iapply (Entails.of_eq (slab_done_eq d L X TB ![0, 0] inb_S512x128_S128x128_0_0 0 rfl (k0_off6 L k 0#32) (k0_off6_inb L k 0)
        (4 * k.val + 2 + 2) (off6_0 L k) (by omega) (gathered TB (idxOf (wOf L) X) (4 * k.val + 4)) (fun _ _ => rfl) O0 []))
      iexact Ho4
    isplitl [Hc3_dst]; · iexact Hc3_dst
    isplitl [Hc2_dst]; · iexact Hc2_dst
    iexact Hdone
  isplitl [Htodo]
  · iapply (Entails.of_eq (Ico_next4 (slabTodo d L O0) k.val 4 200))
    iexact Htodo
  -- the eight waits of the trip, all at the default index, recorded
  iexists (insert (SemLoc.dma cc0_scratch7.sem, (default : HIx 1)) (insert (SemLoc.dma cc0_scratch5.sem, (default : HIx 1))
    (insert (SemLoc.dma cc0_scratch6.sem, (default : HIx 1)) (insert (SemLoc.dma cc0_scratch4.sem, (default : HIx 1))
    (insert (SemLoc.dma cc0_scratch9.sem, (default : HIx 1)) (insert (SemLoc.dma cc0_scratch3.sem, (default : HIx 1))
    (insert (SemLoc.dma cc0_scratch8.sem, (default : HIx 1)) (insert (SemLoc.dma cc0_scratch2.sem, (default : HIx 1)) W'))))))))
  isplitr
  · ipureintro
    intro p hp
    simp only [Finset.mem_insert] at hp
    rcases hp with rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact hW' p hp
  · iexact HO

end Core

end Cert.Proof.KernelIdeal

end
-- ==== Proof.KIConvB.lean ====
import proofs.«206931_g83167746720501_cont_9to1_m_74_15_alg».proof.Proof.KIConv

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! Restating what a transfer delivers when the delivered contents are known only up to agreement on the piece:
    the contents are arbitrary (`c`, `cs`), with a pointwise equation on the piece's elements. -/

section Pieces

variable (d : Dev nD) (L : grid0.Coords)
variable (X : Buf (Elt F) ((xtM L).view.loc (thr d L))) (TB : Buf (Elt F) ((tW).view.loc (thr d L)))

/-- A slot at contents that agree with `g` on the slot. -/
theorem slot_of (slot : Memref sig .scVector .vmem S128x128 .f32)
    (c g : Buf (Elt F) ((slot).view.loc (thr d L))) (hc : ∀ i ∈ (slot).view.set, c i = g i) :
    ((slot).view.loc (thr d L) ↦[(slot).view.set]{fullShare} c : sProp 𝕄) = ((slot).view.loc (thr d L) ↦[(slot).view.set]{fullShare} g) :=
  pointsTo_congr hc

/-- A slab, spelt as a copy's target, at contents that agree with `gs` on the slab. -/
theorem slab_of (off : Fin 3 → Nat) (h : ∀ a, off a + S1x128x128.size a ≤ S200x4096x128.size a) (s : ℕ) (ho : off = ![s, 128 * wOf L, 0])
    (cs gs : Buf (Elt F) ((oW).view.loc (thr d L))) (hcs : ∀ i ∈ (slabAt off h).view.set, cs i = gs i) :
    ((slabAt off h).view.loc (thr d L) ↦[(slabAt off h).view.set]{fullShare} cs : sProp 𝕄) = ((oW).view.loc (thr d L) ↦[slabSet (wOf L) s]{fullShare} gs) := by
  rw [show ((slabAt off h).view.loc (thr d L) ↦[(slabAt off h).view.set]{fullShare} cs : sProp 𝕄)
        = ((slabAt off h).view.loc (thr d L) ↦[(slabAt off h).view.set]{fullShare} gs) from pointsTo_congr hcs,
    slab_pts_eq d L off h s ho]

/-- A gather flight delivering a slot at contents that agree with `g` on the slot. -/
theorem gflight_of (sm : SemLoc sig) (ι : HIx 1) (N : ℕ) (qt : PosShare TreeShare)
    (slot : Memref sig .scVector .vmem S128x128 .f32)
    (off : Fin 2 → Nat) (h : ∀ a, off a + S1x128.size a ≤ S200x128.size a) (s : ℕ) (hs : off = ![s, 0])
    (c g : Buf (Elt F) ((slot).view.loc (thr d L))) (hc : ∀ i ∈ (slot).view.set, c i = g i) :
    (Transfers.Flight (countersEmb : UEmb Counters 𝕄) (thr d L) sm ι N
      iprop((((slot).view.loc (thr d L) ↦[(slot).view.set]{fullShare} c)
          ∗ ((rowAt off h).view.loc (thr d L) ↦[(rowAt off h).view.set]{fullShare} idxOf (wOf L) X))
        ∗ ((tW).view.loc (thr d L) ↦[(tM).view.set]{qt} TB)))
    ⊢ Transfers.Flight (countersEmb : UEmb Counters 𝕄) (thr d L) sm ι N
      iprop((((slot).view.loc (thr d L) ↦[(slot).view.set]{fullShare} g)
          ∗ ((iS).view.loc (thr d L) ↦[rowSet s]{fullShare} idxOf (wOf L) X))
        ∗ ((tW).view.loc (thr d L) ↦[(tM).view.set]{qt} TB)) := by
  refine Transfers.Flight_mono _ _ ?_
  rw [slot_of d L slot c g hc, row_pts_eq d L off h s hs]

/-- A copy-out flight delivering a slab and its slot, each at contents known up to agreement on the piece. -/
theorem sflight_of (sm : SemLoc sig) (ι : HIx 1) (N : ℕ)
    (slot : Memref sig .scVector .vmem S128x128 .f32)
    (off : Fin 3 → Nat) (h : ∀ a, off a + S1x128x128.size a ≤ S200x4096x128.size a) (s : ℕ) (ho : off = ![s, 128 * wOf L, 0])
    (cs gs : Buf (Elt F) ((oW).view.loc (thr d L))) (hcs : ∀ i ∈ (slabAt off h).view.set, cs i = gs i)
    (c g : Buf (Elt F) ((slot).view.loc (thr d L))) (hc : ∀ i ∈ (slot).view.set, c i = g i) :
    (Transfers.Flight (countersEmb : UEmb Counters 𝕄) (thr d L) sm ι N
      iprop(((slabAt off h).view.loc (thr d L) ↦[(slabAt off h).view.set]{fullShare} cs)
        ∗ ((slot).view.loc (thr d L) ↦[(slot).view.set]{fullShare} c)))
    ⊢ Transfers.Flight (countersEmb : UEmb Counters 𝕄) (thr d L) sm ι N
      iprop(((oW).view.loc (thr d L) ↦[slabSet (wOf L) s]{fullShare} gs)
        ∗ ((slot).view.loc (thr d L) ↦[(slot).view.set]{fullShare} g)) := by
  refine Transfers.Flight_mono _ _ ?_
  rw [slab_of d L off h s ho cs gs hcs, slot_of d L slot c g hc]

end Pieces

end Cert.Proof.KernelIdeal

end
-- ==== Proof.KIBody.lean ====
import proofs.«206931_g83167746720501_cont_9to1_m_74_15_alg».proof.Proof.KITrip
import proofs.«206931_g83167746720501_cont_9to1_m_74_15_alg».proof.Proof.KIConvB

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Core
variable (d : Dev nD) (L : grid0.Coords) (q : PosShare TreeShare)
variable (X : Buf (Elt F) ((xtM L).view.loc (thr d L))) (TB : Buf (Elt F) ((tW).view.loc (thr d L))) (O0 : Buf (Elt F) ((oW).view.loc (thr d L)))

omit [FloatOps F] in
theorem range4z (Φ : ℕ → sProp 𝕄) : bigSep (Finset.range (4 * 0 + 4)) Φ = iprop(Φ 0 ∗ Φ 1 ∗ Φ 2 ∗ Φ 3 ∗ emp) := range4 Φ
omit [FloatOps F] in
theorem range2z (Φ : ℕ → sProp 𝕄) : bigSep (Finset.range (4 * 0 + 2)) Φ = iprop(Φ 0 ∗ Φ 1 ∗ emp) := by
  rw [show 4 * 0 + 2 = 2 from rfl, Finset.range_eq_Ico, Ico_pop Φ (by omega : 0 < 2), Ico_pop Φ (by omega : 0 + 1 < 2), Ico_empty']
omit [FloatOps F] in
theorem Ico_pop2e (Φ : ℕ → sProp 𝕄) {a : ℕ} :
    bigSep (Finset.Ico a (a + 2)) Φ = iprop(Φ a ∗ Φ (a + 1) ∗ emp) := by
  rw [Ico_pop Φ (by omega : a < a + 2), Ico_pop Φ (by omega : a + 1 < a + 2), Ico_empty']
omit [FloatOps F] in
theorem Ico_pop4e (Φ : ℕ → sProp 𝕄) {a : ℕ} :
    bigSep (Finset.Ico a (a + 4)) Φ = iprop(Φ a ∗ Φ (a + 1) ∗ Φ (a + 2) ∗ Φ (a + 3) ∗ emp) := by
  rw [Ico_pop4 Φ (by omega : a + 3 < a + 4), Ico_empty']

omit [FloatOps F] in
theorem range200_tail4 (Φ : ℕ → sProp 𝕄) :
    bigSep (Finset.range 200) Φ = iprop(Φ 199 ∗ Φ 198 ∗ Φ 197 ∗ Φ 196 ∗ bigSep (Finset.range 196) Φ) := range_push4 Φ 196
omit [FloatOps F] in
theorem range200_tail6 (Φ : ℕ → sProp 𝕄) :
    bigSep (Finset.range 200) Φ = iprop(Φ 199 ∗ Φ 198 ∗ Φ 197 ∗ Φ 196 ∗ Φ 195 ∗ Φ 194 ∗ bigSep (Finset.range 194) Φ) := by
  rw [range_push4 Φ 196, show (196 : ℕ) = 195 + 1 from rfl, range_push Φ 195, show (195 : ℕ) = 194 + 1 from rfl, range_push Φ 194]

/-- The four slots, each at contents of its own, are the row scratch at some contents. -/
theorem slots_join4 (d : Dev nD) (L : grid0.Coords) (c0 c1 c2 c3 : Buf (Elt F) ((rS).view.loc (thr d L))) :
    iprop(((rS).view.loc (thr d L) ↦[slotSet 0]{fullShare} c0) ∗ ((rS).view.loc (thr d L) ↦[slotSet 1]{fullShare} c1)
        ∗ ((rS).view.loc (thr d L) ↦[slotSet 2]{fullShare} c2) ∗ ((rS).view.loc (thr d L) ↦[slotSet 3]{fullShare} c3))
      ⊢ (iprop(∃ f, (rS).view.loc (thr d L) ↦{fullShare} f) : sProp 𝕄) := by
  have h := pointsTo_biUnion_join (ℓ := (rS).view.loc (thr d L)) (q := fullShare) (Val := Elt F) (Ix := HIx 1) (Name := ℕ) (U := UU) (Lvl := ℕ)
    (Finset.range 4) slotSet
    (fun j => if j = 0 then c0 else if j = 1 then c1 else if j = 2 then c2 else c3) c0 (slotSet_disjoint (Finset.range 4))
  rw [range4, slotSet_cover] at h
  iintro ⟨H0, H1, H2, H3⟩
  ihave H := h $$ [H0 H1 H2 H3]
  · isplitl [H0]; · iexact H0
    isplitl [H1]; · iexact H1
    isplitl [H2]; · iexact H2
    isplitl [H3]; · iexact H3
    iempintro
  icases H with ⟨%g, -, Hg⟩
  iexists g; iexact Hg

set_option maxHeartbeats 4000000 in
/-- One tile's task. From its columns of the transposed row numbers, a read share of the table, its two scratch
    buffers, its block of the result and its nine DMA semaphores at zero, the body runs to the end: the block holds the
    looked-up rows, everything else is handed back. -/
theorem tile_core (O : CellTallies nD τ sig (HIx 1)) (W : Waits sig (HIx 1)) (hO : ∀ g, O g none = 0) (hX : XInRange X)
    (fi : Buf (Elt F) ((iS).view.loc (thr d L))) (fr : Buf (Elt F) ((rS).view.loc (thr d L))) :
    iprop(levAts (K (F := F)).L (K (F := F)).lev
        ∗ ((xtM L).view.loc (thr d L) ↦[(xtM L).view.set]{fullShare} X : sProp 𝕄)
        ∗ ((tW).view.loc (thr d L) ↦{q} TB)
        ∗ ((iS).view.loc (thr d L) ↦{fullShare} fi)
        ∗ ((rS).view.loc (thr d L) ↦{fullShare} fr)
        ∗ ((oW).view.loc (thr d L) ↦[oblkSet (wOf L)]{fullShare} O0)
        ∗ semVal (thr d L, SemLoc.dma cc0_scoped0.sem) 0
        ∗ semVal (thr d L, SemLoc.dma cc0_scratch2.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ owes (thr d L) O W)
      ⊢ wp frame (wpE (defs₀ (F := F)) 𝒱₀ (thr d L) none) Set.univ
          (cc0__emb_body L xW (Memref.isWhole_whole _) tW (Memref.isWhole_whole _) oW (Memref.isWhole_whole _) iS (Memref.isWhole_whole _) rS (Memref.isWhole_whole _)
            cc0_scratch2 cc0_scratch3 cc0_scratch4 cc0_scratch5 cc0_scratch6 cc0_scratch7 cc0_scratch8 cc0_scratch9 cc0_scoped0)
          fun _ => iprop(((xtM L).view.loc (thr d L) ↦[(xtM L).view.set]{fullShare} X : sProp 𝕄)
            ∗ ((tW).view.loc (thr d L) ↦{q} TB)
            ∗ (∃ f, (iS).view.loc (thr d L) ↦{fullShare} f)
            ∗ (∃ f, (rS).view.loc (thr d L) ↦{fullShare} f)
            ∗ ((oW).view.loc (thr d L) ↦[oblkSet (wOf L)]{fullShare} outOf TB X)
            ∗ semVal (thr d L, SemLoc.dma cc0_scoped0.sem) 0
        ∗ semVal (thr d L, SemLoc.dma cc0_scratch2.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
            ∗ ∃ W', ⌜∀ p ∈ W', p ∈ W ∨ p.2 = none⌝ ∗ owes (thr d L) O W') := by
  iintro ⟨#Hlv, Hx, Ht, Hi, Hr, Ho, Hs8, Hs0, Hs1, Hs2, Hs3, Hs4, Hs5, Hs6, Hs7, HO⟩
  ihave Hmw := ((K (F := F)).mayWaits_none (thr := thr d L) hO) $$ Hlv
  rw [cc0__emb_body_eq_skeleton]; unfold cc0__emb_body_skel
  sl_exec
  -- the index scratch now holds the tile's columns of the row numbers: restate, then split by rows
  unfold tile_core.sl.dma0
  ihave Hi := (Entails.of_eq (congrArg (fun f => ((iS).view.loc (thr d L) ↦{fullShare} f : sProp 𝕄)) (idx_after_copy d L fi X))) $$ Hi
  ihave Hi := (Entails.of_eq ((idx_rows d L _).trans (range200_pop6 _))) $$ Hi
  icases Hi with ⟨Hr0, Hr1, Hr2, Hr3, Hr4, Hr5, Hrows⟩
  ihave Hr0 := (Entails.of_eq (row_pts_eq d L ![0, 0] inb_S200x128_S1x128_0_0 0 rfl _).symm) $$ Hr0
  ihave Hr1 := (Entails.of_eq (row_pts_eq d L ![1, 0] inb_S200x128_S1x128_1_0 1 rfl _).symm) $$ Hr1
  ihave Hr2 := (Entails.of_eq (row_pts_eq d L ![2, 0] inb_S200x128_S1x128_2_0 2 rfl _).symm) $$ Hr2
  ihave Hr3 := (Entails.of_eq (row_pts_eq d L ![3, 0] inb_S200x128_S1x128_3_0 3 rfl _).symm) $$ Hr3
  ihave Hr4 := (Entails.of_eq (row_pts_eq d L ![4, 0] inb_S200x128_S1x128_4_0 4 rfl _).symm) $$ Hr4
  ihave Hr5 := (Entails.of_eq (row_pts_eq d L ![5, 0] inb_S200x128_S1x128_5_0 5 rfl _).symm) $$ Hr5
  -- the row scratch by slots
  ihave Hr := (Entails.of_eq ((scratch_slots d L _).trans (range4 _))) $$ Hr
  icases Hr with ⟨Hsl0, Hsl1, Hsl2, Hsl3, -⟩
  ihave Hsl0 := (Entails.of_eq (slot0_pts_eq d L _).symm) $$ Hsl0
  ihave Hsl1 := (Entails.of_eq (slot1_pts_eq d L _).symm) $$ Hsl1
  ihave Hsl2 := (Entails.of_eq (slot2_pts_eq d L _).symm) $$ Hsl2
  ihave Hsl3 := (Entails.of_eq (slot3_pts_eq d L _).symm) $$ Hsl3
  -- the table's share as one read token per gather semaphore, the remainder aside
  ihave Ht := (Transfers.pointsTo_toks_split q 4) $$ Ht
  icases Ht with ⟨Htd, Htoks⟩
  ihave Htoks := (Entails.of_eq (fin4 _)) $$ Htoks
  icases Htoks with ⟨Ht0, Ht1, Ht2, Ht3⟩
  -- the tile's block of the result by slabs
  ihave Ho := (Entails.of_eq ((oblk_slabs d L (wOf L) _).trans (range200_pop4 _))) $$ Ho
  icases Ho with ⟨Ho0, Ho1, Ho2, Ho3, Hslabs⟩
  ihave Ho0 := (Entails.of_eq (slab_pts_eq d L (k0_off2 L) (k0_off2_inb L) 0 (by rw [k0_off2_eq, offlit_eq]) _).symm) $$ Ho0
  ihave Ho1 := (Entails.of_eq (slab_pts_eq d L (k0_off3 L) (k0_off3_inb L) 1 (by rw [k0_off3_eq, offlit_eq]) _).symm) $$ Ho1
  ihave Ho2 := (Entails.of_eq (slab_pts_eq d L (k0_off4 L) (k0_off4_inb L) 2 (by rw [k0_off4_eq, offlit_eq]) _).symm) $$ Ho2
  ihave Ho3 := (Entails.of_eq (slab_pts_eq d L (k0_off5 L) (k0_off5_inb L) 3 (by rw [k0_off5_eq, offlit_eq]) _).symm) $$ Ho3
  have hin : ∀ (off : Fin 2 → Nat) (h : ∀ a, off a + S1x128.size a ≤ S200x128.size a) (x : S128.Idx),
      ((rowAt off h).view.read (Elt F) (idxOf (wOf L) X) x).toNat < S1000000x128.size gathers_S1000000x128_S128x128.axis :=
    fun off h x => hin_of_range d L X hX off h x
  sl_exec
  -- the state at the loop's entry, restated. Gathers of positions 4 and 5 in flight into slots 0 and 1:
  generalize hC0 : (slot0).view.writes (Elt F) fr _ = C0
  have hc0 : ∀ i ∈ (slot0).view.set, C0 i = gathered TB (idxOf (wOf L) X) (4 * 0 + 4) i := by
    subst hC0
    exact gather_writes_eq d L TB (idxOf (wOf L) X) ![0, 0] inb_S512x128_S128x128_0_0 0 rfl ![4, 0] inb_S200x128_S1x128_4_0 4 rfl (by omega) _ _ fr _
  ihave Hs0 := (gflight_of d L X TB _ _ _ _ slot0 ![4, 0] inb_S200x128_S1x128_4_0 (4 * 0 + 4) rfl C0 _ hc0) $$ Hs0
  generalize hC1 : (slot1).view.writes (Elt F) fr _ = C1
  have hc1 : ∀ i ∈ (slot1).view.set, C1 i = gathered TB (idxOf (wOf L) X) (4 * 0 + 5) i := by
    subst hC1
    exact gather_writes_eq d L TB (idxOf (wOf L) X) ![128, 0] inb_S512x128_S128x128_128_0 1 rfl ![5, 0] inb_S200x128_S1x128_5_0 5 rfl (by omega) _ _ fr _
  ihave Hs1 := (gflight_of d L X TB _ _ _ _ slot1 ![5, 0] inb_S200x128_S1x128_5_0 (4 * 0 + 5) rfl C1 _ hc1) $$ Hs1
  -- copy-outs of positions 2 and 3 in flight out of slots 2 and 3:
  generalize hC2 : (slot2).view.writes (Elt F) fr _ = C2
  have hc2 : ∀ i ∈ (slot2).view.set, C2 i = gathered TB (idxOf (wOf L) X) (4 * 0 + 2) i := by
    subst hC2
    exact gather_writes_eq d L TB (idxOf (wOf L) X) ![256, 0] inb_S512x128_S128x128_256_0 2 rfl ![2, 0] inb_S200x128_S1x128_2_0 2 rfl (by omega) _ _ fr _
  generalize hCS2 : (slabAt (k0_off4 L) (k0_off4_inb L)).view.writes (Elt F) O0 _ = CS2
  have hcs2 : ∀ i ∈ (slabAt (k0_off4 L) (k0_off4_inb L)).view.set, CS2 i = outOf TB X i := by
    subst hCS2 hC2
    exact copyout_writes_eq d L TB X ![256, 0] inb_S512x128_S128x128_256_0 2 rfl (k0_off4 L) (k0_off4_inb L) 2 (by rw [k0_off4_eq, offlit_eq]) (by omega) _ hc2 _ _
  ihave Hs6 := (sflight_of d L _ _ _ slot2 (k0_off4 L) (k0_off4_inb L) (4 * 0 + 2) (by rw [k0_off4_eq, offlit_eq]) CS2 _ hcs2 C2 _ hc2) $$ Hs6
  generalize hC3 : (slot3).view.writes (Elt F) fr _ = C3
  have hc3 : ∀ i ∈ (slot3).view.set, C3 i = gathered TB (idxOf (wOf L) X) (4 * 0 + 3) i := by
    subst hC3
    exact gather_writes_eq d L TB (idxOf (wOf L) X) ![384, 0] inb_S512x128_S128x128_384_0 3 rfl ![3, 0] inb_S200x128_S1x128_3_0 3 rfl (by omega) _ _ fr _
  generalize hCS3 : (slabAt (k0_off5 L) (k0_off5_inb L)).view.writes (Elt F) O0 _ = CS3
  have hcs3 : ∀ i ∈ (slabAt (k0_off5 L) (k0_off5_inb L)).view.set, CS3 i = outOf TB X i := by
    subst hCS3 hC3
    exact copyout_writes_eq d L TB X ![384, 0] inb_S512x128_S128x128_384_0 3 rfl (k0_off5 L) (k0_off5_inb L) 3 (by rw [k0_off5_eq, offlit_eq]) (by omega) _ hc3 _ _
  ihave Hs7 := (sflight_of d L _ _ _ slot3 (k0_off5 L) (k0_off5_inb L) (4 * 0 + 3) (by rw [k0_off5_eq, offlit_eq]) CS3 _ hcs3 C3 _ hc3) $$ Hs7
  -- the slabs of positions 0 and 1 hold their rows:
  generalize hCS0 : (slabAt (k0_off2 L) (k0_off2_inb L)).view.writes (Elt F) _ _ = CS0
  have hcs0 : ∀ i ∈ (slabAt (k0_off2 L) (k0_off2_inb L)).view.set, CS0 i = outOf TB X i := by
    subst hCS0
    exact copyout_writes_eq d L TB X ![0, 0] inb_S512x128_S128x128_0_0 0 rfl (k0_off2 L) (k0_off2_inb L) 0 (by rw [k0_off2_eq, offlit_eq]) (by omega) _
      (gather_writes_eq d L TB (idxOf (wOf L) X) ![0, 0] inb_S512x128_S128x128_0_0 0 rfl ![0, 0] inb_S200x128_S1x128_0_0 0 rfl (by omega) _ _ fr []) _ _
  ihave Ho0 := (Entails.of_eq (slab_of d L (k0_off2 L) (k0_off2_inb L) 0 (by rw [k0_off2_eq, offlit_eq]) CS0 (outOf TB X) hcs0)) $$ Ho0
  generalize hCS1 : (slabAt (k0_off3 L) (k0_off3_inb L)).view.writes (Elt F) _ _ = CS1
  have hcs1 : ∀ i ∈ (slabAt (k0_off3 L) (k0_off3_inb L)).view.set, CS1 i = outOf TB X i := by
    subst hCS1
    exact copyout_writes_eq d L TB X ![128, 0] inb_S512x128_S128x128_128_0 1 rfl (k0_off3 L) (k0_off3_inb L) 1 (by rw [k0_off3_eq, offlit_eq]) (by omega) _
      (gather_writes_eq d L TB (idxOf (wOf L) X) ![128, 0] inb_S512x128_S128x128_128_0 1 rfl ![1, 0] inb_S200x128_S1x128_1_0 1 rfl (by omega) _ _ fr []) _ _
  ihave Ho1 := (Entails.of_eq (slab_of d L (k0_off3 L) (k0_off3_inb L) 1 (by rw [k0_off3_eq, offlit_eq]) CS1 (outOf TB X) hcs1)) $$ Ho1
  -- rows 0 to 3 are back
  ihave Hr0 := (Entails.of_eq (row_pts_eq d L ![0, 0] inb_S200x128_S1x128_0_0 0 rfl _)) $$ Hr0
  ihave Hr1 := (Entails.of_eq (row_pts_eq d L ![1, 0] inb_S200x128_S1x128_1_0 1 rfl _)) $$ Hr1
  ihave Hr2 := (Entails.of_eq (row_pts_eq d L ![2, 0] inb_S200x128_S1x128_2_0 2 rfl _)) $$ Hr2
  ihave Hr3 := (Entails.of_eq (row_pts_eq d L ![3, 0] inb_S200x128_S1x128_3_0 3 rfl _)) $$ Hr3
  sl_for (tinv d L q X TB O0 O W) $$ [Hmw Hs0 Hs1 Hs6 Hs7 Ht0 Ht1 Ht2 Ht3 Hs2 Hs3 Hs4 Hs5 Hr0 Hr1 Hr2 Hr3 Hrows Ho0 Ho1 Hslabs HO]
  case region =>
    intro k u
    cases u
    exact trip d L q X TB O0 O W hX k
  · unfold tinv
    isplitl [Hmw]; · iexact Hmw
    isplitl [Hs0]; · iexact Hs0
    isplitl [Hs1]; · iexact Hs1
    isplitl [Hs6]; · iexact Hs6
    isplitl [Hs7]; · iexact Hs7
    isplitl [Ht0]; · iexact Ht0
    isplitl [Ht1]; · iexact Ht1
    isplitl [Ht2]; · iexact Ht2
    isplitl [Ht3]; · iexact Ht3
    isplitl [Hs2]; · iexact Hs2
    isplitl [Hs3]; · iexact Hs3
    isplitl [Hs4]; · iexact Hs4
    isplitl [Hs5]; · iexact Hs5
    isplitl [Hr0 Hr1 Hr2 Hr3]
    · iapply (Entails.of_eq (range4z (rowPts d L X)).symm)
      isplitl [Hr0]; · iexact Hr0
      isplitl [Hr1]; · iexact Hr1
      isplitl [Hr2]; · iexact Hr2
      isplitl [Hr3]; · iexact Hr3
      iempintro
    isplitl [Hrows]; · iexact Hrows
    isplitl [Ho0 Ho1]
    · iapply (Entails.of_eq (range2z (slabDone d L X TB)).symm)
      isplitl [Ho0]; · iexact Ho0
      isplitl [Ho1]; · iexact Ho1
      iempintro
    isplitl [Hslabs]; · iexact Hslabs
    iexists _; isplitr
    rotate_left
    · iexact HO
    · ipureintro; intro p hp
      simp only [Finset.mem_insert] at hp
      rcases hp with rfl | rfl | rfl | rfl | rfl | rfl | rfl | hp
      all_goals first | exact .inr rfl | exact .inl hp
  iintro %b HI
  ihave HI := (Entails.of_eq (congrArg (fun n => tinv d L q X TB O0 O W n b) trips_eq)) $$ HI
  unfold tinv
  icases HI with ⟨Hmw', Hs0, Hs1, Hs6, Hs7, Ht0, Ht1, Ht2, Ht3, Hs2, Hs3, Hs4, Hs5, Hrdone, Hrows, Hsdone, Hslabs, %W', %hW', HO⟩
  -- the last rows (198, 199) and slabs (196 … 199), in the program's spelling
  ihave Hrows := (Entails.of_eq (Ico_pop2e (rowPts d L X) (a := 4 * 48 + 6))) $$ Hrows
  icases Hrows with ⟨Hr198, Hr199, -⟩
  ihave Hr198 := (Entails.of_eq (row_pts_eq d L ![198, 0] inb_S200x128_S1x128_198_0 (4 * 48 + 6) rfl _).symm) $$ Hr198
  ihave Hr199 := (Entails.of_eq (row_pts_eq d L ![199, 0] inb_S200x128_S1x128_199_0 (4 * 48 + 6 + 1) rfl _).symm) $$ Hr199
  ihave Hslabs := (Entails.of_eq (Ico_pop4e (slabTodo d L O0) (a := 4 * 48 + 4))) $$ Hslabs
  icases Hslabs with ⟨Ho196, Ho197, Ho198, Ho199, -⟩
  ihave Ho196 := (Entails.of_eq (slab_pts_eq d L (k0_off9 L) (k0_off9_inb L) (4 * 48 + 4) (by rw [k0_off9_eq, offlit_eq]) _).symm) $$ Ho196
  ihave Ho197 := (Entails.of_eq (slab_pts_eq d L (k0_off10 L) (k0_off10_inb L) (4 * 48 + 4 + 1) (by rw [k0_off10_eq, offlit_eq]) _).symm) $$ Ho197
  ihave Ho198 := (Entails.of_eq (slab_pts_eq d L (k0_off11 L) (k0_off11_inb L) (4 * 48 + 4 + 2) (by rw [k0_off11_eq, offlit_eq]) _).symm) $$ Ho198
  ihave Ho199 := (Entails.of_eq (slab_pts_eq d L (k0_off12 L) (k0_off12_inb L) (4 * 48 + 4 + 3) (by rw [k0_off12_eq, offlit_eq]) _).symm) $$ Ho199
  sl_exec
  -- everything has drained. The last two gathers' slots, and the last four slabs, restated:
  generalize hC2f : (slot2).view.writes (Elt F) (gathered TB (idxOf (wOf L) X) (4 * 48 + 2)) _ = C2f
  have hc2f : ∀ i ∈ (slot2).view.set, C2f i = gathered TB (idxOf (wOf L) X) 198 i := by
    subst hC2f
    exact gather_writes_eq d L TB (idxOf (wOf L) X) ![256, 0] inb_S512x128_S128x128_256_0 2 rfl ![198, 0] inb_S200x128_S1x128_198_0 198 rfl (by omega) _ _ _ _
  generalize hC3f : (slot3).view.writes (Elt F) (gathered TB (idxOf (wOf L) X) (4 * 48 + 3)) _ = C3f
  have hc3f : ∀ i ∈ (slot3).view.set, C3f i = gathered TB (idxOf (wOf L) X) 199 i := by
    subst hC3f
    exact gather_writes_eq d L TB (idxOf (wOf L) X) ![384, 0] inb_S512x128_S128x128_384_0 3 rfl ![199, 0] inb_S200x128_S1x128_199_0 199 rfl (by omega) _ _ _ _
  generalize hCS196 : (slabAt (k0_off9 L) (k0_off9_inb L)).view.writes (Elt F) O0 _ = CS196
  have hcs196 : ∀ i ∈ (slabAt (k0_off9 L) (k0_off9_inb L)).view.set, CS196 i = outOf TB X i := by
    subst hCS196
    exact copyout_writes_eq d L TB X ![0, 0] inb_S512x128_S128x128_0_0 0 rfl (k0_off9 L) (k0_off9_inb L) 196 (by rw [k0_off9_eq, offlit_eq]) (by omega)
      (gathered TB (idxOf (wOf L) X) (4 * 48 + 4)) (fun _ _ => rfl) _ _
  ihave Ho196 := (Entails.of_eq (slab_of d L (k0_off9 L) (k0_off9_inb L) 196 (by rw [k0_off9_eq, offlit_eq]) CS196 (outOf TB X) hcs196)) $$ Ho196
  generalize hCS197 : (slabAt (k0_off10 L) (k0_off10_inb L)).view.writes (Elt F) O0 _ = CS197
  have hcs197 : ∀ i ∈ (slabAt (k0_off10 L) (k0_off10_inb L)).view.set, CS197 i = outOf TB X i := by
    subst hCS197
    exact copyout_writes_eq d L TB X ![128, 0] inb_S512x128_S128x128_128_0 1 rfl (k0_off10 L) (k0_off10_inb L) 197 (by rw [k0_off10_eq, offlit_eq]) (by omega)
      (gathered TB (idxOf (wOf L) X) (4 * 48 + 5)) (fun _ _ => rfl) _ _
  ihave Ho197 := (Entails.of_eq (slab_of d L (k0_off10 L) (k0_off10_inb L) 197 (by rw [k0_off10_eq, offlit_eq]) CS197 (outOf TB X) hcs197)) $$ Ho197
  generalize hCS198 : (slabAt (k0_off11 L) (k0_off11_inb L)).view.writes (Elt F) O0 _ = CS198
  have hcs198 : ∀ i ∈ (slabAt (k0_off11 L) (k0_off11_inb L)).view.set, CS198 i = outOf TB X i := by
    subst hCS198 hC2f
    exact copyout_writes_eq d L TB X ![256, 0] inb_S512x128_S128x128_256_0 2 rfl (k0_off11 L) (k0_off11_inb L) 198 (by rw [k0_off11_eq, offlit_eq]) (by omega)
      _ hc2f _ _
  ihave Ho198 := (Entails.of_eq (slab_of d L (k0_off11 L) (k0_off11_inb L) 198 (by rw [k0_off11_eq, offlit_eq]) CS198 (outOf TB X) hcs198)) $$ Ho198
  generalize hCS199 : (slabAt (k0_off12 L) (k0_off12_inb L)).view.writes (Elt F) O0 _ = CS199
  have hcs199 : ∀ i ∈ (slabAt (k0_off12 L) (k0_off12_inb L)).view.set, CS199 i = outOf TB X i := by
    subst hCS199 hC3f
    exact copyout_writes_eq d L TB X ![384, 0] inb_S512x128_S128x128_384_0 3 rfl (k0_off12 L) (k0_off12_inb L) 199 (by rw [k0_off12_eq, offlit_eq]) (by omega)
      _ hc3f _ _
  ihave Ho199 := (Entails.of_eq (slab_of d L (k0_off12 L) (k0_off12_inb L) 199 (by rw [k0_off12_eq, offlit_eq]) CS199 (outOf TB X) hcs199)) $$ Ho199
  ihave Hr198 := (Entails.of_eq (row_pts_eq d L ![198, 0] inb_S200x128_S1x128_198_0 198 rfl _)) $$ Hr198
  ihave Hr199 := (Entails.of_eq (row_pts_eq d L ![199, 0] inb_S200x128_S1x128_199_0 199 rfl _)) $$ Hr199
  ihave Hs0_dst := (Entails.of_eq (slot0_pts_eq d L _)) $$ Hs0_dst
  ihave Hs1_dst := (Entails.of_eq (slot1_pts_eq d L _)) $$ Hs1_dst
  ihave Hs6_src := (Entails.of_eq (slot2_pts_eq d L _)) $$ Hs6_src
  ihave Hs7_src := (Entails.of_eq (slot3_pts_eq d L _)) $$ Hs7_src
  sl_step
  -- the tile's columns of the row numbers, untouched
  isplitl [Hx]; · iexact Hx
  -- the table's share, its tokens joined
  isplitl [Htd Ht0 Ht1 Ht2 Ht3]
  · iapply (Transfers.pointsTo_toks_join q 4)
    isplitl [Htd]; · iexact Htd
    iapply (Entails.of_eq (fin4 _).symm)
    isplitl [Ht0]; · iexact Ht0
    isplitl [Ht1]; · iexact Ht1
    isplitl [Ht2]; · iexact Ht2
    iexact Ht3
  -- the index scratch, its rows joined
  isplitl [Hrdone Hs0_dst_and Hs1_dst_and Hr198 Hr199]
  · iexists (idxOf (wOf L) X)
    iapply (Entails.of_eq ((idx_rows d L _).trans (range200_tail4 _)).symm)
    isplitl [Hr199]; · iexact Hr199
    isplitl [Hr198]; · iexact Hr198
    isplitl [Hs1_dst_and]; · iexact Hs1_dst_and
    isplitl [Hs0_dst_and]; · iexact Hs0_dst_and
    iexact Hrdone
  -- the row scratch, its slots joined
  isplitl [Hs0_dst Hs1_dst Hs6_src Hs7_src]
  · iapply (slots_join4 d L _ _ _ _)
    isplitl [Hs0_dst]; · iexact Hs0_dst
    isplitl [Hs1_dst]; · iexact Hs1_dst
    isplitl [Hs6_src]; · iexact Hs6_src
    iexact Hs7_src
  -- the tile's block of the result: every slab holds its looked-up rows
  isplitl [Hsdone Hs6_dst Hs7_dst Ho196 Ho197 Ho198 Ho199]
  · iapply (oblk_slabs_join d L (wOf L) (outOf TB X))
    iapply (Entails.of_eq (range200_tail6 _).symm)
    isplitl [Ho199]; · iexact Ho199
    isplitl [Ho198]; · iexact Ho198
    isplitl [Ho197]; · iexact Ho197
    isplitl [Ho196]; · iexact Ho196
    isplitl [Hs7_dst]; · iexact Hs7_dst
    isplitl [Hs6_dst]; · iexact Hs6_dst
    iexact Hsdone
  -- the semaphores, all at zero again
  isplitl [Hs8]; · iexact Hs8
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  iexists _; isplitr
  rotate_left
  · iexact HO
  · ipureintro; intro p hp
    simp only [Finset.mem_insert] at hp
    rcases hp with rfl | rfl | rfl | rfl | rfl | rfl | rfl | rfl | rfl | rfl | hp
    all_goals first | exact .inr rfl | exact hW' p hp

end Core

end Cert.Proof.KernelIdeal

end
-- ==== Proof.LibHostStep.lean ====
/-
  Host operations as steps on the buffers they touch. A StableHLO line `y := f x` (or a reshape `y := x`) run by a
  thread that holds the region boundary, `x` whole at contents `X` and `y` whole at any contents, leaves `x` at `X` and
  `y` at `f X`; nothing else of the thread's holdings is consulted. Stated for a continuation that ignores the
  operation's answer, which is how a printed @main continues after every such line.
-/
import Idealize.ShloMosaic.Lib.StableHlo.Run

noncomputable section

namespace Cert.Lib.HostStep

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {α : Type}

/-- A valuation that holds `X` at `x` and `Y` at `y` and agrees with `V₀` elsewhere. -/
def at2 (V₀ : Valuation τ sig Val) (x y : DevRef τ sig) (X : x.ty.Contents Val) (Y : y.ty.Contents Val) : Valuation τ sig Val :=
  Function.update (Function.update V₀ x X) y Y

theorem at2_y (V₀ : Valuation τ sig Val) (x y : DevRef τ sig) (X : x.ty.Contents Val) (Y : y.ty.Contents Val) :
    at2 V₀ x y X Y y = Y := Function.update_self _ _ _
theorem at2_x (V₀ : Valuation τ sig Val) {x y : DevRef τ sig} (h : x ≠ y) (X : x.ty.Contents Val) (Y : y.ty.Contents Val) :
    at2 V₀ x y X Y x = X := (Function.update_of_ne h _ _).trans (Function.update_self _ _ _)

/-- Two distinct buffers held under a valuation are each held at the valuation's contents. -/
theorem held_pair {x y : DevRef τ sig} (h : x ≠ y) (V : Valuation τ sig Val) :
    (held c ({x, y} : Finset (DevRef τ sig)) V : sProp 𝕄) = iprop(((c.1, x) ↦{fullShare} V x) ∗ ((c.1, y) ↦{fullShare} V y)) := by
  unfold held
  rw [bigSep_insert (by simpa using h), bigSep_singleton]; rfl

/-- `y := f x` on the two buffers it touches. -/
theorem wp_unary {hp : c.2.kind.runsHlo = true} (V₀ : Valuation τ sig Val) (x y : Ref sig .tc)
    (f : x.ty.Contents Val → y.ty.Contents Val) (hx hy) (hne : (Proc.devRef .tc x : DevRef τ sig) ≠ (Proc.devRef .tc y : DevRef τ sig))
    (X : x.ty.Contents Val) (Y : y.ty.Contents Val)
    {k : Prog (TpuEff nD τ sig Val Λ c.2) α} {Q : α → sProp 𝕄} :
    iprop(boundary c ∗ ((c.1, (Proc.devRef .tc x : DevRef τ sig)) ↦{fullShare} X) ∗ ((c.1, (Proc.devRef .tc y : DevRef τ sig)) ↦{fullShare} Y))
      ⊢ iprop(((boundary c ∗ ((c.1, (Proc.devRef .tc x : DevRef τ sig)) ↦{fullShare} X) ∗ ((c.1, (Proc.devRef .tc y : DevRef τ sig)) ↦{fullShare} f X)) -∗ wp frame (wpE defs 𝒱 c bd) E k Q)
        -∗ wp frame (wpE defs 𝒱 c bd) E (hlo hp (unary x y f hx hy) fun _ => k) Q) := by
  have hin := wp_hlo_within (defs := defs) 𝒱 c bd E (hp := hp) (op := unary x y f hx hy) (k := fun _ => k)
    (S := ({(Proc.devRef .tc x : DevRef τ sig), (Proc.devRef .tc y : DevRef τ sig)} : Finset (DevRef τ sig))) (Finset.Subset.refl _)
    (V := at2 V₀ (Proc.devRef .tc x) (Proc.devRef .tc y) X Y) (Q := Q) rfl
  rw [held_pair c hne, held_pair c hne, unary_result, (unary x y f hx hy : HloOp τ sig Val).result_of_not_mem _ (b := (Proc.devRef .tc x : DevRef τ sig)) (by simpa using hne),
    at2_x V₀ hne, at2_y] at hin
  exact hin

/-- The reshape `y := x` on the two buffers it touches. -/
theorem wp_reshape {hp : c.2.kind.runsHlo = true} (V₀ : Valuation τ sig Val) (x y : Ref sig .tc)
    (he : x.ty.elt = y.ty.elt) (hn : x.ty.shape.ShapeCasts y.ty.shape) (hx hy) (hne : (Proc.devRef .tc x : DevRef τ sig) ≠ (Proc.devRef .tc y : DevRef τ sig))
    (X : x.ty.Contents Val) (Y : y.ty.Contents Val)
    {k : Prog (TpuEff nD τ sig Val Λ c.2) α} {Q : α → sProp 𝕄} :
    iprop(boundary c ∗ ((c.1, (Proc.devRef .tc x : DevRef τ sig)) ↦{fullShare} X) ∗ ((c.1, (Proc.devRef .tc y : DevRef τ sig)) ↦{fullShare} Y))
      ⊢ iprop(((boundary c ∗ ((c.1, (Proc.devRef .tc x : DevRef τ sig)) ↦{fullShare} X)
            ∗ ((c.1, (Proc.devRef .tc y : DevRef τ sig)) ↦{fullShare} (fun i => he ▸ shapeCast y.ty.shape X hn i : y.ty.Contents Val))) -∗ wp frame (wpE defs 𝒱 c bd) E k Q)
        -∗ wp frame (wpE defs 𝒱 c bd) E (hlo hp (reshape x y he hn hx hy) fun _ => k) Q) := by
  have hin := wp_hlo_within (defs := defs) 𝒱 c bd E (hp := hp) (op := reshape x y he hn hx hy) (k := fun _ => k)
    (S := ({(Proc.devRef .tc x : DevRef τ sig), (Proc.devRef .tc y : DevRef τ sig)} : Finset (DevRef τ sig))) (Finset.Subset.refl _)
    (V := at2 V₀ (Proc.devRef .tc x) (Proc.devRef .tc y) X Y) (Q := Q) rfl
  rw [held_pair c hne, held_pair c hne, reshape_result, (reshape x y he hn hx hy : HloOp τ sig Val).result_of_not_mem _ (b := (Proc.devRef .tc x : DevRef τ sig)) (by simpa using hne),
    at2_x V₀ hne, at2_y] at hin
  exact hin

end Cert.Lib.HostStep

end
-- ==== Proof.KILaunchA.lean ====
/-
  The launch of the lookup kernel, first part: the arrays @main computes before and after the call, what the
  handshakes carry to each SparseCore and each tile, how a SparseCore's operands split among its tiles, the launch
  element of the ghost state, @main on the TensorCore (the host operations as steps, the three arrays split among the
  SparseCores and joined again), and what the final memory says.
-/
import proofs.«206931_g83167746720501_cont_9to1_m_74_15_alg».proof.Proof.KIGeom
import proofs.«206931_g83167746720501_cont_9to1_m_74_15_alg».proof.Proof.LibHostStep
import Idealize.ShloMosaic.Lib.Transfers

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch memory, the arrays and what the call computes from them -/

variable (m : (ℓ : Loc nD τ sig) → Buf (Elt F) ℓ) (ρ : Dev nD → PrngReg)

abbrev arg0Loc (d : Dev nD) : Loc nD τ sig := (SparseCore.T d).loc main_arg0
abbrev arg1Loc (d : Dev nD) : Loc nD τ sig := (SparseCore.T d).loc main_arg1
abbrev v0Loc (d : Dev nD) : Loc nD τ sig := (SparseCore.T d).loc main_v0
abbrev cLoc (d : Dev nD) : Loc nD τ sig := (SparseCore.T d).loc main_c
abbrev c0Loc (d : Dev nD) : Loc nD τ sig := (SparseCore.T d).loc main_call0_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

variable [FloatOps F]

/-- The transposed row numbers: position by batch column. -/
def XT (d : Dev nD) : Buf (Elt F) (v0Loc d) :=
  transpose S200x4096 [1, 0] (m (arg0Loc d)) transposes_S4096x200_S200x4096_1_0
/-- The table padded to 128 lanes with zeros. -/
def TBp (d : Dev nD) : Buf (Elt F) (v1Loc d) :=
  pad S1000000x128 ![0, 0] ![0, 64] ![0, 0] (m (arg1Loc d)) (sitofp .f32 (constantI S_ 32 0#32)) pads_S1000000x64_S1000000x128_000_0640 h_S_
/-- The looked-up rows, padded lanes included. -/
def OUT (d : Dev nD) : Buf (Elt F) (v2Loc d) := outOf (TBp m d) (XT m d)

/-! ## What the handshakes carry

Tile `(c, i)` — worker `2 i + c` — is handed its columns of the transposed row numbers, a read share of the padded
table and its block of the result; it hands them back, the block at the looked-up rows. A SparseCore is handed its
sixteen tiles' pieces and the rest of its own read share of the table. -/

/-- The read share of the table for SparseCore `c`, and of it for tile `i`. -/
abbrev qC (c : ℕ) : PosShare TreeShare := Transfers.shareTokN fullShare c
abbrev qT (c i : ℕ) : PosShare TreeShare := Transfers.shareTokN (qC c) i

def goP (d : Dev nD) (c i : ℕ) : sProp 𝕄 :=
  iprop((v0Loc d ↦[xtSet (2 * i + c)]{fullShare} XT m d) ∗ (v1Loc d ↦{qT c i} TBp m d) ∗ (v2Loc d ↦[oblkSet (2 * i + c)]{fullShare} m (v2Loc d)))
def tdP (d : Dev nD) (c i : ℕ) : sProp 𝕄 :=
  iprop((v0Loc d ↦[xtSet (2 * i + c)]{fullShare} XT m d) ∗ (v1Loc d ↦{qT c i} TBp m d) ∗ (v2Loc d ↦[oblkSet (2 * i + c)]{fullShare} OUT m d))
def stP (d : Dev nD) (c : ℕ) : sProp 𝕄 :=
  iprop((v1Loc d ↦{Transfers.shareDrop (qC c) 16} TBp m d) ∗ bigSep (Finset.univ : Finset (Fin 16)) fun i => goP m d c i.val)
def dnP (d : Dev nD) (c : ℕ) : sProp 𝕄 :=
  iprop((v1Loc d ↦{Transfers.shareDrop (qC c) 16} TBp m d) ∗ bigSep (Finset.univ : Finset (Fin 16)) fun i => tdP m d c i.val)

def P : (K (F := F)).Pay (nD := nD) (Val := Elt F) (Name := ℕ) (U := UU) where
  st := fun _ d c => stP m d c.val
  dn := fun _ d c => dnP m d c.val
  go := fun _ d c i => goP m d c.val i.val
  td := fun _ d c i => tdP m d c.val i.val
  x := fun _ _ => iprop(emp)

instance goP_storable (d : Dev nD) (c i : ℕ) : BI.Storable (upEmb : UEmb _ 𝕄) (goP m d c i) := by unfold goP; infer_instance
instance tdP_storable (d : Dev nD) (c i : ℕ) : BI.Storable (upEmb : UEmb _ 𝕄) (tdP m d c i) := by unfold tdP; infer_instance
instance stP_storable (d : Dev nD) (c : ℕ) : BI.Storable (upEmb : UEmb _ 𝕄) (stP m d c) := by unfold stP; infer_instance
instance dnP_storable (d : Dev nD) (c : ℕ) : BI.Storable (upEmb : UEmb _ 𝕄) (dnP m d c) := by unfold dnP; infer_instance

instance P_storable : (P (F := F) m).IsStorable where
  st _ d c := by unfold P; infer_instance
  dn _ d c := by unfold P; infer_instance
  go _ _ _ _ := by unfold P; infer_instance
  td _ _ _ _ := by unfold P; infer_instance

/-- A SparseCore's operands are its tiles' and the rest of its read share, both ways. -/
theorem vecSplit : (K (F := F)).VecSplit' (P m) 0 := by
  intro d c
  show stP m d c.val ⊢ |={Set.univ}=> iprop((bigSep Finset.univ fun i : Fin ((K (F := F)).nSub 0) => goP m d c.val i.val)
      ∗ ((bigSep Finset.univ fun i : Fin ((K (F := F)).nSub 0) => tdP m d c.val i.val) -∗ dnP m d c.val))
  unfold stP dnP
  iintro ⟨Hr, Hgo⟩
  imodintro
  isplitl [Hgo]; · iexact Hgo
  iintro Htd
  isplitl [Hr]; · iexact Hr
  iexact Htd

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Host operations as steps on the buffers they touch -/

section HostOps

variable {Λ : Labels} {defs' : Defs nD τ sig (Elt F) Λ} (𝒱' : Variants) (c : Thread nD τ) (bd : Option 𝒱'.V) (E : Set ℕ) {α : Type}

omit [FloatOps F] in
/-- A constant `y := v` on the buffer it writes. -/
theorem wp_nullary {hp : c.2.kind.runsHlo = true} (V₀ : Valuation τ sig (Elt F)) (y : Ref sig .tc) (v : y.ty.Contents (Elt F)) (hy)
    (Y : y.ty.Contents (Elt F)) {k : Prog (TpuEff nD τ sig (Elt F) Λ c.2) α} {Q : α → sProp 𝕄} :
    iprop(boundary c ∗ ((c.1, (Proc.devRef .tc y : DevRef τ sig)) ↦{fullShare} Y))
      ⊢ iprop(((boundary c ∗ ((c.1, (Proc.devRef .tc y : DevRef τ sig)) ↦{fullShare} v)) -∗ wp frame (wpE defs' 𝒱' c bd) E k Q)
        -∗ wp frame (wpE defs' 𝒱' c bd) E (hlo hp (StableHlo.nullary y v hy) fun _ => k) Q) := by
  have hin := wp_hlo_within (defs := defs') 𝒱' c bd E (hp := hp) (op := StableHlo.nullary y v hy) (k := fun _ => k)
    (S := ({(Proc.devRef .tc y : DevRef τ sig)} : Finset (DevRef τ sig))) (Finset.Subset.refl _)
    (V := Function.update V₀ (Proc.devRef .tc y) Y) (Q := Q) rfl
  unfold held at hin
  rw [bigSep_singleton, bigSep_singleton, StableHlo.nullary_result, Function.update_self] at hin
  exact hin

omit [FloatOps F] in
/-- `y := f a b` on the three buffers it touches. -/
theorem wp_binary {hp : c.2.kind.runsHlo = true} (V₀ : Valuation τ sig (Elt F)) (a b y : Ref sig .tc)
    (f : a.ty.Contents (Elt F) → b.ty.Contents (Elt F) → y.ty.Contents (Elt F)) (ha hb hy)
    (hab : (Proc.devRef .tc a : DevRef τ sig) ≠ Proc.devRef .tc b) (hay : (Proc.devRef .tc a : DevRef τ sig) ≠ Proc.devRef .tc y)
    (hby : (Proc.devRef .tc b : DevRef τ sig) ≠ Proc.devRef .tc y)
    (A : a.ty.Contents (Elt F)) (B : b.ty.Contents (Elt F)) (Y : y.ty.Contents (Elt F))
    {k : Prog (TpuEff nD τ sig (Elt F) Λ c.2) α} {Q : α → sProp 𝕄} :
    iprop(boundary c ∗ ((c.1, (Proc.devRef .tc a : DevRef τ sig)) ↦{fullShare} A) ∗ ((c.1, (Proc.devRef .tc b : DevRef τ sig)) ↦{fullShare} B)
        ∗ ((c.1, (Proc.devRef .tc y : DevRef τ sig)) ↦{fullShare} Y))
      ⊢ iprop(((boundary c ∗ ((c.1, (Proc.devRef .tc a : DevRef τ sig)) ↦{fullShare} A) ∗ ((c.1, (Proc.devRef .tc b : DevRef τ sig)) ↦{fullShare} B)
            ∗ ((c.1, (Proc.devRef .tc y : DevRef τ sig)) ↦{fullShare} f A B)) -∗ wp frame (wpE defs' 𝒱' c bd) E k Q)
        -∗ wp frame (wpE defs' 𝒱' c bd) E (hlo hp (StableHlo.binary a b y f ha hb hy) fun _ => k) Q) := by
  have hVa : Function.update (Function.update (Function.update V₀ (Proc.devRef .tc a) A) (Proc.devRef .tc b) B) (Proc.devRef .tc y) Y (Proc.devRef .tc a) = A :=
    (Function.update_of_ne hay _ _).trans ((Function.update_of_ne hab _ _).trans (Function.update_self _ _ _))
  have hVb : Function.update (Function.update (Function.update V₀ (Proc.devRef .tc a) A) (Proc.devRef .tc b) B) (Proc.devRef .tc y) Y (Proc.devRef .tc b) = B :=
    (Function.update_of_ne hby _ _).trans (Function.update_self _ _ _)
  have hVy : Function.update (Function.update (Function.update V₀ (Proc.devRef .tc a) A) (Proc.devRef .tc b) B) (Proc.devRef .tc y) Y (Proc.devRef .tc y) = Y :=
    Function.update_self _ _ _
  have hin := wp_hlo_within (defs := defs') 𝒱' c bd E (hp := hp) (op := StableHlo.binary a b y f ha hb hy) (k := fun _ => k)
    (S := ({(Proc.devRef .tc a : DevRef τ sig), Proc.devRef .tc b, Proc.devRef .tc y} : Finset (DevRef τ sig))) (Finset.Subset.refl _)
    (V := Function.update (Function.update (Function.update V₀ (Proc.devRef .tc a) A) (Proc.devRef .tc b) B) (Proc.devRef .tc y) Y) (Q := Q) rfl
  have hna : (Proc.devRef .tc a : DevRef τ sig) ∉ ({Proc.devRef .tc b, Proc.devRef .tc y} : Finset (DevRef τ sig)) := by
    simp only [Finset.mem_insert, Finset.mem_singleton, not_or]; exact ⟨hab, hay⟩
  have hnb : (Proc.devRef .tc b : DevRef τ sig) ∉ ({Proc.devRef .tc y} : Finset (DevRef τ sig)) := by
    simp only [Finset.mem_singleton]; exact hby
  unfold held at hin
  rw [bigSep_insert hna, bigSep_insert hnb, bigSep_singleton, bigSep_insert hna, bigSep_insert hnb, bigSep_singleton,
    StableHlo.binary_result,
    (StableHlo.binary a b y f ha hb hy : HloOp τ sig (Elt F)).result_of_not_mem _ (b := (Proc.devRef .tc a : DevRef τ sig)) (by simpa using hay),
    (StableHlo.binary a b y f ha hb hy : HloOp τ sig (Elt F)).result_of_not_mem _ (b := (Proc.devRef .tc b : DevRef τ sig)) (by simpa using hby),
    hVa, hVb, hVy] at hin
  exact hin

end HostOps

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((arg0Loc d ↦{fullShare} W main_arg0) ∗ (arg1Loc d ↦{fullShare} W main_arg1) ∗ (v0Loc d ↦{fullShare} W main_v0)
      ∗ (cLoc d ↦{fullShare} W main_c) ∗ (c0Loc d ↦{fullShare} W main_call0_v0) ∗ (v1Loc d ↦{fullShare} W main_v1)
      ∗ (v2Loc d ↦{fullShare} W main_v2) ∗ (v3Loc d ↦{fullShare} W main_v3)) := by
  unfold unscopedBufs
  rw [show (Finset.univ.filter fun b : Ref sig .tc => ¬ b.isScoped) = {main_arg0, main_arg1, main_v0, main_c, main_call0_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The three arrays, split among the two SparseCores and their tiles -/

section Split

variable (d : Dev nD)

/-- What SparseCore `c` is handed, the result's blocks at contents `O`. -/
def coreP (O : Buf (Elt F) (v2Loc d)) (c : ℕ) : sProp 𝕄 :=
  iprop((v1Loc d ↦{Transfers.shareDrop (qC c) 16} TBp m d) ∗ bigSep (Finset.univ : Finset (Fin 16)) fun i =>
    iprop((v0Loc d ↦[xtSet (2 * i.val + c)]{fullShare} XT m d) ∗ (v1Loc d ↦{qT c i.val} TBp m d) ∗ (v2Loc d ↦[oblkSet (2 * i.val + c)]{fullShare} O)))

theorem stP_eq (c : ℕ) : stP m d c = coreP m d (m (v2Loc d)) c := rfl
theorem dnP_eq (c : ℕ) : dnP m d c = coreP m d (OUT m d) c := rfl

/-- A SparseCore's share is its tiles' column blocks, its read share of the table and its tiles' result blocks. -/
theorem coreP_iff (O : Buf (Elt F) (v2Loc d)) (c : ℕ) :
    coreP m d O c ⊣⊢ iprop((bigSep (Finset.univ : Finset (Fin 16)) fun i => (v0Loc d ↦[xtSet (2 * i.val + c)]{fullShare} XT m d : sProp 𝕄))
      ∗ (v1Loc d ↦{qC c} TBp m d)
      ∗ (bigSep (Finset.univ : Finset (Fin 16)) fun i => (v2Loc d ↦[oblkSet (2 * i.val + c)]{fullShare} O : sProp 𝕄))) := by
  unfold coreP
  rw [bigSep_sep', bigSep_sep']
  constructor
  · iintro ⟨Hr, Ha, Hb, Ho⟩
    isplitl [Ha]; · iexact Ha
    isplitl [Hr Hb]
    · iapply (Transfers.pointsTo_toks_join (qC c) 16)
      isplitl [Hr]; · iexact Hr
      iexact Hb
    iexact Ho
  · iintro ⟨Ha, Hv, Ho⟩
    ihave H := (Transfers.pointsTo_toks_split (qC c) 16) $$ Hv
    icases H with ⟨Hr, Hb⟩
    isplitl [Hr]; · iexact Hr
    isplitl [Ha]; · iexact Ha
    isplitl [Hb]; · iexact Hb
    iexact Ho

/-- The transposed row numbers, the table and the result, whole, are the two SparseCores' shares and the rest of the
    table's read share. -/
theorem cores_iff (O : Buf (Elt F) (v2Loc d)) :
    iprop((v0Loc d ↦{fullShare} XT m d) ∗ (v1Loc d ↦{fullShare} TBp m d) ∗ (v2Loc d ↦{fullShare} O))
      ⊣⊢ iprop((v1Loc d ↦{Transfers.shareDrop fullShare 2} TBp m d) ∗ coreP m d O 0 ∗ coreP m d O 1) := by
  rw [xt_workers d (XT m d), out_workers d O, bigSep_univ_two, bigSep_univ_two]
  constructor
  · iintro ⟨⟨Ha0, Ha1⟩, Hv, ⟨Ho0, Ho1⟩⟩
    ihave H := (Transfers.pointsTo_toks_split fullShare 2) $$ Hv
    icases H with ⟨Hr, Ht⟩
    ihave Ht' := (Entails.of_eq (bigSep_univ_two _)) $$ Ht
    icases Ht' with ⟨Hq0, Hq1⟩
    isplitl [Hr]; · iexact Hr
    isplitl [Ha0 Hq0 Ho0]
    · iapply (coreP_iff m d O 0).2
      isplitl [Ha0]; · iexact Ha0
      isplitl [Hq0]; · iexact Hq0
      iexact Ho0
    · iapply (coreP_iff m d O 1).2
      isplitl [Ha1]; · iexact Ha1
      isplitl [Hq1]; · iexact Hq1
      iexact Ho1
  · iintro ⟨Hr, H0, H1⟩
    ihave H0' := (coreP_iff m d O 0).1 $$ H0
    ihave H1' := (coreP_iff m d O 1).1 $$ H1
    icases H0' with ⟨Ha0, Hq0, Ho0⟩
    icases H1' with ⟨Ha1, Hq1, Ho1⟩
    isplitl [Ha0 Ha1]
    · isplitl [Ha0]; · iexact Ha0
      iexact Ha1
    isplitl [Hr Hq0 Hq1]
    · iapply (Transfers.pointsTo_toks_join fullShare 2)
      isplitl [Hr]; · iexact Hr
      rw [bigSep_univ_two]
      isplitl [Hq0]; · iexact Hq0
      iexact Hq1
    · isplitl [Ho0]; · iexact Ho0
      iexact Ho1

theorem st0_eq : (bigSep Finset.univ fun c : Fin ((K (F := F)).nCore 0) => (P m).st 0 d c) = iprop(coreP m d (m (v2Loc d)) 0 ∗ coreP m d (m (v2Loc d)) 1) := by
  show (bigSep (Finset.univ : Finset (Fin 2)) fun c => stP m d c.val) = _
  rw [bigSep_univ_two]; rfl
theorem dn0_eq : (bigSep Finset.univ fun c : Fin ((K (F := F)).nCore 0) => (P m).dn 0 d c) = iprop(coreP m d (OUT m d) 0 ∗ coreP m d (OUT m d) 1) := by
  show (bigSep (Finset.univ : Finset (Fin 2)) fun c => dnP m d c.val) = _
  rw [bigSep_univ_two]; rfl

end Split

/-- What @main leaves the claim: the arguments at their launch contents, the result at the first 64 lanes of the
    looked-up rows. -/
abbrev FIN (d : Dev nD) : sProp 𝕄 :=
  iprop((arg0Loc d ↦{fullShare} m (arg0Loc d)) ∗ (arg1Loc d ↦{fullShare} m (arg1Loc d))
    ∗ (v3Loc d ↦{fullShare} extractStridedSlice S200x4096x64 ![0, 0, 0] (OUT m d) slices_S200x4096x128_S200x4096x64_0_0_0))

/-- @main on device `d`'s TensorCore: the transpose, the constant, its conversion and the pad; the three arrays split
    among the SparseCores and handed to the call; what comes back joined; the slice. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, fn_pad.body, wp_bind, wp_pure]
  iintro ⟨#Hctx, Hst, ⟨Hb, ⟨Ha0, Ha1, Hv0, Hc, Hc0, Hv1, Hv2, Hv3⟩, -, -⟩, -⟩
  -- the transposed row numbers
  iapply (Cert.Lib.HostStep.wp_unary 𝒱 (SparseCore.T d) none Set.univ (fun b => m (d, b)) main_arg0 main_v0 _ _ _ (by decide)
    (m (arg0Loc d)) (m (v0Loc d))) $$ [Hb Ha0 Hv0]
  · isplitl [Hb]; · iexact Hb
    isplitl [Ha0]; · iexact Ha0
    iexact Hv0
  iintro ⟨Hb, Ha0, Hv0⟩
  rw [wp_ret]; imodintro
  -- the pad value: the constant, converted
  iapply (wp_nullary 𝒱 (SparseCore.T d) none Set.univ (fun b => m (d, b)) main_c _ _ (m (cLoc d))) $$ [Hb Hc]
  · isplitl [Hb]; · iexact Hb
    iexact Hc
  iintro ⟨Hb, Hc⟩
  rw [wp_ret]; imodintro
  iapply (Cert.Lib.HostStep.wp_unary 𝒱 (SparseCore.T d) none Set.univ (fun b => m (d, b)) main_c main_call0_v0 _ _ _ (by decide)
    (constantI S_ 32 0#32) (m (c0Loc d))) $$ [Hb Hc Hc0]
  · isplitl [Hb]; · iexact Hb
    isplitl [Hc]; · iexact Hc
    iexact Hc0
  iintro ⟨Hb, Hc, Hc0⟩
  rw [wp_ret]; imodintro
  -- the padded table
  iapply (wp_binary 𝒱 (SparseCore.T d) none Set.univ (fun b => m (d, b)) main_arg1 main_call0_v0 main_v1 _ _ _ _ (by decide) (by decide) (by decide)
    (m (arg1Loc d)) (sitofp .f32 (constantI S_ 32 0#32)) (m (v1Loc d))) $$ [Hb Ha1 Hc0 Hv1]
  · isplitl [Hb]; · iexact Hb
    isplitl [Ha1]; · iexact Ha1
    isplitl [Hc0]; · iexact Hc0
    iexact Hv1
  iintro ⟨Hb, Ha1, Hc0, Hv1⟩
  rw [wp_ret]; imodintro; imodintro
  -- the three arrays, split among the SparseCores
  ihave Hsp := (cores_iff m d (m (v2Loc d))).1 $$ [Hv0 Hv1 Hv2]
  · isplitl [Hv0]; · iexact Hv0
    isplitl [Hv1]; · iexact Hv1
    iexact Hv2
  icases Hsp with ⟨Hrest, H0, H1⟩
  iapply ((K (F := F)).wp_run (D (F := F)) 𝒱 (EH := EH) (P := P m) κ d 0) $$ [Hst H0 H1 Hrest Hb Ha0 Ha1 Hc Hc0 Hv3]
  isplitr; · iexact Hctx
  isplitl [Hst]; · iexact Hst
  isplitl [H0 H1]
  · rw [st0_eq]
    isplitl [H0]; · iexact H0
    iexact H1
  iintro ⟨Hst, Hdn⟩
  ihave Hdn' := (Entails.of_eq (dn0_eq m d)) $$ Hdn
  icases Hdn' with ⟨H0, H1⟩
  ihave Hj := (cores_iff m d (OUT m d)).2 $$ [Hrest H0 H1]
  · isplitl [Hrest]; · iexact Hrest
    isplitl [H0]; · iexact H0
    iexact H1
  icases Hj with ⟨Hv0, Hv1, Hv2⟩
  -- the first 64 lanes
  iapply (Cert.Lib.HostStep.wp_unary 𝒱 (SparseCore.T d) none Set.univ (fun b => m (d, b)) main_v2 main_v3 _ _ _ (by decide)
    (OUT m d) (m (v3Loc d))) $$ [Hb Hv2 Hv3]
  · isplitl [Hb]; · iexact Hb
    isplitl [Hv2]; · iexact Hv2
    iexact Hv3
  iintro ⟨Hb, Hv2, Hv3⟩
  rw [wp_ret]; imodintro; imodintro
  isplitl [Hst]; · iexact Hst
  isplitl [Ha0]; · iexact Ha0
  isplitl [Ha1]; · iexact Ha1
  iexact Hv3

/-! ## What the final memory says -/

def fq (d : Dev nD) (s' : Phys nD τ sig (Elt F)) : Prop :=
  s'.mem.mem (v3Loc d) = extractStridedSlice S200x4096x64 ![0, 0, 0] (OUT m d) slices_S200x4096x128_S200x4096x64_0_0_0
    ∧ s'.mem.mem (arg0Loc d) = m (arg0Loc d) ∧ s'.mem.mem (arg1Loc d) = m (arg1Loc d)

theorem hfin (d : Dev nD) (s' : Phys nD τ sig (Elt F)) : iprop(FIN m d ∗ SI s') ⊢ (⌜fq m d s'⌝ : sProp 𝕄) := by
  iintro ⟨⟨Ha0, Ha1, Hv3⟩, HSI⟩
  ihave H := (persistent_entails_right (SI_pointsTo_agree (st := s') (ℓ := arg0Loc d) (I := Finset.univ) (q := fullShare) (f := m (arg0Loc d)))) $$ [HSI Ha0]
  · isplitl [HSI] <;> iassumption
  icases H with ⟨%h1, HSI, -⟩
  ihave H := (persistent_entails_right (SI_pointsTo_agree (st := s') (ℓ := arg1Loc d) (I := Finset.univ) (q := fullShare) (f := m (arg1Loc d)))) $$ [HSI Ha1]
  · isplitl [HSI] <;> iassumption
  icases H with ⟨%h2, HSI, -⟩
  ihave H := (SI_pointsTo_agree (st := s') (ℓ := v3Loc d) (I := Finset.univ) (q := fullShare)
    (f := extractStridedSlice S200x4096x64 ![0, 0, 0] (OUT m d) slices_S200x4096x128_S200x4096x64_0_0_0)) $$ [HSI Hv3]
  · isplitl [HSI] <;> iassumption
  icases H with %h3
  ipureintro
  exact ⟨funext fun i => h3 i (Finset.mem_univ i), funext fun i => h1 i (Finset.mem_univ i), funext fun i => h2 i (Finset.mem_univ i)⟩

end Cert.Proof.KernelIdeal

end
-- ==== Proof.KILaunch.lean ====
/-
  The launch of the lookup kernel, second part: one tile's task in the shape the launch theorem asks for — the tile's
  scoped buffers and semaphores unpacked, its pieces respelt at the memrefs the body slices, the body's theorem applied,
  everything packed again — and the program's run.
-/
import proofs.«206931_g83167746720501_cont_9to1_m_74_15_alg».proof.Proof.KIBody
import proofs.«206931_g83167746720501_cont_9to1_m_74_15_alg».proof.Proof.KILaunchA

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Launch

variable (m : (ℓ : Loc nD τ sig) → Buf (Elt F) ℓ) (ρ : Dev nD → PrngReg)

variable [FloatOps F]

/-! ## One tile's task, as the launch theorem asks for it -/

section Tile

variable (d : Dev nD) (L : grid0.Coords)

/-- The tile's nine DMA semaphores. -/
def semS : Finset (DmaSem sig) :=
  {cc0_scoped0.sem, cc0_scratch2.sem, cc0_scratch3.sem, cc0_scratch4.sem, cc0_scratch5.sem, cc0_scratch6.sem, cc0_scratch7.sem, cc0_scratch8.sem, cc0_scratch9.sem}

abbrev cellOf (s : DmaSem sig) : GSem nD τ sig := (thr d L, SemLoc.dma s)

omit [FloatOps F] in
theorem cellOf_inj : Set.InjOn (cellOf d L) ((semS : Finset (DmaSem sig)) : Set (DmaSem sig)) := by
  intro a _ b _ e
  exact SemLoc.dma.inj (Prod.mk.inj e).2

omit [FloatOps F] in
/-- The nine semaphores are among the tile's own scoped ones: they are them, at zero, and the rest. -/
theorem ownSems0_V :
    (ownSems0 (thr d L) : sProp 𝕄)
      = iprop((semVal (thr d L, SemLoc.dma cc0_scoped0.sem) 0
          ∗ semVal (thr d L, SemLoc.dma cc0_scratch2.sem) 0 ∗ semVal (thr d L, SemLoc.dma cc0_scratch3.sem) 0
          ∗ semVal (thr d L, SemLoc.dma cc0_scratch4.sem) 0 ∗ semVal (thr d L, SemLoc.dma cc0_scratch5.sem) 0
          ∗ semVal (thr d L, SemLoc.dma cc0_scratch6.sem) 0 ∗ semVal (thr d L, SemLoc.dma cc0_scratch7.sem) 0
          ∗ semVal (thr d L, SemLoc.dma cc0_scratch8.sem) 0 ∗ semVal (thr d L, SemLoc.dma cc0_scratch9.sem) 0)
          ∗ bigSep (ownCells (thr d L) \ semS.image (cellOf d L)) fun g => semVal g 0) := by
  unfold SparseCore.Cfg.ownSems0
  have hsc : ∀ s ∈ semS, (SemLoc.dma s : SemLoc sig).isScoped .scVector = true := by decide
  have hsub : semS.image (cellOf d L) ⊆ ownCells (thr d L) := by
    intro g hg
    obtain ⟨s, hs, rfl⟩ := Finset.mem_image.mp hg
    exact mem_ownCells.mpr ⟨rfl, hsc s hs⟩
  rw [SparseCore.bigSep_sdiff_split' hsub, SparseCore.bigSep_image_of_injOn (cellOf_inj d L)]
  unfold semS
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The two scratch buffers are among the tile's own: they are them, at some contents, and the rest. -/
theorem ownBufs_V :
    (ownBufs (thr d L) : sProp 𝕄)
      = iprop((∃ f, (iS).view.loc (thr d L) ↦{fullShare} f) ∗ (∃ f, (rS).view.loc (thr d L) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task of tile `L` of device `d`: its pieces in, the same pieces out with its block at the looked-up rows; its
    scoped buffers and semaphores are lent to the body and returned. -/
theorem tile_body (hF : (K (F := F)).Facts) (hX : XInRange (XT m d)) (O : CellTallies nD τ sig (HIx 1)) (W : Waits sig (HIx 1)) (hO : ∀ g, O g none = 0) :
    iprop(levAts (K (F := F)).L (K (F := F)).lev ∗ emp ∗ goP m d (L 0).val (L 1).val
        ∗ scopedBufs (thr d L) ∗ scopedSems0 (thr d L) ∗ owes (thr d L) O W)
      ⊢ wp frame (wpE (defs₀ (F := F)) 𝒱₀ (thr d L) none) Set.univ
          (cc0__emb_body L xW (Memref.isWhole_whole _) tW (Memref.isWhole_whole _) oW (Memref.isWhole_whole _) iS (Memref.isWhole_whole _) rS (Memref.isWhole_whole _)
            cc0_scratch2 cc0_scratch3 cc0_scratch4 cc0_scratch5 cc0_scratch6 cc0_scratch7 cc0_scratch8 cc0_scratch9 cc0_scoped0)
          fun _ => iprop(tdP m d (L 0).val (L 1).val ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goP tdP
  iintro ⟨Hlv, -, ⟨Hx, Ht, Ho⟩, ⟨⟨%fi, Hi⟩, ⟨%fr, Hr⟩, Hbufs⟩, ⟨⟨s0, s2, s3, s4, s5, s6, s7, s8, s9⟩, Hsems⟩, HO⟩
  ihave Hx' := (Entails.of_eq (show ((v0Loc d ↦[xtSet (2 * (L 1).val + (L 0).val)]{fullShare} XT m d : sProp 𝕄))
      = ((xtM L).view.loc (thr d L) ↦[(xtM L).view.set]{fullShare} XT m d) from by rw [set_xtM])) $$ Hx
  iapply (wp_wand_r frame _ _)
  isplitl [Hlv Hx' Ht Hi Hr Ho s0 s2 s3 s4 s5 s6 s7 s8 s9 HO]
  · iapply (tile_core (F := F) d L (qT (L 0).val (L 1).val) (XT m d) (TBp m d) (m (v2Loc d)) O W hO hX fi fr)
    isplitl [Hlv]; · iexact Hlv
    isplitl [Hx']; · iexact Hx'
    isplitl [Ht]; · iexact Ht
    isplitl [Hi]; · iexact Hi
    isplitl [Hr]; · iexact Hr
    isplitl [Ho]; · iexact Ho
    isplitl [s0]; · iexact s0
    isplitl [s2]; · iexact s2
    isplitl [s3]; · iexact s3
    isplitl [s4]; · iexact s4
    isplitl [s5]; · iexact s5
    isplitl [s6]; · iexact s6
    isplitl [s7]; · iexact s7
    isplitl [s8]; · iexact s8
    isplitl [s9]; · iexact s9
    iexact HO
  iintro %_ ⟨Hx, Ht, ⟨%fi', Hi⟩, ⟨%fr', Hr⟩, Ho, s0, s2, s3, s4, s5, s6, s7, s8, s9, HW⟩
  ihave Hx' := (Entails.of_eq (show ((xtM L).view.loc (thr d L) ↦[(xtM L).view.set]{fullShare} XT m d : sProp 𝕄)
      = (v0Loc d ↦[xtSet (2 * (L 1).val + (L 0).val)]{fullShare} XT m d) from by rw [set_xtM])) $$ Hx
  isplitl [Hx' Ht Ho]
  · isplitl [Hx']; · iexact Hx'
    isplitl [Ht]; · iexact Ht
    iexact Ho
  isplitl [Hi Hr Hbufs]
  · isplitl [Hi]; · iexists fi'; iexact Hi
    isplitl [Hr]; · iexists fr'; iexact Hr
    iexact Hbufs
  isplitl [s0 s2 s3 s4 s5 s6 s7 s8 s9 Hsems]
  · isplitr [Hsems]
    · isplitl [s0]; · iexact s0
      isplitl [s2]; · iexact s2
      isplitl [s3]; · iexact s3
      isplitl [s4]; · iexact s4
      isplitl [s5]; · iexact s5
      isplitl [s6]; · iexact s6
      isplitl [s7]; · iexact s7
      isplitl [s8]; · iexact s8
      iexact s9
    · iexact Hsems
  iexact HW

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_body (coordsV c s)
          xW (Memref.isWhole_whole _) tW (Memref.isWhole_whole _) oW (Memref.isWhole_whole _) iS (Memref.isWhole_whole _) rS (Memref.isWhole_whole _)
          cc0_scratch2 cc0_scratch3 cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hX : ∀ d, XInRange (XT m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hX d) O W hO).trans (wp_mono frame _ _ fun _ => obl_post)

end Launch

/-! ## The program's run -/

/-- Every weakly fair execution of the program ends; the result holds the first 64 lanes of the looked-up rows, the
    arguments what they held. -/
theorem run_main [∀ e, Nonempty (Elt F e)] [FloatOps F] (m : (ℓ : Loc nD τ sig) → Buf (Elt F) ℓ) (ρ : Dev nD → PrngReg)
    (hX : ∀ d, XInRange (XT m d)) :
    θ_run (Cert.KernelIdeal.defs (F := F)) (Cert.KernelIdeal.threads (F := F)) ⟨m, fun _ => 0, ρ⟩
      (fun r => ∀ c : Dev nD,
        r.2.mem ((SparseCore.T c).loc main_v3)
            = extractStridedSlice S200x4096x64 ![0, 0, 0] (outOf (TBp m c) (XT m c)) slices_S200x4096x128_S200x4096x64_0_0_0
          ∧ r.2.mem ((SparseCore.T c).loc main_arg0) = m ((SparseCore.T c).loc main_arg0)
          ∧ r.2.mem ((SparseCore.T c).loc main_arg1) = m ((SparseCore.T c).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m facts hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KernelIdeal

end
-- ==== Proof.KBSetup.lean ====
/-
  The program as the SparseCore launch theorem sees it: its one vector-subcore call, the kernels' body table lifted
  through the (empty) family of TensorCore pipelines, the launch semaphores' facts, and the resource algebra — the
  handshakes' rounds beside the exclusive counters the local transfers are run under.
-/
import proofs.«206931_g83167746720501_cont_9to1_m_74_15_alg».proof.Kernel
import Idealize.ShloMosaic.Lib.SparseCore.Launch
import Idealize.ShloMosaic.Lib.StableHlo.Run
import Idealize.ShloMosaic.Lib.Pipeline.Kit
import Idealize.ShloMosaic.Lib.Tactic
import proofs.«206931_g83167746720501_cont_9to1_m_74_15_alg».proof.Proof.Gen.Kernel
import proofs.«206931_g83167746720501_cont_9to1_m_74_15_alg».proof.Proof.Gen.Kernel.Skeleton

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

end Cert.Proof.Kernel

end
-- ==== Proof.KBDefs.lean ====
/-
  The objects the kernel's proof is stated over.
  One tile (vector subcore `(L 0, L 1)`, worker number `w = 2 · L 1 + L 0`) owns batch columns `[128 w, 128 w + 128)`:
  it copies those columns of the transposed row numbers into its index scratch, and for each position `s` gathers the
  128 table rows the index scratch's row `s` names into slot `s mod 4` of its row scratch, then copies the slot out to
  slab `(s, columns of w)` of the result.
  * the memrefs, spelt as the program slices them (literal offsets before and after the counted loop, the loop's own
    offset functions inside it);
  * the element sets of those pieces, by coordinates: membership is arithmetic on an index's coordinates;
  * the contents: `idxOf` (the index scratch after the first copy), `gathered s` (a slot after the gather of position
    `s`), `outOf` (the result array, each entry the table row its position and batch column name).
-/
import proofs.«206931_g83167746720501_cont_9to1_m_74_15_alg».proof.Proof.KBSetup
import Idealize.ShloMosaic.Lib.ValueIdx

noncomputable section

namespace Cert.Proof.Kernel

open Cert.Kernel Cert.Kernel.Gen

open Idealize.ShloMosaic Idealize.ShloMosaic.ValueIdx
open Idealize.ShloMosaic.SparseCore (S V T)

variable {F : FTy → Type}

/-! ## Threads and memrefs -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
/-- The worker number of a tile: `2 · subcore + core`. -/
abbrev wOf (L : grid0.Coords) : ℕ := 2 * (L 1).val + (L 0).val

abbrev xW : Memref sig .scVector .hbm S200x4096 .i32 := Memref.whole main_v0_scv
abbrev tW : Memref sig .scVector .hbm S1000000x128 .f32 := Memref.whole main_v1_scv
abbrev oW : Memref sig .scVector .hbm S200x4096x128 .f32 := Memref.whole main_v2_scv
abbrev iS : Memref sig .scVector .vmem S200x128 .i32 := Memref.whole cc0_scratch0
abbrev rS : Memref sig .scVector .vmem S512x128 .f32 := Memref.whole cc0_scratch1

/-- The tile's columns of the transposed row numbers. -/
abbrev xtM (L : grid0.Coords) : Memref sig .scVector .hbm S200x128 .i32 :=
  xW.slice (Rect.unit (s := S200x4096) (k0_off1 L) S200x128.size (k0_off1_inb L)) (fun _ => rfl)
/-- The table as the gathers name it: its whole-array slice. -/
abbrev tM : Memref sig .scVector .hbm S1000000x128 .f32 :=
  tW.slice (Rect.unit (s := S1000000x128) ![0, 0] S1000000x128.size inb_S1000000x128_S1000000x128_0_0) (fun _ => rfl)

/-- Slot `j` of the row scratch: rows `[128 j, 128 j + 128)`. -/
abbrev slot0 : Memref sig .scVector .vmem S128x128 .f32 := rS.slice (Rect.unit (s := S512x128) ![0, 0] S128x128.size inb_S512x128_S128x128_0_0) (fun _ => rfl)
abbrev slot1 : Memref sig .scVector .vmem S128x128 .f32 := rS.slice (Rect.unit (s := S512x128) ![128, 0] S128x128.size inb_S512x128_S128x128_128_0) (fun _ => rfl)
abbrev slot2 : Memref sig .scVector .vmem S128x128 .f32 := rS.slice (Rect.unit (s := S512x128) ![256, 0] S128x128.size inb_S512x128_S128x128_256_0) (fun _ => rfl)
abbrev slot3 : Memref sig .scVector .vmem S128x128 .f32 := rS.slice (Rect.unit (s := S512x128) ![384, 0] S128x128.size inb_S512x128_S128x128_384_0) (fun _ => rfl)

/-- Row `s` of the index scratch as an offset list, at a literal or computed offset vector. -/
abbrev rowAt (off : Fin 2 → Nat) (h : ∀ a, off a + S1x128.size a ≤ S200x128.size a) : Memref sig .scVector .vmem S128 .i32 :=
  (iS.slice (Rect.unit (s := S200x128) off S1x128.size h) (fun _ => rfl)).squeeze S128 squeezes_S1x128_S128
/-- The loop's rows: trip `k` issues the gathers of positions `4 k + r + 6`. -/
abbrev rowK (k : Fin k0_t1_loop.trips) (r : Fin 4) : Memref sig .scVector .vmem S128 .i32 :=
  rowAt (k0_off8 k (BitVec.ofNat 32 r.val)) (k0_off8_inb k r)

/-- Slab `(s, columns of the tile)` of the result as a copy's target, at a literal or computed offset vector. -/
abbrev slabAt (off : Fin 3 → Nat) (h : ∀ a, off a + S1x128x128.size a ≤ S200x4096x128.size a) : Memref sig .scVector .hbm S128x128 .f32 :=
  (oW.slice (Rect.unit (s := S200x4096x128) off S1x128x128.size h) (fun _ => rfl)).squeeze S128x128 squeezes_S1x128x128_S128x128
/-- The loop's slabs: trip `k` copies out positions `4 k + r + 4`. -/
abbrev slabK (L : grid0.Coords) (k : Fin k0_t1_loop.trips) (r : Fin 4) : Memref sig .scVector .hbm S128x128 .f32 :=
  slabAt (k0_off6 L k (BitVec.ofNat 32 r.val)) (k0_off6_inb L k r)

/-! ## Element sets, by coordinates -/

/-- The tile's columns of the transposed row numbers: batch column `b` with `b / 128 = w`. -/
def xtSet (w : ℕ) : Finset S200x4096.Idx := Finset.univ.filter fun i => (i 1).val / 128 = w
/-- Slab `(s, w)` of the result: position `s`, batch columns of worker `w`, every lane. -/
def slabSet (w s : ℕ) : Finset S200x4096x128.Idx := Finset.univ.filter fun i => (i 0).val = s ∧ (i 1).val / 128 = w
/-- Row `s` of the index scratch. -/
def rowSet (s : ℕ) : Finset S200x128.Idx := Finset.univ.filter fun i => (i 0).val = s
/-- Slot `j` of the row scratch. -/
def slotSet (j : ℕ) : Finset S512x128.Idx := Finset.univ.filter fun i => (i 0).val / 128 = j

/-! ## Contents -/

/-- The index scratch after the first copy: row `s`, lane `j` is the row number of position `s`, batch column
    `128 w + j` (a total function: the column is reduced into range, which changes nothing for `w < 32`). -/
def idxOf (w : ℕ) (X : IVec S200x4096 32) : IVec S200x128 32 :=
  fun i => X (ix2 (i 0) ⟨(128 * w + (i 1).val) % 4096, Nat.mod_lt _ (by decide)⟩)

/-- The table row a word names: the word as a natural number, clamped to the last row. -/
def rowNo (v : BitVec 32) : Fin 1000000 := ⟨min v.toNat 999999, by omega⟩

/-- A slot after the gather of position `s`: lane-row `r` (within the slot) holds the table row that row number
    `(s, r mod 128)` of the index scratch names. Stated on the whole row scratch, the same function for every slot. -/
def gathered {α : Type} (TB : S1000000x128.Idx → α) (FI : IVec S200x128 32) (s : ℕ) : S512x128.Idx → α :=
  fun i => TB (ix2 (rowNo (FI (ix2 ⟨s % 200, Nat.mod_lt _ (by decide)⟩ ⟨(i 0).val % 128, Nat.mod_lt _ (by decide)⟩))) (i 1))

/-- The result array: entry `(s, b, l)` is lane `l` of the table row that row number `(s, b)` names. -/
def outOf {α : Type} (TB : S1000000x128.Idx → α) (X : IVec S200x4096 32) : S200x4096x128.Idx → α :=
  fun i => TB (ix2 (rowNo (X (ix2 (i 0) (i 1)))) (i 2))

/-- Every row number the tile reads names a row of the table. -/
def XInRange (X : IVec S200x4096 32) : Prop := ∀ i, (X i).toNat < 1000000

end Cert.Proof.Kernel

end
-- ==== Proof.KBValue.lean ====
/-
  What the tile's copies and gathers leave in memory, read at an index.

  Every piece of memory the tile touches is a rectangle of a buffer, some with a leading axis of extent one dropped; an
  index of the piece sits in the buffer at the rectangle's offset plus the index's own coordinates (a dropped axis
  contributing coordinate 0). With that:
  * the tile's columns of the transposed row numbers, read through their rectangle, are `idxOf`: entry `(s, j)` is row
    number `(s, 128 w + j)`; copied whole into the index scratch they are its contents;
  * a gather of the table rows that row `s` of the index scratch names, written whole into a 128-row window of the row
    scratch, leaves `gathered` there: row `r` of the window is the table row that word `(s, r)` names — the word is
    below the number of rows, so clamping it to the last row changes nothing;
  * such a window copied whole into slab `(s, w)` of the result leaves `outOf` there: entry `(s, 128 w + r, l)` is lane
    `l` of the table row that row number `(s, 128 w + r)` names;
  * around the call: the result's first 64 lanes over the table padded with 64 lanes, at the transposed row numbers, are
    the lookup; and the transposed row numbers are in range when the row numbers are.
-/
import proofs.«206931_g83167746720501_cont_9to1_m_74_15_alg».proof.Proof.KBDefs
import proofs.«206931_g83167746720501_cont_9to1_m_74_15_alg».proof.Proof.Spec
import Idealize.ShloMosaic.Lib.SparseCore.Stream
import Idealize.ShloMosaic.Lib.Pipeline.Value
import Idealize.ShloMosaic.Lib.KernelVsHost

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## Reading and writing through the program's views, at an index -/

theorem writes_whole_emb {κ : Kind} {sp : Space} {s : Shape} {e : EltTy} (v : View sig κ sp s e) (f : v.ty.Contents (Elt F))
    (w : s.Idx → Elt F e) (rest : List (View.Piece (Elt F) s e)) (y : s.Idx) :
    v.writes (Elt F) f (⟨Rect.whole s, w⟩ :: rest) (v.emb y) = cast (congrArg (Elt F) v.elt_eq.symm) (w y) := by
  show (v.slice (Rect.whole s)).write (Elt F) (v.writes (Elt F) f rest) w Finset.univ (v.emb y) = _
  have e1 : (v.slice (Rect.whole s)).emb y = v.emb y := by
    show v.emb ((Rect.whole s).emb y) = v.emb y
    rw [Rect.emb_whole_apply]
  rw [← e1]
  exact View.write_emb_of_mem _ _ (Finset.mem_univ _)

theorem rowMajor_symm_one {n : ℕ} (k : Fin (⟨1, ![n]⟩ : Shape).numel) :
    (((⟨1, ![n]⟩ : Shape).rowMajor.symm k) 0).val = k.val := by
  rw [← Shape.rowMajor_val_one, Equiv.apply_symm_apply]

/-- Where entry `x` of an offset-list row sits in the index scratch: row `off 0`, lane `off 1 + x`. -/
theorem rowAt_emb_val (off : Fin 2 → Nat) (h : ∀ a, off a + S1x128.size a ≤ S200x128.size a) (x : S128.Idx) (a : Fin 2) :
    ((rowAt off h).view.emb x a).val = off a + ((Fin.cons ⟨0, Nat.one_pos⟩ x : S1x128.Idx) a).val := by
  have hq := Shape.reshapeEquiv_cons_one (n := 1) (d := ![128]) (Shape.Squeezes.numel_eq squeezes_S1x128_S128) x
  have hv : ((rowAt off h).view.emb x a).val
      = off a + 1 * ((Shape.reshapeEquiv (Shape.Squeezes.numel_eq squeezes_S1x128_S128) x) a).val := rfl
  rw [hv, Nat.one_mul]
  exact congrArg (fun q : S1x128.Idx => off a + (q a).val) hq

theorem rowAt_read (FI : IVec S200x128 32) (off : Fin 2 → Nat) (h : ∀ a, off a + S1x128.size a ≤ S200x128.size a)
    (s : ℕ) (hs : off = ![s, 0]) (hs200 : s < 200) (x : S128.Idx) :
    (rowAt off h).view.read (Elt F) FI x = FI (ix2 ⟨s, hs200⟩ (x 0)) := by
  subst hs
  refine (View.read_apply _ _).trans ((cast_eq _ _).trans ?_)
  refine congrArg FI (funext fun a => Fin.ext ?_)
  refine (rowAt_emb_val _ h x a).trans ?_
  match a with
  | ⟨0, _⟩ => show s + 0 = s; omega
  | ⟨1, _⟩ => show 0 + (x 0).val = (x 0).val; omega

/-- Where index `y` of a 128-row window of the row scratch sits: the window's offset added on each axis. -/
theorem slot_emb_val (offS : Fin 2 → Nat) (hS : ∀ a, offS a + S128x128.size a ≤ S512x128.size a) (y : S128x128.Idx) (a : Fin 2) :
    ((rS.slice (Rect.unit (s := S512x128) offS S128x128.size hS) (fun _ => rfl)).view.emb y a).val = offS a + (y a).val := by
  show offS a + 1 * (y a).val = _
  rw [Nat.one_mul]

/-- The table read through its whole-array slice is the table. -/
theorem read_tM (TB : S1000000x128.Idx → Elt F .f32) : (tM).view.read (Elt F) TB = TB := by
  funext x
  refine (View.read_apply _ _).trans ((cast_eq _ _).trans ?_)
  refine congrArg TB (funext fun a => Fin.ext ?_)
  show (![0, 0] : Fin 2 → Nat) a + 1 * (x a).val = (x a).val
  match a with
  | ⟨0, _⟩ => show 0 + 1 * _ = _; omega
  | ⟨1, _⟩ => show 0 + 1 * _ = _; omega

/-- Entry `k` of the rows an offset-list row names is the word at `(s, k)` of the index scratch. -/
theorem rows_val (FI : IVec S200x128 32) (off : Fin 2 → Nat) (h : ∀ a, off a + S1x128.size a ≤ S200x128.size a)
    (s : ℕ) (hs : off = ![s, 0]) (hs200 : s < 200)
    (hn : S128.numel = S128x128.size gathers_S1000000x128_S128x128.axis')
    (hin : ∀ x, ((rowAt off h).view.read (Elt F) FI x).toNat < S1000000x128.size gathers_S1000000x128_S128x128.axis)
    (k : Fin 128) :
    (SparseCore.rows ((rowAt off h).view.read (Elt F) FI) hn hin k).val = (FI (ix2 ⟨s, hs200⟩ k)).toNat := by
  show ((rowAt off h).view.read (Elt F) FI (S128.rowMajor.symm (Fin.cast hn.symm k))).toNat = _
  rw [rowAt_read FI off h s hs hs200]
  refine congrArg (fun z : Fin 128 => (FI (ix2 ⟨s, hs200⟩ z)).toNat) (Fin.ext ?_)
  exact rowMajor_symm_one _

/-- A slot after the gather of position `s`, at an index whose row within the slot is `r`. -/
theorem gathered_apply {α : Type} (TB : S1000000x128.Idx → α) (FI : IVec S200x128 32) (s : ℕ) (hs200 : s < 200)
    (i : S512x128.Idx) (r : Fin 128) (hr : (i 0).val % 128 = r.val) :
    gathered TB FI s i = TB (ix2 (rowNo (FI (ix2 ⟨s, hs200⟩ r))) (i 1)) := by
  have e0 : (⟨s % 200, Nat.mod_lt _ (by decide)⟩ : Fin 200) = ⟨s, hs200⟩ := Fin.ext (Nat.mod_eq_of_lt hs200)
  have e1 : (⟨(i 0).val % 128, Nat.mod_lt _ (by decide)⟩ : Fin 128) = r := Fin.ext hr
  show TB (ix2 (rowNo (FI (ix2 ⟨s % 200, _⟩ ⟨(i 0).val % 128, _⟩))) (i 1)) = _
  rw [e0, e1]

/-- Where index `y` of a result slab sits in the result array: position `off 0`, batch column `off 1 + y 0`,
    lane `off 2 + y 1`. -/
theorem slabAt_emb_val (off : Fin 3 → Nat) (h : ∀ a, off a + S1x128x128.size a ≤ S200x4096x128.size a) (y : S128x128.Idx) (a : Fin 3) :
    ((slabAt off h).view.emb y a).val = off a + ((Fin.cons ⟨0, Nat.one_pos⟩ y : S1x128x128.Idx) a).val := by
  have hq := Shape.reshapeEquiv_cons_one (n := 2) (d := ![128, 128]) (Shape.Squeezes.numel_eq squeezes_S1x128x128_S128x128) y
  have hv : ((slabAt off h).view.emb y a).val
      = off a + 1 * ((Shape.reshapeEquiv (Shape.Squeezes.numel_eq squeezes_S1x128x128_S128x128) y) a).val := rfl
  rw [hv, Nat.one_mul]
  exact congrArg (fun q : S1x128x128.Idx => off a + (q a).val) hq

/-- A slot after the gather of position `s`, the index scratch holding the tile's columns of the row numbers: at an
    index whose row within the slot is `r` and whose lane is `l`, lane `l` of the table row that row number
    `(s, 128 w + r)` names. -/
theorem gathered_idxOf {α : Type} (TB : S1000000x128.Idx → α) (X : IVec S200x4096 32) (w s : ℕ) (hs200 : s < 200)
    (i : S512x128.Idx) (r l : Fin 128) (b : Fin 4096) (hr : (i 0).val % 128 = r.val) (hl : (i 1).val = l.val)
    (hb : b.val = 128 * w + r.val) :
    gathered TB (idxOf w X) s i = TB (ix2 (rowNo (X (ix2 ⟨s, hs200⟩ b))) l) := by
  rw [gathered_apply TB (idxOf w X) s hs200 i r hr]
  have e1 : i 1 = l := Fin.ext hl
  have e2 : (⟨(128 * w + r.val) % 4096, Nat.mod_lt _ (by decide)⟩ : Fin 4096) = b :=
    Fin.ext (by show (128 * w + r.val) % 4096 = b.val; have := b.isLt; omega)
  show TB (ix2 (rowNo (X (ix2 ⟨s, hs200⟩ ⟨(128 * w + r.val) % 4096, _⟩))) (i 1)) = _
  rw [e1, e2]

/-- The result array at an index given by its three coordinates. -/
theorem outOf_apply {α : Type} (TB : S1000000x128.Idx → α) (X : IVec S200x4096 32) (i : S200x4096x128.Idx)
    (p : Fin 200) (b : Fin 4096) (l : Fin 128) (h0 : (i 0).val = p.val) (h1 : (i 1).val = b.val) (h2 : (i 2).val = l.val) :
    outOf TB X i = TB (ix2 (rowNo (X (ix2 p b))) l) := by
  have e0 : i 0 = p := Fin.ext h0
  have e1 : i 1 = b := Fin.ext h1
  have e2 : i 2 = l := Fin.ext h2
  show TB (ix2 (rowNo (X (ix2 (i 0) (i 1)))) (i 2)) = _
  rw [e0, e1, e2]

/-! ## The index scratch -/

/-- The first copy's payload: the tile's columns of the transposed row numbers, read through their slice. -/
theorem read_xtM (d : Dev nD) (L : grid0.Coords) (X : Buf (Elt F) ((xtM L).view.loc (thr d L))) :
    (xtM L).view.read (Elt F) X = idxOf (wOf L) X := by
  funext i
  refine (View.read_apply _ _).trans ((cast_eq _ _).trans ?_)
  show X _ = X (ix2 (i 0) ⟨(128 * wOf L + (i 1).val) % 4096, _⟩)
  refine congrArg X (funext fun a => Fin.ext ?_)
  have hv : ((xtM L).view.emb i a).val = k0_off1 L a + (i a).val := by
    show k0_off1 L a + 1 * (i a).val = _
    rw [Nat.one_mul]
  have h0 : k0_off1 L 0 = 0 := congrFun (k0_off1_eq L) 0
  have h1 : k0_off1 L 1 = 256 * (L 1).val + 128 * (L 0).val := congrFun (k0_off1_eq L) 1
  have hb : k0_off1 L 1 + 128 ≤ 4096 := k0_off1_inb L 1
  have hi1 : (i 1).val < 128 := (i 1).isLt
  rw [hv]
  match a with
  | ⟨0, _⟩ => show k0_off1 L 0 + (i 0).val = (i 0).val; omega
  | ⟨1, _⟩ => show k0_off1 L 1 + (i 1).val = (128 * (2 * (L 1).val + (L 0).val) + (i 1).val) % 4096; omega

/-- Written whole into the index scratch, whatever it held. -/
theorem idx_after_copy (d : Dev nD) (L : grid0.Coords) (fi : Buf (Elt F) ((iS).view.loc (thr d L))) (X : Buf (Elt F) ((xtM L).view.loc (thr d L))) :
    (iS).view.write (Elt F) fi ((xtM L).view.read (Elt F) X) Finset.univ = idxOf (wOf L) X := by
  rw [read_xtM d L X]
  exact View.write_whole_univ _ _ _

/-- Every word of every row of the index scratch names a table row, when the row numbers do. -/
theorem hin_of_range (d : Dev nD) (L : grid0.Coords) (X : Buf (Elt F) ((xtM L).view.loc (thr d L))) (hX : XInRange X)
    (off : Fin 2 → Nat) (h : ∀ a, off a + S1x128.size a ≤ S200x128.size a) (x : S128.Idx) :
    ((rowAt off h).view.read (Elt F) (idxOf (wOf L) X) x).toNat < 1000000 := by
  have e : (rowAt off h).view.read (Elt F) (idxOf (wOf L) X) x = idxOf (wOf L) X ((rowAt off h).view.emb x) :=
    (View.read_apply _ _).trans (cast_eq _ _)
  rw [e]
  exact hX _

/-! ## A slot after a gather -/

/-- The gather of the table rows that row `s` of the index scratch names, written whole into a slot (whatever was
    written there before): on the slot's elements it is `gathered TB FI s`. The slot is any 128-row window of the row
    scratch at a row offset that is a multiple of 128. -/
theorem gather_writes_eq (d : Dev nD) (L : grid0.Coords) (TB : Buf (Elt F) ((tW).view.loc (thr d L))) (FI : Buf (Elt F) ((iS).view.loc (thr d L)))
    (offS : Fin 2 → Nat) (hS : ∀ a, offS a + S128x128.size a ≤ S512x128.size a) (j : ℕ) (hj : offS = ![128 * j, 0])
    (off : Fin 2 → Nat) (h : ∀ a, off a + S1x128.size a ≤ S200x128.size a) (s : ℕ) (hs : off = ![s, 0]) (hs200 : s < 200)
    (hn : S128.numel = S128x128.size gathers_S1000000x128_S128x128.axis')
    (hin : ∀ x, ((rowAt off h).view.read (Elt F) FI x).toNat < S1000000x128.size gathers_S1000000x128_S128x128.axis)
    (base : Buf (Elt F) ((rS).view.loc (thr d L))) (rest : List (View.Piece (Elt F) S128x128 .f32)) :
    ∀ i ∈ (rS.slice (Rect.unit (s := S512x128) offS S128x128.size hS) (fun _ => rfl)).view.set,
      (rS.slice (Rect.unit (s := S512x128) offS S128x128.size hS) (fun _ => rfl)).view.writes (Elt F) base
          (⟨Rect.whole S128x128, SparseCore.gatherPayload gathers_S1000000x128_S128x128 ((tM).view.read (Elt F) TB)
              (SparseCore.rows ((rowAt off h).view.read (Elt F) FI) hn hin)⟩ :: rest) i
        = gathered TB FI s i := by
  intro i hi
  obtain ⟨y, -, rfl⟩ := Finset.mem_map.mp hi
  refine (writes_whole_emb _ _ _ _ y).trans ((cast_eq _ _).trans ?_)
  have hy0 : (y 0).val < 128 := (y 0).isLt
  have hj0 : offS 0 = 128 * j := congrFun hj 0
  have hj1 : offS 1 = 0 := congrFun hj 1
  have hr : (((rS.slice (Rect.unit (s := S512x128) offS S128x128.size hS) (fun _ => rfl)).view.emb y) 0).val % 128 = (y 0).val := by
    rw [slot_emb_val, hj0]
    omega
  refine Eq.trans ?_ (gathered_apply TB FI s hs200 _ (y 0) hr).symm
  unfold SparseCore.gatherPayload
  rw [read_tM]
  have hv := rows_val FI off h s hs hs200 hn hin (y 0)
  have hlt : (SparseCore.rows ((rowAt off h).view.read (Elt F) FI) hn hin (y 0)).val < 1000000 :=
    (SparseCore.rows ((rowAt off h).view.read (Elt F) FI) hn hin (y 0)).isLt
  generalize SparseCore.rows ((rowAt off h).view.read (Elt F) FI) hn hin = R at hv hlt ⊢
  refine congrArg TB (funext fun a => Fin.ext ?_)
  match a with
  | ⟨0, _⟩ =>
    -- the gathered axis: the row the offset list names, which the clamp leaves
    have h0 := Shape.Gathers.idx_axis gathers_S1000000x128_S128x128 R y
    show (gathers_S1000000x128_S128x128.idx R y gathers_S1000000x128_S128x128.axis).val
        = min (FI (ix2 ⟨s, hs200⟩ (y 0))).toNat 999999
    rw [h0]
    show (R (y 0)).val = _
    omega
  | ⟨1, _⟩ =>
    -- the lane axis: the destination's own coordinate
    have h1 := Shape.Gathers.idx_of_ne gathers_S1000000x128_S128x128 R y ⟨1, by decide⟩ (by decide)
    refine h1.trans ?_
    show (y 1).val = ((rS.slice (Rect.unit (s := S512x128) offS S128x128.size hS) (fun _ => rfl)).view.emb y 1).val
    rw [slot_emb_val, hj1]
    omega

/-! ## A slab after a copy-out -/

/-- A slot whose contents are the gather of position `s`, copied whole into slab `(s, w)` of the result: on the slab's
    elements the result holds `outOf TB X`. -/
theorem copyout_writes_eq (d : Dev nD) (L : grid0.Coords) (TB : Buf (Elt F) ((tW).view.loc (thr d L))) (X : Buf (Elt F) ((xtM L).view.loc (thr d L)))
    (offS : Fin 2 → Nat) (hS : ∀ a, offS a + S128x128.size a ≤ S512x128.size a) (j : ℕ) (hj : offS = ![128 * j, 0])
    (off : Fin 3 → Nat) (h : ∀ a, off a + S1x128x128.size a ≤ S200x4096x128.size a) (s : ℕ) (ho : off = ![s, 128 * wOf L, 0]) (hs200 : s < 200)
    (c : Buf (Elt F) ((rS).view.loc (thr d L)))
    (hc : ∀ i ∈ (rS.slice (Rect.unit (s := S512x128) offS S128x128.size hS) (fun _ => rfl)).view.set, c i = gathered TB (idxOf (wOf L) X) s i)
    (base : Buf (Elt F) ((oW).view.loc (thr d L))) (rest : List (View.Piece (Elt F) S128x128 .f32)) :
    ∀ i ∈ (slabAt off h).view.set,
      (slabAt off h).view.writes (Elt F) base
          (⟨Rect.whole S128x128, (rS.slice (Rect.unit (s := S512x128) offS S128x128.size hS) (fun _ => rfl)).view.read (Elt F) c⟩ :: rest) i
        = outOf TB X i := by
  intro i hi
  obtain ⟨y, -, rfl⟩ := Finset.mem_map.mp hi
  refine (writes_whole_emb _ _ _ _ y).trans ((cast_eq _ _).trans ?_)
  refine (View.read_apply _ _).trans ((cast_eq _ _).trans ?_)
  rw [hc _ (View.emb_mem_set _ y)]
  have hy0 : (y 0).val < 128 := (y 0).isLt
  have hj0 : offS 0 = 128 * j := congrFun hj 0
  have hj1 : offS 1 = 0 := congrFun hj 1
  have ho0 : off 0 = s := congrFun ho 0
  have ho1 : off 1 = 128 * wOf L := congrFun ho 1
  have ho2 : off 2 = 0 := congrFun ho 2
  have hb : off 1 + 128 ≤ 4096 := h 1
  -- the batch column the slab's row `y 0` stands for
  have hcol : 128 * wOf L + (y 0).val < 4096 := by omega
  rw [gathered_idxOf TB X (wOf L) s hs200 _ (y 0) (y 1) ⟨128 * wOf L + (y 0).val, hcol⟩
      (by rw [slot_emb_val, hj0]; omega) (by rw [slot_emb_val, hj1]; omega) rfl]
  refine (outOf_apply TB X _ ⟨s, hs200⟩ ⟨128 * wOf L + (y 0).val, hcol⟩ (y 1) ?_ ?_ ?_).symm
  · rw [slabAt_emb_val, ho0]; show s + 0 = s; omega
  · rw [slabAt_emb_val, ho1]; show 128 * wOf L + (y 0).val = _; rfl
  · rw [slabAt_emb_val, ho2]; show 0 + (y 1).val = _; omega

/-! ## The host operations around the call -/

/-- The first 64 lanes of the result over the zero-padded table and the transposed row numbers are the lookup. -/
theorem host_value [Cert.Kernel.Facts] (x : IVec S4096x200 32) (table : FVec F S1000000x64 .f32) (z : FVec F S_ .f32) :
    extractStridedSlice S200x4096x64 ![0, 0, 0]
        (outOf (pad S1000000x128 ![0, 0] ![0, 64] ![0, 0] table z Facts₀.pads_S1000000x64_S1000000x128_000_0640 Facts₀.h_S_)
          (transpose S200x4096 [1, 0] x Facts₀.transposes_S4096x200_S200x4096_1_0))
        Facts₀.slices_S200x4096x128_S200x4096x64_0_0_0
      = Cert.Spec.lookup x table := by
  funext i
  obtain ⟨s, b, dd, rfl⟩ : ∃ (s : Fin 200) (b : Fin 4096) (dd : Fin 64), i = ix3 s b dd := ⟨i 0, i 1, i 2, eq_ix3 i⟩
  have hd : dd.val < 128 := by have := dd.isLt; omega
  -- the slice keeps the leading 64 lanes: the same coordinates in the wider array
  rw [extractStridedSlice_apply _ _ _ (ix3 s b dd) (ix3 s b (⟨dd.val, hd⟩ : Fin 128))
    (fun a => match a with
      | ⟨0, _⟩ => by show s.val = 0 + s.val; omega
      | ⟨1, _⟩ => by show b.val = 0 + b.val; omega
      | ⟨2, _⟩ => by show dd.val = 0 + dd.val; omega)]
  rw [Cert.Spec.lookup_apply]
  show pad S1000000x128 ![0, 0] ![0, 64] ![0, 0] table z Facts₀.pads_S1000000x64_S1000000x128_000_0640 Facts₀.h_S_
      (ix2 (rowNo (transpose S200x4096 [1, 0] x Facts₀.transposes_S4096x200_S200x4096_1_0 (ix2 s b))) (⟨dd.val, hd⟩ : Fin 128)) = _
  -- the transposed row numbers at (s, b) are the row numbers at (b, s)
  rw [transpose_apply _ _ _ (ix2 s b) (ix2 b s) (fun a => match a with | ⟨0, _⟩ => rfl | ⟨1, _⟩ => rfl)]
  -- below lane 64 the padded table is the table
  exact pad_apply_of_inside _ _ _ table z _ _ _ (ix2 (Cert.Spec.row x b s) dd)
    (fun a => match a with
      | ⟨0, _⟩ => by show min (x (ix2 b s)).toNat 999999 = 0 + min (x (ix2 b s)).toNat 999999 * (0 + 1); omega
      | ⟨1, _⟩ => by show dd.val = 0 + dd.val * (0 + 1); omega)

/-- Transposed row numbers are in range when the row numbers are. -/
theorem xinrange_transpose [Cert.Kernel.Facts] (x : IVec S4096x200 32) (h : Cert.Spec.InRange x) :
    XInRange (transpose S200x4096 [1, 0] x Facts₀.transposes_S4096x200_S200x4096_1_0) := by
  intro i
  obtain ⟨s, b, rfl⟩ : ∃ (s : Fin 200) (b : Fin 4096), i = ix2 s b := ⟨i 0, i 1, eq_ix2 i⟩
  rw [transpose_apply _ _ _ (ix2 s b) (ix2 b s) (fun a => match a with | ⟨0, _⟩ => rfl | ⟨1, _⟩ => rfl)]
  exact h b s

end Cert.Proof.Kernel

end
-- ==== Proof.KBGeom.lean ====
import proofs.«206931_g83167746720501_cont_9to1_m_74_15_alg».proof.Proof.KBDefs

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The element sets of the program's memrefs -/

/-- Membership in a unit-stride rectangle of a rank-two shape, axis by axis. -/
theorem mem_unit2 {d : Fin 2 → Nat} {off size : Fin 2 → Nat} {inb : ∀ a, off a + size a ≤ (⟨2, d⟩ : Shape).size a}
    {i : (⟨2, d⟩ : Shape).Idx} :
    i ∈ (Rect.unit (s := ⟨2, d⟩) off size inb).set ↔
      (off 0 ≤ (i 0).val ∧ (i 0).val < off 0 + size 0) ∧ (off 1 ≤ (i 1).val ∧ (i 1).val < off 1 + size 1) := by
  rw [Rect.mem_set_unit]; exact Fin.forall_fin_two

/-- Membership in a unit-stride rectangle of a rank-three shape, axis by axis. -/
theorem mem_unit3 {d : Fin 3 → Nat} {off size : Fin 3 → Nat} {inb : ∀ a, off a + size a ≤ (⟨3, d⟩ : Shape).size a}
    {i : (⟨3, d⟩ : Shape).Idx} :
    i ∈ (Rect.unit (s := ⟨3, d⟩) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  constructor
  · intro h; exact ⟨h 0, h 1, h 2⟩
  · rintro ⟨h0, h1, h2⟩ a
    match a with
    | 0 => exact h0
    | 1 => exact h1
    | 2 => exact h2

/-- The tile's first batch column, `256 · subcore + 128 · core`, is `128` times its worker number. -/
theorem off_w (L : grid0.Coords) : 256 * (L 1).val + 128 * (L 0).val = 128 * wOf L := by
  show 256 * (L 1).val + 128 * (L 0).val = 128 * (2 * (L 1).val + (L 0).val); omega

theorem set_xtM (L : grid0.Coords) : (xtM L).view.set = xtSet (wOf L) := by
  simp only [Memref.view_slice, Memref.view_whole, View.set_slice_whole]
  refine Finset.ext fun (i : S200x4096.Idx) => ?_
  have h0 : (i 0).val < 200 := (i 0).isLt
  have h1 : (i 1).val < 4096 := (i 1).isLt
  rw [mem_unit2, k0_off1_eq L, off_w L]
  simp only [xtSet, Finset.mem_filter, Finset.mem_univ, true_and]
  show ((0 ≤ (i 0).val ∧ (i 0).val < 0 + 200) ∧ (128 * wOf L ≤ (i 1).val ∧ (i 1).val < 128 * wOf L + 128)) ↔ (i 1).val / 128 = wOf L
  omega

theorem set_tM : (tM).view.set = Finset.univ := by
  simp only [Memref.view_slice, Memref.view_whole, View.set_slice_whole]
  refine Finset.ext fun (i : S1000000x128.Idx) => ?_
  have h0 : (i 0).val < 1000000 := (i 0).isLt
  have h1 : (i 1).val < 128 := (i 1).isLt
  rw [mem_unit2]
  simp only [Finset.mem_univ, iff_true]
  show ((0 ≤ (i 0).val ∧ (i 0).val < 0 + 1000000) ∧ (0 ≤ (i 1).val ∧ (i 1).val < 0 + 128))
  omega

/-- Rows `[o, o + 128)` of the row scratch are slot `j` when `o = 128 j`. -/
theorem set_slot_aux (o j : ℕ) (ho : o = 128 * j) (h : ∀ a, (![o, 0] : Fin 2 → Nat) a + S128x128.size a ≤ S512x128.size a) :
    ((rS.slice (Rect.unit (s := S512x128) ![o, 0] S128x128.size h) (fun _ => rfl)).view.set) = slotSet j := by
  simp only [Memref.view_slice, Memref.view_whole, View.set_slice_whole]
  refine Finset.ext fun (i : S512x128.Idx) => ?_
  have h0 : (i 0).val < 512 := (i 0).isLt
  have h1 : (i 1).val < 128 := (i 1).isLt
  rw [mem_unit2]
  simp only [slotSet, Finset.mem_filter, Finset.mem_univ, true_and]
  show ((o ≤ (i 0).val ∧ (i 0).val < o + 128) ∧ (0 ≤ (i 1).val ∧ (i 1).val < 0 + 128)) ↔ (i 0).val / 128 = j
  omega

theorem set_slot0 : (slot0).view.set = slotSet 0 := set_slot_aux 0 0 rfl _
theorem set_slot1 : (slot1).view.set = slotSet 1 := set_slot_aux 128 1 rfl _
theorem set_slot2 : (slot2).view.set = slotSet 2 := set_slot_aux 256 2 rfl _
theorem set_slot3 : (slot3).view.set = slotSet 3 := set_slot_aux 384 3 rfl _

theorem set_rowAt (off : Fin 2 → Nat) (h : ∀ a, off a + S1x128.size a ≤ S200x128.size a) (s : ℕ) (hs : off = ![s, 0]) :
    (rowAt off h).view.set = rowSet s := by
  subst hs
  simp only [Memref.view_squeeze, Memref.view_slice, Memref.view_whole, View.set_reshape, View.set_slice_whole]
  refine Finset.ext fun (i : S200x128.Idx) => ?_
  have h0 : (i 0).val < 200 := (i 0).isLt
  have h1 : (i 1).val < 128 := (i 1).isLt
  rw [mem_unit2]
  simp only [rowSet, Finset.mem_filter, Finset.mem_univ, true_and]
  show ((s ≤ (i 0).val ∧ (i 0).val < s + 1) ∧ (0 ≤ (i 1).val ∧ (i 1).val < 0 + 128)) ↔ (i 0).val = s
  omega

theorem set_rowK (k : Fin k0_t1_loop.trips) (r : Fin 4) : (rowK k r).view.set = rowSet (4 * k.val + r.val + 6) :=
  set_rowAt _ _ _ (k0_off8_eq k r)

theorem set_slabAt (off : Fin 3 → Nat) (h : ∀ a, off a + S1x128x128.size a ≤ S200x4096x128.size a) (s w : ℕ) (ho : off = ![s, 128 * w, 0]) :
    (slabAt off h).view.set = slabSet w s := by
  subst ho
  simp only [Memref.view_squeeze, Memref.view_slice, Memref.view_whole, View.set_reshape, View.set_slice_whole]
  refine Finset.ext fun (i : S200x4096x128.Idx) => ?_
  have h0 : (i 0).val < 200 := (i 0).isLt
  have h1 : (i 1).val < 4096 := (i 1).isLt
  have h2 : (i 2).val < 128 := (i 2).isLt
  rw [mem_unit3]
  simp only [slabSet, Finset.mem_filter, Finset.mem_univ, true_and]
  show ((s ≤ (i 0).val ∧ (i 0).val < s + 1) ∧ (128 * w ≤ (i 1).val ∧ (i 1).val < 128 * w + 128) ∧ (0 ≤ (i 2).val ∧ (i 2).val < 0 + 128))
    ↔ ((i 0).val = s ∧ (i 1).val / 128 = w)
  omega

theorem set_slabK (L : grid0.Coords) (k : Fin k0_t1_loop.trips) (r : Fin 4) : (slabK L k r).view.set = slabSet (wOf L) (4 * k.val + r.val + 4) :=
  set_slabAt _ _ _ _ (by rw [k0_off6_eq L k r, off_w L])
theorem set_slab_off2 (L : grid0.Coords) : (slabAt (k0_off2 L) (k0_off2_inb L)).view.set = slabSet (wOf L) 0 :=
  set_slabAt _ _ _ _ (by rw [k0_off2_eq L, off_w L])
theorem set_slab_off3 (L : grid0.Coords) : (slabAt (k0_off3 L) (k0_off3_inb L)).view.set = slabSet (wOf L) 1 :=
  set_slabAt _ _ _ _ (by rw [k0_off3_eq L, off_w L])
theorem set_slab_off4 (L : grid0.Coords) : (slabAt (k0_off4 L) (k0_off4_inb L)).view.set = slabSet (wOf L) 2 :=
  set_slabAt _ _ _ _ (by rw [k0_off4_eq L, off_w L])
theorem set_slab_off5 (L : grid0.Coords) : (slabAt (k0_off5 L) (k0_off5_inb L)).view.set = slabSet (wOf L) 3 :=
  set_slabAt _ _ _ _ (by rw [k0_off5_eq L, off_w L])
theorem set_slab_off9 (L : grid0.Coords) : (slabAt (k0_off9 L) (k0_off9_inb L)).view.set = slabSet (wOf L) 196 :=
  set_slabAt _ _ _ _ (by rw [k0_off9_eq L, off_w L])
theorem set_slab_off10 (L : grid0.Coords) : (slabAt (k0_off10 L) (k0_off10_inb L)).view.set = slabSet (wOf L) 197 :=
  set_slabAt _ _ _ _ (by rw [k0_off10_eq L, off_w L])
theorem set_slab_off11 (L : grid0.Coords) : (slabAt (k0_off11 L) (k0_off11_inb L)).view.set = slabSet (wOf L) 198 :=
  set_slabAt _ _ _ _ (by rw [k0_off11_eq L, off_w L])
theorem set_slab_off12 (L : grid0.Coords) : (slabAt (k0_off12 L) (k0_off12_inb L)).view.set = slabSet (wOf L) 199 :=
  set_slabAt _ _ _ _ (by rw [k0_off12_eq L, off_w L])
/-- The loop runs forty-eight trips. -/
theorem trips_eq : k0_t1_loop.trips = 48 := by decide

/-! ## Splitting a buffer into its pieces (all at one contents `f`, full share unless a share is named) -/

/-- The tile's block of the result: every position, the batch columns of worker `w`, every lane. -/
def oblkSet (w : ℕ) : Finset S200x4096x128.Idx := Finset.univ.filter fun i => (i 1).val / 128 = w

/-- Distinct rows of the index scratch share no element: an element's first coordinate names its row. -/
theorem rowSet_disjoint (S : Finset ℕ) : ∀ s ∈ S, ∀ s' ∈ S, s ≠ s' → Disjoint (rowSet s) (rowSet s') := by
  intro s _ s' _ hne
  rw [Finset.disjoint_left]
  intro i hi hi'
  simp only [rowSet, Finset.mem_filter, Finset.mem_univ, true_and] at hi hi'
  exact hne (hi.symm.trans hi')
/-- Every element of the index scratch lies in the row its first coordinate names. -/
theorem rowSet_cover : (Finset.range 200).biUnion rowSet = Finset.univ := by
  refine Finset.ext fun (i : S200x128.Idx) => ?_
  have h0 : (i 0).val < 200 := (i 0).isLt
  simp only [Finset.mem_biUnion, Finset.mem_range, rowSet, Finset.mem_filter, Finset.mem_univ, true_and, iff_true]
  exact ⟨(i 0).val, h0, rfl⟩

theorem slotSet_disjoint (S : Finset ℕ) : ∀ j ∈ S, ∀ j' ∈ S, j ≠ j' → Disjoint (slotSet j) (slotSet j') := by
  intro j _ j' _ hne
  rw [Finset.disjoint_left]
  intro i hi hi'
  simp only [slotSet, Finset.mem_filter, Finset.mem_univ, true_and] at hi hi'
  exact hne (hi.symm.trans hi')
theorem slotSet_cover : (Finset.range 4).biUnion slotSet = Finset.univ := by
  refine Finset.ext fun (i : S512x128.Idx) => ?_
  have h0 : (i 0).val < 512 := (i 0).isLt
  simp only [Finset.mem_biUnion, Finset.mem_range, slotSet, Finset.mem_filter, Finset.mem_univ, true_and, iff_true]
  exact ⟨(i 0).val / 128, by omega, rfl⟩

theorem slabSet_disjoint (w : ℕ) (S : Finset ℕ) : ∀ s ∈ S, ∀ s' ∈ S, s ≠ s' → Disjoint (slabSet w s) (slabSet w s') := by
  intro s _ s' _ hne
  rw [Finset.disjoint_left]
  intro i hi hi'
  simp only [slabSet, Finset.mem_filter, Finset.mem_univ, true_and] at hi hi'
  exact hne (hi.1.symm.trans hi'.1)
theorem slabSet_cover (w : ℕ) : (Finset.range 200).biUnion (slabSet w) = oblkSet w := by
  refine Finset.ext fun (i : S200x4096x128.Idx) => ?_
  have h0 : (i 0).val < 200 := (i 0).isLt
  simp only [Finset.mem_biUnion, Finset.mem_range, slabSet, oblkSet, Finset.mem_filter, Finset.mem_univ, true_and]
  constructor
  · rintro ⟨s, _, _, h⟩; exact h
  · intro h; exact ⟨(i 0).val, h0, rfl, h⟩

theorem idx_rows (d : Dev nD) (L : grid0.Coords) (f : Buf (Elt F) ((iS).view.loc (thr d L))) :
    ((iS).view.loc (thr d L) ↦{fullShare} f : sProp 𝕄) = bigSep (Finset.range 200) fun s => (iS).view.loc (thr d L) ↦[rowSet s]{fullShare} f := by
  rw [← pointsTo_biUnion (Finset.range 200) (ℓ := (iS).view.loc (thr d L)) rowSet (rowSet_disjoint _), rowSet_cover]; try rfl
theorem scratch_slots (d : Dev nD) (L : grid0.Coords) (f : Buf (Elt F) ((rS).view.loc (thr d L))) :
    ((rS).view.loc (thr d L) ↦{fullShare} f : sProp 𝕄) = bigSep (Finset.range 4) fun j => (rS).view.loc (thr d L) ↦[slotSet j]{fullShare} f := by
  rw [← pointsTo_biUnion (Finset.range 4) (ℓ := (rS).view.loc (thr d L)) slotSet (slotSet_disjoint _), slotSet_cover]; try rfl
theorem oblk_slabs (d : Dev nD) (L : grid0.Coords) (w : ℕ) (f : Buf (Elt F) ((oW).view.loc (thr d L))) :
    ((oW).view.loc (thr d L) ↦[oblkSet w]{fullShare} f : sProp 𝕄) = bigSep (Finset.range 200) fun s => (oW).view.loc (thr d L) ↦[slabSet w s]{fullShare} f := by
  rw [← pointsTo_biUnion (Finset.range 200) (ℓ := (oW).view.loc (thr d L)) (slabSet w) (slabSet_disjoint w _), slabSet_cover]
/-- The same family with contents that may differ from slab to slab but agree with `g` on each slab. -/
theorem oblk_slabs_join (d : Dev nD) (L : grid0.Coords) (w : ℕ) (g : Buf (Elt F) ((oW).view.loc (thr d L))) :
    (bigSep (Finset.range 200) fun s => ((oW).view.loc (thr d L) ↦[slabSet w s]{fullShare} g : sProp 𝕄)) ⊢ ((oW).view.loc (thr d L) ↦[oblkSet w]{fullShare} g) := by
  rw [oblk_slabs]

/-! ## Splitting the launch arrays among the thirty-two tiles

Core `c < 2` and subcore `i < 16` name worker `2 i + c`; a worker number below thirty-two names exactly one
such pair (`c` its parity, `i` its half). An array whose every element carries a worker number below thirty-two is
therefore the thirty-two workers' pieces. -/

/-- A buffer whose elements are keyed by worker numbers below thirty-two, split by core and subcore. -/
theorem pts_workers {ℓ : Loc nD τ sig} (key : Idx ℓ → ℕ) (hkey : ∀ j, key j < 32) (f : Buf (Elt F) ℓ) :
    (ℓ ↦{fullShare} f : sProp 𝕄)
      = bigSep (Finset.univ : Finset (Fin 2)) fun c => bigSep (Finset.univ : Finset (Fin 16)) fun i =>
          ℓ ↦[Finset.univ.filter fun j => key j = 2 * i.val + c.val]{fullShare} f := by
  -- the pieces of one core, together
  let Kc : Fin 2 → Finset (Idx ℓ) := fun c =>
    (Finset.univ : Finset (Fin 16)).biUnion fun i => Finset.univ.filter fun j => key j = 2 * i.val + c.val
  have hin : ∀ c : Fin 2,
      (bigSep (Finset.univ : Finset (Fin 16)) fun i =>
        (ℓ ↦[Finset.univ.filter fun j => key j = 2 * i.val + c.val]{fullShare} f : sProp 𝕄)) = ℓ ↦[Kc c]{fullShare} f := by
    intro c
    refine (pointsTo_biUnion Finset.univ (fun i : Fin 16 => Finset.univ.filter fun j => key j = 2 * i.val + c.val) ?_).symm
    intro i _ i' _ hne
    rw [Finset.disjoint_left]; intro j hj hj'
    simp only [Finset.mem_filter, Finset.mem_univ, true_and] at hj hj'
    exact hne (Fin.ext (by omega))
  have hout : ∀ c ∈ (Finset.univ : Finset (Fin 2)), ∀ c' ∈ (Finset.univ : Finset (Fin 2)), c ≠ c' → Disjoint (Kc c) (Kc c') := by
    intro c _ c' _ hne
    rw [Finset.disjoint_left]; intro j hj hj'
    simp only [Kc, Finset.mem_biUnion, Finset.mem_filter, Finset.mem_univ, true_and] at hj hj'
    obtain ⟨i, hi⟩ := hj; obtain ⟨i', hi'⟩ := hj'
    have hc := c.isLt; have hc' := c'.isLt
    exact hne (Fin.ext (by omega))
  have hcov : (Finset.univ : Finset (Fin 2)).biUnion Kc = Finset.univ := by
    ext j
    simp only [Kc, Finset.mem_biUnion, Finset.mem_filter, Finset.mem_univ, true_and, iff_true]
    have hj := hkey j
    exact ⟨⟨key j % 2, by omega⟩, ⟨key j / 2, by omega⟩, by show key j = 2 * (key j / 2) + key j % 2; omega⟩
  simp only [hin]
  rw [← pointsTo_biUnion Finset.univ Kc hout, hcov]

/-- The same family back into the whole buffer, the pieces' contents agreeing with `g` piece by piece. -/
theorem pts_workers_join {ℓ : Loc nD τ sig} (key : Idx ℓ → ℕ) (hkey : ∀ j, key j < 32)
    (fs : Fin 2 → Fin 16 → Buf (Elt F) ℓ) (g : Buf (Elt F) ℓ)
    (hg : ∀ (c : Fin 2) (i : Fin 16) (j : Idx ℓ), key j = 2 * i.val + c.val → fs c i j = g j) :
    (bigSep (Finset.univ : Finset (Fin 2)) fun c => bigSep (Finset.univ : Finset (Fin 16)) fun i =>
        (ℓ ↦[Finset.univ.filter fun j => key j = 2 * i.val + c.val]{fullShare} fs c i : sProp 𝕄))
      ⊢ ℓ ↦{fullShare} g := by
  have hcg : ∀ (c : Fin 2) (i : Fin 16),
      (ℓ ↦[Finset.univ.filter fun j => key j = 2 * i.val + c.val]{fullShare} fs c i : sProp 𝕄)
        = ℓ ↦[Finset.univ.filter fun j => key j = 2 * i.val + c.val]{fullShare} g := fun c i =>
    pointsTo_congr fun j hj => hg c i j (by simpa only [Finset.mem_filter, Finset.mem_univ, true_and] using hj)
  simp only [hcg]
  rw [← pts_workers key hkey g]

/-- (a) The transposed row numbers are the thirty-two tiles' column blocks. -/
theorem xt_workers (d : Dev nD) (f : Buf (Elt F) ((SparseCore.T d).loc main_v0)) :
    ((SparseCore.T d).loc main_v0 ↦{fullShare} f : sProp 𝕄)
      = bigSep (Finset.univ : Finset (Fin 2)) fun c => bigSep (Finset.univ : Finset (Fin 16)) fun i =>
          (SparseCore.T d).loc main_v0 ↦[xtSet (2 * i.val + c.val)]{fullShare} f :=
  pts_workers (ℓ := (SparseCore.T d).loc main_v0) (fun j : S200x4096.Idx => (j 1).val / 128)
    (fun j => by have h1 : (j 1).val < 4096 := (j 1).isLt; show (j 1).val / 128 < 32; omega) f

/-- (b) The result array is the thirty-two tiles' blocks. -/
theorem out_workers (d : Dev nD) (f : Buf (Elt F) ((SparseCore.T d).loc main_v2)) :
    ((SparseCore.T d).loc main_v2 ↦{fullShare} f : sProp 𝕄)
      = bigSep (Finset.univ : Finset (Fin 2)) fun c => bigSep (Finset.univ : Finset (Fin 16)) fun i =>
          (SparseCore.T d).loc main_v2 ↦[oblkSet (2 * i.val + c.val)]{fullShare} f :=
  pts_workers (ℓ := (SparseCore.T d).loc main_v2) (fun j : S200x4096x128.Idx => (j 1).val / 128)
    (fun j => by have h1 : (j 1).val < 4096 := (j 1).isLt; show (j 1).val / 128 < 32; omega) f

/-- (c) The tiles' blocks, each at contents that agree with `g` on that block, are the result array at `g`. -/
theorem out_workers_join (d : Dev nD) (fs : Fin 2 → Fin 16 → Buf (Elt F) ((SparseCore.T d).loc main_v2))
    (g : Buf (Elt F) ((SparseCore.T d).loc main_v2))
    (hg : ∀ (c : Fin 2) (i : Fin 16), ∀ j ∈ oblkSet (2 * i.val + c.val), fs c i j = g j) :
    (bigSep (Finset.univ : Finset (Fin 2)) fun c => bigSep (Finset.univ : Finset (Fin 16)) fun i =>
        ((SparseCore.T d).loc main_v2 ↦[oblkSet (2 * i.val + c.val)]{fullShare} fs c i : sProp 𝕄))
      ⊢ (SparseCore.T d).loc main_v2 ↦{fullShare} g :=
  pts_workers_join (ℓ := (SparseCore.T d).loc main_v2) (fun j : S200x4096x128.Idx => (j 1).val / 128)
    (fun j => by have h1 : (j 1).val < 4096 := (j 1).isLt; show (j 1).val / 128 < 32; omega) fs g
    (fun c i j hj => hg c i j (by simp only [oblkSet, Finset.mem_filter, Finset.mem_univ, true_and]; exact hj))

/-- (c), all blocks at the one contents `g`. -/
theorem out_workers_join' (d : Dev nD) (g : Buf (Elt F) ((SparseCore.T d).loc main_v2)) :
    (bigSep (Finset.univ : Finset (Fin 2)) fun c => bigSep (Finset.univ : Finset (Fin 16)) fun i =>
        ((SparseCore.T d).loc main_v2 ↦[oblkSet (2 * i.val + c.val)]{fullShare} g : sProp 𝕄))
      ⊢ (SparseCore.T d).loc main_v2 ↦{fullShare} g :=
  out_workers_join d (fun _ _ => g) g (fun _ _ _ _ => rfl)

end Cert.Proof.Kernel

end
-- ==== Proof.KBConv.lean ====
import proofs.«206931_g83167746720501_cont_9to1_m_74_15_alg».proof.Proof.KBValue
import proofs.«206931_g83167746720501_cont_9to1_m_74_15_alg».proof.Proof.KBGeom

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## Families over an interval of positions -/

omit [FloatOps F] in
theorem Ico_pop (Φ : ℕ → sProp 𝕄) {a b : ℕ} (h : a < b) :
    bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, bigSep_insert (by simp)]; rfl
omit [FloatOps F] in
theorem range_push (Φ : ℕ → sProp 𝕄) (n : ℕ) :
    bigSep (Finset.range (n + 1)) Φ = iprop(Φ n ∗ bigSep (Finset.range n) Φ) := by
  rw [Finset.range_add_one, bigSep_insert Finset.notMem_range_self]; rfl
omit [FloatOps F] in
theorem Ico_empty' (Φ : ℕ → sProp 𝕄) (a : ℕ) : bigSep (Finset.Ico a a) Φ = iprop(emp) := by
  rw [Finset.Ico_self, bigSep_empty]; rfl

omit [FloatOps F] in
theorem Ico_pop4 (Φ : ℕ → sProp 𝕄) {a b : ℕ} (h : a + 3 < b) :
    bigSep (Finset.Ico a b) Φ = iprop(Φ a ∗ Φ (a + 1) ∗ Φ (a + 2) ∗ Φ (a + 3) ∗ bigSep (Finset.Ico (a + 4) b) Φ) := by
  rw [Ico_pop Φ (by omega : a < b), Ico_pop Φ (by omega : a + 1 < b), Ico_pop Φ (by omega : a + 1 + 1 < b), Ico_pop Φ (by omega : a + 1 + 1 + 1 < b)]
omit [FloatOps F] in
theorem range_push4 (Φ : ℕ → sProp 𝕄) (n : ℕ) :
    bigSep (Finset.range (n + 4)) Φ = iprop(Φ (n + 3) ∗ Φ (n + 2) ∗ Φ (n + 1) ∗ Φ n ∗ bigSep (Finset.range n) Φ) := by
  rw [show n + 4 = n + 3 + 1 from rfl, range_push Φ (n + 3), show n + 3 = n + 2 + 1 from rfl, range_push Φ (n + 2),
    show n + 2 = n + 1 + 1 from rfl, range_push Φ (n + 1), range_push Φ n]
omit [FloatOps F] in
theorem range200_pop6 (Φ : ℕ → sProp 𝕄) :
    bigSep (Finset.range 200) Φ = iprop(Φ 0 ∗ Φ 1 ∗ Φ 2 ∗ Φ 3 ∗ Φ 4 ∗ Φ 5 ∗ bigSep (Finset.Ico 6 200) Φ) := by
  rw [Finset.range_eq_Ico, Ico_pop4 Φ (by omega : 0 + 3 < 200), Ico_pop Φ (by omega : 0 + 4 < 200), Ico_pop Φ (by omega : 0 + 4 + 1 < 200)]
omit [FloatOps F] in
theorem range200_pop4 (Φ : ℕ → sProp 𝕄) :
    bigSep (Finset.range 200) Φ = iprop(Φ 0 ∗ Φ 1 ∗ Φ 2 ∗ Φ 3 ∗ bigSep (Finset.Ico 4 200) Φ) := by
  rw [Finset.range_eq_Ico, Ico_pop4 Φ (by omega : 0 + 3 < 200)]
omit [FloatOps F] in
theorem range4 (Φ : ℕ → sProp 𝕄) : bigSep (Finset.range 4) Φ = iprop(Φ 0 ∗ Φ 1 ∗ Φ 2 ∗ Φ 3 ∗ emp) := by
  rw [Finset.range_eq_Ico, Ico_pop4 Φ (by omega : 0 + 3 < 4), Ico_empty']

omit [FloatOps F] in
theorem fin4 (Φ : Fin 4 → sProp 𝕄) : bigSep (Finset.univ : Finset (Fin 4)) Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]; rfl

/-! ## The loop's offsets, by worker number -/

omit [FloatOps F] in
theorem off6_eq (L : grid0.Coords) (k : Fin k0_t1_loop.trips) (r : Fin 4) :
    k0_off6 L k (BitVec.ofNat 32 r.val) = ![4 * k.val + r.val + 4, 128 * wOf L, 0] := by
  rw [k0_off6_eq L k r]
  funext a
  match a with
  | ⟨0, _⟩ => rfl
  | ⟨1, _⟩ => show 256 * (L 1).val + 128 * (L 0).val = 128 * (2 * (L 1).val + (L 0).val); omega
  | ⟨2, _⟩ => rfl
omit [FloatOps F] in
theorem off8_eq (k : Fin k0_t1_loop.trips) (r : Fin 4) :
    k0_off8 k (BitVec.ofNat 32 r.val) = ![4 * k.val + r.val + 6, 0] := k0_off8_eq k r
omit [FloatOps F] in
theorem offw (L : grid0.Coords) : 256 * (L 1).val + 128 * (L 0).val = 128 * wOf L := by
  show 256 * (L 1).val + 128 * (L 0).val = 128 * (2 * (L 1).val + (L 0).val); omega
omit [FloatOps F] in
theorem offlit_eq (L : grid0.Coords) (s : ℕ) :
    (![s, 256 * (L 1).val + 128 * (L 0).val, 0] : Fin 3 → Nat) = ![s, 128 * wOf L, 0] := by rw [offw]

section Pieces

variable (d : Dev nD) (L : grid0.Coords)
variable (X : Buf (Elt F) ((xtM L).view.loc (thr d L))) (TB : Buf (Elt F) ((tW).view.loc (thr d L)))

/-- A row of the index scratch, spelt as an offset list, is the row's elements. -/
theorem row_pts_eq (off : Fin 2 → Nat) (h : ∀ a, off a + S1x128.size a ≤ S200x128.size a) (s : ℕ) (hs : off = ![s, 0])
    (f : Buf (Elt F) ((iS).view.loc (thr d L))) :
    ((rowAt off h).view.loc (thr d L) ↦[(rowAt off h).view.set]{fullShare} f : sProp 𝕄) = ((iS).view.loc (thr d L) ↦[rowSet s]{fullShare} f) := by
  rw [set_rowAt off h s hs]

/-- A slot of the row scratch, spelt as the program slices it, is the slot's elements. -/
theorem slot0_pts_eq (f : Buf (Elt F) ((rS).view.loc (thr d L))) :
    ((slot0).view.loc (thr d L) ↦[(slot0).view.set]{fullShare} f : sProp 𝕄) = ((rS).view.loc (thr d L) ↦[slotSet 0]{fullShare} f) := by rw [set_slot0]
theorem slot1_pts_eq (f : Buf (Elt F) ((rS).view.loc (thr d L))) :
    ((slot1).view.loc (thr d L) ↦[(slot1).view.set]{fullShare} f : sProp 𝕄) = ((rS).view.loc (thr d L) ↦[slotSet 1]{fullShare} f) := by rw [set_slot1]
theorem slot2_pts_eq (f : Buf (Elt F) ((rS).view.loc (thr d L))) :
    ((slot2).view.loc (thr d L) ↦[(slot2).view.set]{fullShare} f : sProp 𝕄) = ((rS).view.loc (thr d L) ↦[slotSet 2]{fullShare} f) := by rw [set_slot2]
theorem slot3_pts_eq (f : Buf (Elt F) ((rS).view.loc (thr d L))) :
    ((slot3).view.loc (thr d L) ↦[(slot3).view.set]{fullShare} f : sProp 𝕄) = ((rS).view.loc (thr d L) ↦[slotSet 3]{fullShare} f) := by rw [set_slot3]

/-- A slab of the result, spelt as a copy's target, is the slab's elements. -/
theorem slab_pts_eq (off : Fin 3 → Nat) (h : ∀ a, off a + S1x128x128.size a ≤ S200x4096x128.size a) (s : ℕ) (ho : off = ![s, 128 * wOf L, 0])
    (f : Buf (Elt F) ((oW).view.loc (thr d L))) :
    ((slabAt off h).view.loc (thr d L) ↦[(slabAt off h).view.set]{fullShare} f : sProp 𝕄) = ((oW).view.loc (thr d L) ↦[slabSet (wOf L) s]{fullShare} f) := by
  rw [set_slabAt off h s (wOf L) ho]

/-- A slot after a gather, as the canonical contents. -/
theorem slot_gathered_eq (offS : Fin 2 → Nat) (hS : ∀ a, offS a + S128x128.size a ≤ S512x128.size a) (j : ℕ) (hj : offS = ![128 * j, 0])
    (off : Fin 2 → Nat) (h : ∀ a, off a + S1x128.size a ≤ S200x128.size a) (s : ℕ) (hs : off = ![s, 0]) (hs200 : s < 200)
    (hn : S128.numel = S128x128.size gathers_S1000000x128_S128x128.axis')
    (hin : ∀ x, ((rowAt off h).view.read (Elt F) (idxOf (wOf L) X) x).toNat < S1000000x128.size gathers_S1000000x128_S128x128.axis)
    (base : Buf (Elt F) ((rS).view.loc (thr d L))) (rest : List (View.Piece (Elt F) S128x128 .f32)) :
    ((rS.slice (Rect.unit (s := S512x128) offS S128x128.size hS) (fun _ => rfl)).view.loc (thr d L)
        ↦[(rS.slice (Rect.unit (s := S512x128) offS S128x128.size hS) (fun _ => rfl)).view.set]{fullShare}
          (rS.slice (Rect.unit (s := S512x128) offS S128x128.size hS) (fun _ => rfl)).view.writes (Elt F) base
            (⟨Rect.whole S128x128, SparseCore.gatherPayload gathers_S1000000x128_S128x128 ((tM).view.read (Elt F) TB)
                (SparseCore.rows ((rowAt off h).view.read (Elt F) (idxOf (wOf L) X)) hn hin)⟩ :: rest) : sProp 𝕄)
      = ((rS.slice (Rect.unit (s := S512x128) offS S128x128.size hS) (fun _ => rfl)).view.loc (thr d L)
        ↦[(rS.slice (Rect.unit (s := S512x128) offS S128x128.size hS) (fun _ => rfl)).view.set]{fullShare} gathered TB (idxOf (wOf L) X) s) :=
  pointsTo_congr (gather_writes_eq d L TB (idxOf (wOf L) X) offS hS j hj off h s hs hs200 hn hin base rest)

/-- A slab after a copy-out of a slot holding the gather of its position, as the canonical contents. -/
theorem slab_done_eq (offS : Fin 2 → Nat) (hS : ∀ a, offS a + S128x128.size a ≤ S512x128.size a) (j : ℕ) (hj : offS = ![128 * j, 0])
    (off : Fin 3 → Nat) (h : ∀ a, off a + S1x128x128.size a ≤ S200x4096x128.size a) (s : ℕ) (ho : off = ![s, 128 * wOf L, 0]) (hs200 : s < 200)
    (c : Buf (Elt F) ((rS).view.loc (thr d L)))
    (hc : ∀ i ∈ (rS.slice (Rect.unit (s := S512x128) offS S128x128.size hS) (fun _ => rfl)).view.set, c i = gathered TB (idxOf (wOf L) X) s i)
    (base : Buf (Elt F) ((oW).view.loc (thr d L))) (rest : List (View.Piece (Elt F) S128x128 .f32)) :
    ((slabAt off h).view.loc (thr d L) ↦[(slabAt off h).view.set]{fullShare}
        (slabAt off h).view.writes (Elt F) base
          (⟨Rect.whole S128x128, ReadAs.same.apply ((rS.slice (Rect.unit (s := S512x128) offS S128x128.size hS) (fun _ => rfl)).view.read (Elt F) c)⟩ :: rest) : sProp 𝕄)
      = ((oW).view.loc (thr d L) ↦[slabSet (wOf L) s]{fullShare} outOf TB X) := by
  rw [pointsTo_congr (copyout_writes_eq d L TB X offS hS j hj off h s ho hs200 c hc base rest), set_slabAt off h s (wOf L) ho]

/-! ## Flights, restated -/

/-- A gather in flight whose slot is given as a list of writes, the newest the gathered rows, delivers the canonical pieces. -/
theorem gflight_canon (sm : SemLoc sig) (ι : HIx 1) (N : ℕ) (qt : PosShare TreeShare)
    (offS : Fin 2 → Nat) (hS : ∀ a, offS a + S128x128.size a ≤ S512x128.size a) (j : ℕ) (hj : offS = ![128 * j, 0])
    (off : Fin 2 → Nat) (h : ∀ a, off a + S1x128.size a ≤ S200x128.size a) (s : ℕ) (hs : off = ![s, 0]) (hs200 : s < 200)
    (hn : S128.numel = S128x128.size gathers_S1000000x128_S128x128.axis')
    (hin : ∀ x, ((rowAt off h).view.read (Elt F) (idxOf (wOf L) X) x).toNat < S1000000x128.size gathers_S1000000x128_S128x128.axis)
    (base : Buf (Elt F) ((rS).view.loc (thr d L))) (rest : List (View.Piece (Elt F) S128x128 .f32)) :
    (Transfers.Flight (countersEmb : UEmb Counters 𝕄) (thr d L) sm ι N
      iprop((((rS.slice (Rect.unit (s := S512x128) offS S128x128.size hS) (fun _ => rfl)).view.loc (thr d L)
            ↦[(rS.slice (Rect.unit (s := S512x128) offS S128x128.size hS) (fun _ => rfl)).view.set]{fullShare}
              (rS.slice (Rect.unit (s := S512x128) offS S128x128.size hS) (fun _ => rfl)).view.writes (Elt F) base
                (⟨Rect.whole S128x128, SparseCore.gatherPayload gathers_S1000000x128_S128x128 ((tM).view.read (Elt F) TB)
                    (SparseCore.rows ((rowAt off h).view.read (Elt F) (idxOf (wOf L) X)) hn hin)⟩ :: rest))
          ∗ ((rowAt off h).view.loc (thr d L) ↦[(rowAt off h).view.set]{fullShare} idxOf (wOf L) X))
        ∗ ((tW).view.loc (thr d L) ↦[(tM).view.set]{qt} TB)))
    ⊢ Transfers.Flight (countersEmb : UEmb Counters 𝕄) (thr d L) sm ι N
      iprop((((rS.slice (Rect.unit (s := S512x128) offS S128x128.size hS) (fun _ => rfl)).view.loc (thr d L)
            ↦[(rS.slice (Rect.unit (s := S512x128) offS S128x128.size hS) (fun _ => rfl)).view.set]{fullShare} gathered TB (idxOf (wOf L) X) s)
          ∗ ((iS).view.loc (thr d L) ↦[rowSet s]{fullShare} idxOf (wOf L) X))
        ∗ ((tW).view.loc (thr d L) ↦[(tM).view.set]{qt} TB)) := by
  refine Transfers.Flight_mono _ _ ?_
  rw [slot_gathered_eq d L X TB offS hS j hj off h s hs hs200 hn hin base rest, row_pts_eq d L off h s hs]

/-- A copy-out in flight whose slab is given as a list of writes, the newest the slot's contents, delivers the canonical pieces. -/
theorem sflight_canon (sm : SemLoc sig) (ι : HIx 1) (N : ℕ)
    (offS : Fin 2 → Nat) (hS : ∀ a, offS a + S128x128.size a ≤ S512x128.size a) (j : ℕ) (hj : offS = ![128 * j, 0])
    (off : Fin 3 → Nat) (h : ∀ a, off a + S1x128x128.size a ≤ S200x4096x128.size a) (s : ℕ) (ho : off = ![s, 128 * wOf L, 0]) (hs200 : s < 200)
    (c : Buf (Elt F) ((rS).view.loc (thr d L)))
    (hc : ∀ i ∈ (rS.slice (Rect.unit (s := S512x128) offS S128x128.size hS) (fun _ => rfl)).view.set, c i = gathered TB (idxOf (wOf L) X) s i)
    (base : Buf (Elt F) ((oW).view.loc (thr d L))) (rest : List (View.Piece (Elt F) S128x128 .f32)) :
    (Transfers.Flight (countersEmb : UEmb Counters 𝕄) (thr d L) sm ι N
      iprop(((slabAt off h).view.loc (thr d L) ↦[(slabAt off h).view.set]{fullShare}
            (slabAt off h).view.writes (Elt F) base
              (⟨Rect.whole S128x128, ReadAs.same.apply ((rS.slice (Rect.unit (s := S512x128) offS S128x128.size hS) (fun _ => rfl)).view.read (Elt F) c)⟩ :: rest))
        ∗ ((rS.slice (Rect.unit (s := S512x128) offS S128x128.size hS) (fun _ => rfl)).view.loc (thr d L)
            ↦[(rS.slice (Rect.unit (s := S512x128) offS S128x128.size hS) (fun _ => rfl)).view.set]{fullShare} c)))
    ⊢ Transfers.Flight (countersEmb : UEmb Counters 𝕄) (thr d L) sm ι N
      iprop(((oW).view.loc (thr d L) ↦[slabSet (wOf L) s]{fullShare} outOf TB X)
        ∗ ((rS.slice (Rect.unit (s := S512x128) offS S128x128.size hS) (fun _ => rfl)).view.loc (thr d L)
            ↦[(rS.slice (Rect.unit (s := S512x128) offS S128x128.size hS) (fun _ => rfl)).view.set]{fullShare} gathered TB (idxOf (wOf L) X) s)) := by
  refine Transfers.Flight_mono _ _ ?_
  rw [slab_done_eq d L X TB offS hS j hj off h s ho hs200 c hc base rest,
    show ((rS.slice (Rect.unit (s := S512x128) offS S128x128.size hS) (fun _ => rfl)).view.loc (thr d L)
            ↦[(rS.slice (Rect.unit (s := S512x128) offS S128x128.size hS) (fun _ => rfl)).view.set]{fullShare} c : sProp 𝕄)
        = ((rS.slice (Rect.unit (s := S512x128) offS S128x128.size hS) (fun _ => rfl)).view.loc (thr d L)
            ↦[(rS.slice (Rect.unit (s := S512x128) offS S128x128.size hS) (fun _ => rfl)).view.set]{fullShare} gathered TB (idxOf (wOf L) X) s)
      from pointsTo_congr hc]

end Pieces

end Cert.Proof.Kernel

end
-- ==== Proof.KBInv.lean ====
import proofs.«206931_g83167746720501_cont_9to1_m_74_15_alg».proof.Proof.KBConv

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- A row of the index scratch at a literal position, spelt as the program slices it. -/
abbrev rowL (n : ℕ) (h : ∀ a, (![n, 0] : Fin 2 → Nat) a + S1x128.size a ≤ S200x128.size a) : Memref sig .scVector .vmem S128 .i32 := rowAt ![n, 0] h

section Core
variable (d : Dev nD) (L : grid0.Coords) (q : PosShare TreeShare)
variable (X : Buf (Elt F) ((xtM L).view.loc (thr d L))) (TB : Buf (Elt F) ((tW).view.loc (thr d L))) (O0 : Buf (Elt F) ((oW).view.loc (thr d L)))

/-- Row `s` of the index scratch at the copied row numbers. -/
abbrev rowPts (s : ℕ) : sProp 𝕄 := (iS).view.loc (thr d L) ↦[rowSet s]{fullShare} idxOf (wOf L) X
/-- Slab `s` of the tile's block at the looked-up rows; at what the block held before. -/
abbrev slabDone (s : ℕ) : sProp 𝕄 := (oW).view.loc (thr d L) ↦[slabSet (wOf L) s]{fullShare} outOf TB X
abbrev slabTodo (s : ℕ) : sProp 𝕄 := (oW).view.loc (thr d L) ↦[slabSet (wOf L) s]{fullShare} O0

/-- What holds between two trips of the counted loop, before trip `k` (positions `4 k + 4 … 4 k + 7` are this trip's):
    the gathers of positions `4 k + 4`, `4 k + 5` are in flight into slots 0, 1; the copy-outs of positions `4 k + 2`,
    `4 k + 3` are in flight out of slots 2, 3; every earlier position's slab holds its looked-up rows, every later one
    what the block held before; the rows of the index scratch not lent to a gather are in hand. -/
def tinv (O : CellTallies nD τ sig (HIx 1)) (W : Waits sig (HIx 1)) (k : ℕ) (_ : Unit) : sProp 𝕄 :=
  iprop(Transfers.MayWaits (thr d L) (none : HIx 1) O
    ∗ (Transfers.Flight (countersEmb : UEmb Counters 𝕄) (thr d L) (SemLoc.dma cc0_scratch2.sem) (default : HIx 1) 524288
        iprop((((slot0).view.loc (thr d L) ↦[(slot0).view.set]{fullShare} gathered TB (idxOf (wOf L) X) (4 * k + 4))
            ∗ ((iS).view.loc (thr d L) ↦[rowSet (4 * k + 4)]{fullShare} idxOf (wOf L) X))
          ∗ ((tW).view.loc (thr d L) ↦[(tM).view.set]{Transfers.shareTok q 4 0} TB)))
    ∗ (Transfers.Flight (countersEmb : UEmb Counters 𝕄) (thr d L) (SemLoc.dma cc0_scratch3.sem) (default : HIx 1) 524288
        iprop((((slot1).view.loc (thr d L) ↦[(slot1).view.set]{fullShare} gathered TB (idxOf (wOf L) X) (4 * k + 5))
            ∗ ((iS).view.loc (thr d L) ↦[rowSet (4 * k + 5)]{fullShare} idxOf (wOf L) X))
          ∗ ((tW).view.loc (thr d L) ↦[(tM).view.set]{Transfers.shareTok q 4 1} TB)))
    ∗ (Transfers.Flight (countersEmb : UEmb Counters 𝕄) (thr d L) (SemLoc.dma cc0_scratch8.sem) (default : HIx 1) 524288
        iprop(((oW).view.loc (thr d L) ↦[slabSet (wOf L) (4 * k + 2)]{fullShare} outOf TB X)
          ∗ ((slot2).view.loc (thr d L) ↦[(slot2).view.set]{fullShare} gathered TB (idxOf (wOf L) X) (4 * k + 2))))
    ∗ (Transfers.Flight (countersEmb : UEmb Counters 𝕄) (thr d L) (SemLoc.dma cc0_scratch9.sem) (default : HIx 1) 524288
        iprop(((oW).view.loc (thr d L) ↦[slabSet (wOf L) (4 * k + 3)]{fullShare} outOf TB X)
          ∗ ((slot3).view.loc (thr d L) ↦[(slot3).view.set]{fullShare} gathered TB (idxOf (wOf L) X) (4 * k + 3))))
    ∗ ((tW).view.loc (thr d L) ↦[Finset.univ \ (tM).view.set]{Transfers.shareTok q 4 0} TB)
    ∗ ((tW).view.loc (thr d L) ↦[Finset.univ \ (tM).view.set]{Transfers.shareTok q 4 1} TB)
    ∗ ((tW).view.loc (thr d L) ↦{Transfers.shareTok q 4 2} TB)
    ∗ ((tW).view.loc (thr d L) ↦{Transfers.shareTok q 4 3} TB)
    ∗ semVal (thr d L, SemLoc.dma cc0_scratch4.sem) 0 ∗ semVal (thr d L, SemLoc.dma cc0_scratch5.sem) 0
    ∗ semVal (thr d L, SemLoc.dma cc0_scratch6.sem) 0 ∗ semVal (thr d L, SemLoc.dma cc0_scratch7.sem) 0
    ∗ bigSep (Finset.range (4 * k + 4)) (rowPts d L X) ∗ bigSep (Finset.Ico (4 * k + 6) 200) (rowPts d L X)
    ∗ bigSep (Finset.range (4 * k + 2)) (slabDone d L X TB) ∗ bigSep (Finset.Ico (4 * k + 4) 200) (slabTodo d L O0)
    ∗ ∃ W', ⌜∀ p ∈ W', p ∈ W ∨ p.2 = none⌝ ∗ owes (thr d L) O W')

end Core

end Cert.Proof.Kernel

end
-- ==== Proof.KBTrip.lean ====
/-
  One trip of the tile's counted loop.

  Between two trips two gathers are in flight, into slots 0 and 1 of the row scratch, and two copy-outs, out of slots 2
  and 3. Trip `k` handles positions `4 k + 4 … 4 k + 7`. For each of the four slots in turn it waits for the gather into
  the slot, starts the copy of the slot to its position's slab of the result, waits for the copy-out issued two
  positions earlier — which hands back that slab and its slot — and starts into that slot the gather of the position two
  ahead. At the end the gathers of positions `4 k + 8`, `4 k + 9` and the copy-outs of positions `4 k + 6`, `4 k + 7` are
  in flight: the state between trips, one trip on. A slot just gathered holds, row by row, the table rows its position's
  row numbers name; copied whole into the position's slab it leaves there the looked-up rows; so four more slabs hold
  their rows, four more rows of the index scratch are back in hand, and the eight waits are recorded.
-/
import proofs.«206931_g83167746720501_cont_9to1_m_74_15_alg».proof.Proof.KBInv

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The trip's offsets at the program's literal words -/

omit [FloatOps F] in
theorem off8_0 (k : Fin k0_t1_loop.trips) : k0_off8 k 0#32 = ![4 * k.val + 6, 0] := off8_eq k 0
omit [FloatOps F] in
theorem off8_1 (k : Fin k0_t1_loop.trips) : k0_off8 k 1#32 = ![4 * k.val + 6 + 1, 0] := off8_eq k 1
omit [FloatOps F] in
theorem off8_2 (k : Fin k0_t1_loop.trips) : k0_off8 k 2#32 = ![4 * k.val + 6 + 2, 0] := off8_eq k 2
omit [FloatOps F] in
theorem off8_3 (k : Fin k0_t1_loop.trips) : k0_off8 k 3#32 = ![4 * k.val + 6 + 3, 0] := off8_eq k 3
omit [FloatOps F] in
theorem off6_0 (L : grid0.Coords) (k : Fin k0_t1_loop.trips) : k0_off6 L k 0#32 = ![4 * k.val + 4, 128 * wOf L, 0] := off6_eq L k 0
omit [FloatOps F] in
theorem off6_1 (L : grid0.Coords) (k : Fin k0_t1_loop.trips) : k0_off6 L k 1#32 = ![4 * k.val + 4 + 1, 128 * wOf L, 0] := off6_eq L k 1
omit [FloatOps F] in
theorem off6_2 (L : grid0.Coords) (k : Fin k0_t1_loop.trips) : k0_off6 L k 2#32 = ![4 * k.val + 4 + 2, 128 * wOf L, 0] := off6_eq L k 2
omit [FloatOps F] in
theorem off6_3 (L : grid0.Coords) (k : Fin k0_t1_loop.trips) : k0_off6 L k 3#32 = ![4 * k.val + 4 + 3, 128 * wOf L, 0] := off6_eq L k 3

omit [FloatOps F] in
theorem off8_0n (k : Fin k0_t1_loop.trips) : k0_off8 k 0#32 = ![4 * (k.val + 1) + 2, 0] := by
  rw [off8_0 k, show 4 * k.val + 6 = 4 * (k.val + 1) + 2 by omega]
omit [FloatOps F] in
theorem off8_1n (k : Fin k0_t1_loop.trips) : k0_off8 k 1#32 = ![4 * (k.val + 1) + 3, 0] := by
  rw [off8_1 k, show 4 * k.val + 6 + 1 = 4 * (k.val + 1) + 3 by omega]
omit [FloatOps F] in
theorem off8_2n (k : Fin k0_t1_loop.trips) : k0_off8 k 2#32 = ![4 * (k.val + 1) + 4, 0] := by
  rw [off8_2 k, show 4 * k.val + 6 + 2 = 4 * (k.val + 1) + 4 by omega]
omit [FloatOps F] in
theorem off8_3n (k : Fin k0_t1_loop.trips) : k0_off8 k 3#32 = ![4 * (k.val + 1) + 5, 0] := by
  rw [off8_3 k, show 4 * k.val + 6 + 3 = 4 * (k.val + 1) + 5 by omega]
omit [FloatOps F] in
theorem off8_1m (k : Fin k0_t1_loop.trips) : k0_off8 k 1#32 = ![4 * k.val + 7, 0] := off8_1 k
omit [FloatOps F] in
theorem off6_1m (L : grid0.Coords) (k : Fin k0_t1_loop.trips) : k0_off6 L k 1#32 = ![4 * k.val + 5, 128 * wOf L, 0] := off6_1 L k
omit [FloatOps F] in
theorem off6_2n (L : grid0.Coords) (k : Fin k0_t1_loop.trips) : k0_off6 L k 2#32 = ![4 * (k.val + 1) + 2, 128 * wOf L, 0] := by
  rw [off6_2 L k, show 4 * k.val + 4 + 2 = 4 * (k.val + 1) + 2 by omega]
omit [FloatOps F] in
theorem off6_3n (L : grid0.Coords) (k : Fin k0_t1_loop.trips) : k0_off6 L k 3#32 = ![4 * (k.val + 1) + 3, 128 * wOf L, 0] := by
  rw [off6_3 L k, show 4 * k.val + 4 + 3 = 4 * (k.val + 1) + 3 by omega]

/-! ## The families of positions, one trip on -/

omit [FloatOps F] in
theorem range_next4 (Φ : ℕ → sProp 𝕄) (k a : ℕ) :
    (iprop(Φ (4 * k + a + 3) ∗ Φ (4 * k + a + 2) ∗ Φ (4 * k + a + 1) ∗ Φ (4 * k + a) ∗ bigSep (Finset.range (4 * k + a)) Φ) : sProp 𝕄)
      = bigSep (Finset.range (4 * (k + 1) + a)) Φ := by
  rw [show 4 * (k + 1) + a = 4 * k + a + 4 by omega]
  exact (range_push4 Φ (4 * k + a)).symm
omit [FloatOps F] in
theorem Ico_next4 (Φ : ℕ → sProp 𝕄) (k a b : ℕ) :
    bigSep (Finset.Ico (4 * k + a + 4) b) Φ = bigSep (Finset.Ico (4 * (k + 1) + a) b) Φ := by
  rw [show 4 * (k + 1) + a = 4 * k + a + 4 by omega]

section Core
variable (d : Dev nD) (L : grid0.Coords) (q : PosShare TreeShare)
variable (X : Buf (Elt F) ((xtM L).view.loc (thr d L))) (TB : Buf (Elt F) ((tW).view.loc (thr d L))) (O0 : Buf (Elt F) ((oW).view.loc (thr d L)))

/-- One trip of the counted loop carries the invariant from `k` to `k + 1`. -/
theorem trip (O : CellTallies nD τ sig (HIx 1)) (W : Waits sig (HIx 1)) (hX : XInRange X) (k : Fin k0_t1_loop.trips) :
    tinv d L q X TB O0 O W k.val ()
      ⊢ wp frame (wpE (defs₀ (F := F)) 𝒱₀ (thr d L) none) Set.univ
          (k0_t1_body L xW (Memref.isWhole_whole _) tW (Memref.isWhole_whole _) oW (Memref.isWhole_whole _) iS (Memref.isWhole_whole _) rS (Memref.isWhole_whole _)
            cc0_scratch2 cc0_scratch3 cc0_scratch4 cc0_scratch5 cc0_scratch6 cc0_scratch7 cc0_scratch8 cc0_scratch9 cc0_scoped0 k ())
          (fun r => tinv d L q X TB O0 O W (k.val + 1) r) := by
  have hk : k.val < 48 := lt_of_lt_of_eq k.isLt trips_eq
  unfold tinv
  iintro ⟨Hmw, Hg0, Hg1, Hc2, Hc3, Htr0, Htr1, Ht2, Ht3, Hs4, Hs5, Hs6, Hs7, Hrlo, Hrhi, Hdone, Htodo, ⟨%W', %hW', HO⟩⟩
  -- this trip's rows of the index scratch, as the gathers' offset lists
  ihave Hrhi := (Entails.of_eq (Ico_pop4 _ (by omega))) $$ Hrhi
  icases Hrhi with ⟨Hr6, Hr7, Hr8, Hr9, Hrhi⟩
  ihave Hr6 := (Entails.of_eq (row_pts_eq d L (k0_off8 k 0#32) (k0_off8_inb k 0) (4 * k.val + 6) (off8_0 k) _).symm) $$ Hr6
  ihave Hr7 := (Entails.of_eq (row_pts_eq d L (k0_off8 k 1#32) (k0_off8_inb k 1) (4 * k.val + 6 + 1) (off8_1 k) _).symm) $$ Hr7
  ihave Hr8 := (Entails.of_eq (row_pts_eq d L (k0_off8 k 2#32) (k0_off8_inb k 2) (4 * k.val + 6 + 2) (off8_2 k) _).symm) $$ Hr8
  ihave Hr9 := (Entails.of_eq (row_pts_eq d L (k0_off8 k 3#32) (k0_off8_inb k 3) (4 * k.val + 6 + 3) (off8_3 k) _).symm) $$ Hr9
  -- this trip's slabs of the result, as the copies' targets
  ihave Htodo := (Entails.of_eq (Ico_pop4 _ (by omega))) $$ Htodo
  icases Htodo with ⟨Ho4, Ho5, Ho6, Ho7, Htodo⟩
  ihave Ho4 := (Entails.of_eq (slab_pts_eq d L (k0_off6 L k 0#32) (k0_off6_inb L k 0) (4 * k.val + 4) (off6_0 L k) _).symm) $$ Ho4
  ihave Ho5 := (Entails.of_eq (slab_pts_eq d L (k0_off6 L k 1#32) (k0_off6_inb L k 1) (4 * k.val + 4 + 1) (off6_1 L k) _).symm) $$ Ho5
  ihave Ho6 := (Entails.of_eq (slab_pts_eq d L (k0_off6 L k 2#32) (k0_off6_inb L k 2) (4 * k.val + 4 + 2) (off6_2 L k) _).symm) $$ Ho6
  ihave Ho7 := (Entails.of_eq (slab_pts_eq d L (k0_off6 L k 3#32) (k0_off6_inb L k 3) (4 * k.val + 4 + 3) (off6_3 L k) _).symm) $$ Ho7
  have hin : ∀ (off : Fin 2 → Nat) (h : ∀ a, off a + S1x128.size a ≤ S200x128.size a) (x : S128.Idx),
      ((rowAt off h).view.read (Elt F) (idxOf (wOf L) X) x).toNat < 1000000 := fun off h x => hin_of_range d L X hX off h x
  unfold k0_t1_body
  sl_exec
  sl_step
  isplitl [Hmw]; · iexact Hmw
  -- the gathers of the next trip's first two positions, in flight into slots 0 and 1
  isplitl [Hg0]
  · iapply (gflight_canon d L X TB (SemLoc.dma cc0_scratch2.sem) default 524288 (Transfers.shareTok q 4 0)
      ![0, 0] inb_S512x128_S128x128_0_0 0 rfl (k0_off8 k 2#32) (k0_off8_inb k 2) (4 * (k.val + 1) + 4) (off8_2n k) (by omega)
      (by decide) (fun x => hin _ _ x) (gathered TB (idxOf (wOf L) X) (4 * k.val + 4)) [])
    iexact Hg0
  isplitl [Hg1]
  · iapply (gflight_canon d L X TB (SemLoc.dma cc0_scratch3.sem) default 524288 (Transfers.shareTok q 4 1)
      ![128, 0] inb_S512x128_S128x128_128_0 1 rfl (k0_off8 k 3#32) (k0_off8_inb k 3) (4 * (k.val + 1) + 5) (off8_3n k) (by omega)
      (by decide) (fun x => hin _ _ x) (gathered TB (idxOf (wOf L) X) (4 * k.val + 5)) [])
    iexact Hg1
  -- the copy-outs of this trip's last two positions, in flight out of slots 2 and 3
  isplitl [Hc2]
  · iapply (sflight_canon d L X TB (SemLoc.dma cc0_scratch8.sem) default 524288
      ![256, 0] inb_S512x128_S128x128_256_0 2 rfl (k0_off6 L k 2#32) (k0_off6_inb L k 2) (4 * (k.val + 1) + 2) (off6_2n L k) (by omega) _
      (gather_writes_eq d L TB (idxOf (wOf L) X) ![256, 0] inb_S512x128_S128x128_256_0 2 rfl (k0_off8 k 0#32) (k0_off8_inb k 0)
        (4 * (k.val + 1) + 2) (off8_0n k) (by omega) (by decide) (fun x => hin _ _ x) (gathered TB (idxOf (wOf L) X) (4 * k.val + 2)) [])
      O0 [])
    iexact Hc2
  isplitl [Hc3]
  · iapply (sflight_canon d L X TB (SemLoc.dma cc0_scratch9.sem) default 524288
      ![384, 0] inb_S512x128_S128x128_384_0 3 rfl (k0_off6 L k 3#32) (k0_off6_inb L k 3) (4 * (k.val + 1) + 3) (off6_3n L k) (by omega) _
      (gather_writes_eq d L TB (idxOf (wOf L) X) ![384, 0] inb_S512x128_S128x128_384_0 3 rfl (k0_off8 k 1#32) (k0_off8_inb k 1)
        (4 * (k.val + 1) + 3) (off8_1n k) (by omega) (by decide) (fun x => hin _ _ x) (gathered TB (idxOf (wOf L) X) (4 * k.val + 3)) [])
      O0 [])
    iexact Hc3
  -- the table's read tokens and the four counters at rest
  isplitl [Htr0]; · iexact Htr0
  isplitl [Htr1]; · iexact Htr1
  isplitl [Ht2]; · iexact Ht2
  isplitl [Ht3]; · iexact Ht3
  isplitl [Hs4]; · iexact Hs4
  isplitl [Hs5]; · iexact Hs5
  isplitl [Hs6]; · iexact Hs6
  isplitl [Hs7]; · iexact Hs7
  -- the rows of the index scratch in hand: four more below, four fewer above
  isplitl [Hrlo Hg0_dst_and Hg1_dst_and Hr6 Hr7]
  · iapply (Entails.of_eq (range_next4 (rowPts d L X) k.val 4))
    isplitl [Hr7]
    · iapply (Entails.of_eq (row_pts_eq d L (k0_off8 k 1#32) (k0_off8_inb k 1) (4 * k.val + 4 + 3) (off8_1 k) _))
      iexact Hr7
    isplitl [Hr6]
    · iapply (Entails.of_eq (row_pts_eq d L (k0_off8 k 0#32) (k0_off8_inb k 0) (4 * k.val + 4 + 2) (off8_0 k) _))
      iexact Hr6
    isplitl [Hg1_dst_and]; · iexact Hg1_dst_and
    isplitl [Hg0_dst_and]; · iexact Hg0_dst_and
    iexact Hrlo
  isplitl [Hrhi]
  · iapply (Entails.of_eq (Ico_next4 (rowPts d L X) k.val 6 200))
    iexact Hrhi
  -- the result's slabs: four more hold their rows, four fewer are untouched
  isplitl [Hdone Hc2_dst Hc3_dst Ho4 Ho5]
  · iapply (Entails.of_eq (range_next4 (slabDone d L X TB) k.val 2))
    isplitl [Ho5]
    · iapply (Entails.of_eq (slab_done_eq d L X TB ![128, 0] inb_S512x128_S128x128_128_0 1 rfl (k0_off6 L k 1#32) (k0_off6_inb L k 1)
        (4 * k.val + 2 + 3) (off6_1 L k) (by omega) (gathered TB (idxOf (wOf L) X) (4 * k.val + 5)) (fun _ _ => rfl) O0 []))
      iexact Ho5
    isplitl [Ho4]
    · iapply (Entails.of_eq (slab_done_eq d L X TB ![0, 0] inb_S512x128_S128x128_0_0 0 rfl (k0_off6 L k 0#32) (k0_off6_inb L k 0)
        (4 * k.val + 2 + 2) (off6_0 L k) (by omega) (gathered TB (idxOf (wOf L) X) (4 * k.val + 4)) (fun _ _ => rfl) O0 []))
      iexact Ho4
    isplitl [Hc3_dst]; · iexact Hc3_dst
    isplitl [Hc2_dst]; · iexact Hc2_dst
    iexact Hdone
  isplitl [Htodo]
  · iapply (Entails.of_eq (Ico_next4 (slabTodo d L O0) k.val 4 200))
    iexact Htodo
  -- the eight waits of the trip, all at the default index, recorded
  iexists (insert (SemLoc.dma cc0_scratch7.sem, (default : HIx 1)) (insert (SemLoc.dma cc0_scratch5.sem, (default : HIx 1))
    (insert (SemLoc.dma cc0_scratch6.sem, (default : HIx 1)) (insert (SemLoc.dma cc0_scratch4.sem, (default : HIx 1))
    (insert (SemLoc.dma cc0_scratch9.sem, (default : HIx 1)) (insert (SemLoc.dma cc0_scratch3.sem, (default : HIx 1))
    (insert (SemLoc.dma cc0_scratch8.sem, (default : HIx 1)) (insert (SemLoc.dma cc0_scratch2.sem, (default : HIx 1)) W'))))))))
  isplitr
  · ipureintro
    intro p hp
    simp only [Finset.mem_insert] at hp
    rcases hp with rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact hW' p hp
  · iexact HO

end Core

end Cert.Proof.Kernel

end
-- ==== Proof.KBConvB.lean ====
import proofs.«206931_g83167746720501_cont_9to1_m_74_15_alg».proof.Proof.KBConv

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! Restating what a transfer delivers when the delivered contents are known only up to agreement on the piece:
    the contents are arbitrary (`c`, `cs`), with a pointwise equation on the piece's elements. -/

section Pieces

variable (d : Dev nD) (L : grid0.Coords)
variable (X : Buf (Elt F) ((xtM L).view.loc (thr d L))) (TB : Buf (Elt F) ((tW).view.loc (thr d L)))

/-- A slot at contents that agree with `g` on the slot. -/
theorem slot_of (slot : Memref sig .scVector .vmem S128x128 .f32)
    (c g : Buf (Elt F) ((slot).view.loc (thr d L))) (hc : ∀ i ∈ (slot).view.set, c i = g i) :
    ((slot).view.loc (thr d L) ↦[(slot).view.set]{fullShare} c : sProp 𝕄) = ((slot).view.loc (thr d L) ↦[(slot).view.set]{fullShare} g) :=
  pointsTo_congr hc

/-- A slab, spelt as a copy's target, at contents that agree with `gs` on the slab. -/
theorem slab_of (off : Fin 3 → Nat) (h : ∀ a, off a + S1x128x128.size a ≤ S200x4096x128.size a) (s : ℕ) (ho : off = ![s, 128 * wOf L, 0])
    (cs gs : Buf (Elt F) ((oW).view.loc (thr d L))) (hcs : ∀ i ∈ (slabAt off h).view.set, cs i = gs i) :
    ((slabAt off h).view.loc (thr d L) ↦[(slabAt off h).view.set]{fullShare} cs : sProp 𝕄) = ((oW).view.loc (thr d L) ↦[slabSet (wOf L) s]{fullShare} gs) := by
  rw [show ((slabAt off h).view.loc (thr d L) ↦[(slabAt off h).view.set]{fullShare} cs : sProp 𝕄)
        = ((slabAt off h).view.loc (thr d L) ↦[(slabAt off h).view.set]{fullShare} gs) from pointsTo_congr hcs,
    slab_pts_eq d L off h s ho]

/-- A gather flight delivering a slot at contents that agree with `g` on the slot. -/
theorem gflight_of (sm : SemLoc sig) (ι : HIx 1) (N : ℕ) (qt : PosShare TreeShare)
    (slot : Memref sig .scVector .vmem S128x128 .f32)
    (off : Fin 2 → Nat) (h : ∀ a, off a + S1x128.size a ≤ S200x128.size a) (s : ℕ) (hs : off = ![s, 0])
    (c g : Buf (Elt F) ((slot).view.loc (thr d L))) (hc : ∀ i ∈ (slot).view.set, c i = g i) :
    (Transfers.Flight (countersEmb : UEmb Counters 𝕄) (thr d L) sm ι N
      iprop((((slot).view.loc (thr d L) ↦[(slot).view.set]{fullShare} c)
          ∗ ((rowAt off h).view.loc (thr d L) ↦[(rowAt off h).view.set]{fullShare} idxOf (wOf L) X))
        ∗ ((tW).view.loc (thr d L) ↦[(tM).view.set]{qt} TB)))
    ⊢ Transfers.Flight (countersEmb : UEmb Counters 𝕄) (thr d L) sm ι N
      iprop((((slot).view.loc (thr d L) ↦[(slot).view.set]{fullShare} g)
          ∗ ((iS).view.loc (thr d L) ↦[rowSet s]{fullShare} idxOf (wOf L) X))
        ∗ ((tW).view.loc (thr d L) ↦[(tM).view.set]{qt} TB)) := by
  refine Transfers.Flight_mono _ _ ?_
  rw [slot_of d L slot c g hc, row_pts_eq d L off h s hs]

/-- A copy-out flight delivering a slab and its slot, each at contents known up to agreement on the piece. -/
theorem sflight_of (sm : SemLoc sig) (ι : HIx 1) (N : ℕ)
    (slot : Memref sig .scVector .vmem S128x128 .f32)
    (off : Fin 3 → Nat) (h : ∀ a, off a + S1x128x128.size a ≤ S200x4096x128.size a) (s : ℕ) (ho : off = ![s, 128 * wOf L, 0])
    (cs gs : Buf (Elt F) ((oW).view.loc (thr d L))) (hcs : ∀ i ∈ (slabAt off h).view.set, cs i = gs i)
    (c g : Buf (Elt F) ((slot).view.loc (thr d L))) (hc : ∀ i ∈ (slot).view.set, c i = g i) :
    (Transfers.Flight (countersEmb : UEmb Counters 𝕄) (thr d L) sm ι N
      iprop(((slabAt off h).view.loc (thr d L) ↦[(slabAt off h).view.set]{fullShare} cs)
        ∗ ((slot).view.loc (thr d L) ↦[(slot).view.set]{fullShare} c)))
    ⊢ Transfers.Flight (countersEmb : UEmb Counters 𝕄) (thr d L) sm ι N
      iprop(((oW).view.loc (thr d L) ↦[slabSet (wOf L) s]{fullShare} gs)
        ∗ ((slot).view.loc (thr d L) ↦[(slot).view.set]{fullShare} g)) := by
  refine Transfers.Flight_mono _ _ ?_
  rw [slab_of d L off h s ho cs gs hcs, slot_of d L slot c g hc]

end Pieces

end Cert.Proof.Kernel

end
-- ==== Proof.KBBody.lean ====
import proofs.«206931_g83167746720501_cont_9to1_m_74_15_alg».proof.Proof.KBTrip
import proofs.«206931_g83167746720501_cont_9to1_m_74_15_alg».proof.Proof.KBConvB

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Core
variable (d : Dev nD) (L : grid0.Coords) (q : PosShare TreeShare)
variable (X : Buf (Elt F) ((xtM L).view.loc (thr d L))) (TB : Buf (Elt F) ((tW).view.loc (thr d L))) (O0 : Buf (Elt F) ((oW).view.loc (thr d L)))

omit [FloatOps F] in
theorem range4z (Φ : ℕ → sProp 𝕄) : bigSep (Finset.range (4 * 0 + 4)) Φ = iprop(Φ 0 ∗ Φ 1 ∗ Φ 2 ∗ Φ 3 ∗ emp) := range4 Φ
omit [FloatOps F] in
theorem range2z (Φ : ℕ → sProp 𝕄) : bigSep (Finset.range (4 * 0 + 2)) Φ = iprop(Φ 0 ∗ Φ 1 ∗ emp) := by
  rw [show 4 * 0 + 2 = 2 from rfl, Finset.range_eq_Ico, Ico_pop Φ (by omega : 0 < 2), Ico_pop Φ (by omega : 0 + 1 < 2), Ico_empty']
omit [FloatOps F] in
theorem Ico_pop2e (Φ : ℕ → sProp 𝕄) {a : ℕ} :
    bigSep (Finset.Ico a (a + 2)) Φ = iprop(Φ a ∗ Φ (a + 1) ∗ emp) := by
  rw [Ico_pop Φ (by omega : a < a + 2), Ico_pop Φ (by omega : a + 1 < a + 2), Ico_empty']
omit [FloatOps F] in
theorem Ico_pop4e (Φ : ℕ → sProp 𝕄) {a : ℕ} :
    bigSep (Finset.Ico a (a + 4)) Φ = iprop(Φ a ∗ Φ (a + 1) ∗ Φ (a + 2) ∗ Φ (a + 3) ∗ emp) := by
  rw [Ico_pop4 Φ (by omega : a + 3 < a + 4), Ico_empty']

omit [FloatOps F] in
theorem range200_tail4 (Φ : ℕ → sProp 𝕄) :
    bigSep (Finset.range 200) Φ = iprop(Φ 199 ∗ Φ 198 ∗ Φ 197 ∗ Φ 196 ∗ bigSep (Finset.range 196) Φ) := range_push4 Φ 196
omit [FloatOps F] in
theorem range200_tail6 (Φ : ℕ → sProp 𝕄) :
    bigSep (Finset.range 200) Φ = iprop(Φ 199 ∗ Φ 198 ∗ Φ 197 ∗ Φ 196 ∗ Φ 195 ∗ Φ 194 ∗ bigSep (Finset.range 194) Φ) := by
  rw [range_push4 Φ 196, show (196 : ℕ) = 195 + 1 from rfl, range_push Φ 195, show (195 : ℕ) = 194 + 1 from rfl, range_push Φ 194]

/-- The four slots, each at contents of its own, are the row scratch at some contents. -/
theorem slots_join4 (d : Dev nD) (L : grid0.Coords) (c0 c1 c2 c3 : Buf (Elt F) ((rS).view.loc (thr d L))) :
    iprop(((rS).view.loc (thr d L) ↦[slotSet 0]{fullShare} c0) ∗ ((rS).view.loc (thr d L) ↦[slotSet 1]{fullShare} c1)
        ∗ ((rS).view.loc (thr d L) ↦[slotSet 2]{fullShare} c2) ∗ ((rS).view.loc (thr d L) ↦[slotSet 3]{fullShare} c3))
      ⊢ (iprop(∃ f, (rS).view.loc (thr d L) ↦{fullShare} f) : sProp 𝕄) := by
  have h := pointsTo_biUnion_join (ℓ := (rS).view.loc (thr d L)) (q := fullShare) (Val := Elt F) (Ix := HIx 1) (Name := ℕ) (U := UU) (Lvl := ℕ)
    (Finset.range 4) slotSet
    (fun j => if j = 0 then c0 else if j = 1 then c1 else if j = 2 then c2 else c3) c0 (slotSet_disjoint (Finset.range 4))
  rw [range4, slotSet_cover] at h
  iintro ⟨H0, H1, H2, H3⟩
  ihave H := h $$ [H0 H1 H2 H3]
  · isplitl [H0]; · iexact H0
    isplitl [H1]; · iexact H1
    isplitl [H2]; · iexact H2
    isplitl [H3]; · iexact H3
    iempintro
  icases H with ⟨%g, -, Hg⟩
  iexists g; iexact Hg

set_option maxHeartbeats 4000000 in
/-- One tile's task. From its columns of the transposed row numbers, a read share of the table, its two scratch
    buffers, its block of the result and its nine DMA semaphores at zero, the body runs to the end: the block holds the
    looked-up rows, everything else is handed back. -/
theorem tile_core (O : CellTallies nD τ sig (HIx 1)) (W : Waits sig (HIx 1)) (hO : ∀ g, O g none = 0) (hX : XInRange X)
    (fi : Buf (Elt F) ((iS).view.loc (thr d L))) (fr : Buf (Elt F) ((rS).view.loc (thr d L))) :
    iprop(levAts (K (F := F)).L (K (F := F)).lev
        ∗ ((xtM L).view.loc (thr d L) ↦[(xtM L).view.set]{fullShare} X : sProp 𝕄)
        ∗ ((tW).view.loc (thr d L) ↦{q} TB)
        ∗ ((iS).view.loc (thr d L) ↦{fullShare} fi)
        ∗ ((rS).view.loc (thr d L) ↦{fullShare} fr)
        ∗ ((oW).view.loc (thr d L) ↦[oblkSet (wOf L)]{fullShare} O0)
        ∗ semVal (thr d L, SemLoc.dma cc0_scoped0.sem) 0
        ∗ semVal (thr d L, SemLoc.dma cc0_scratch2.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ owes (thr d L) O W)
      ⊢ wp frame (wpE (defs₀ (F := F)) 𝒱₀ (thr d L) none) Set.univ
          (cc0__emb_body L xW (Memref.isWhole_whole _) tW (Memref.isWhole_whole _) oW (Memref.isWhole_whole _) iS (Memref.isWhole_whole _) rS (Memref.isWhole_whole _)
            cc0_scratch2 cc0_scratch3 cc0_scratch4 cc0_scratch5 cc0_scratch6 cc0_scratch7 cc0_scratch8 cc0_scratch9 cc0_scoped0)
          fun _ => iprop(((xtM L).view.loc (thr d L) ↦[(xtM L).view.set]{fullShare} X : sProp 𝕄)
            ∗ ((tW).view.loc (thr d L) ↦{q} TB)
            ∗ (∃ f, (iS).view.loc (thr d L) ↦{fullShare} f)
            ∗ (∃ f, (rS).view.loc (thr d L) ↦{fullShare} f)
            ∗ ((oW).view.loc (thr d L) ↦[oblkSet (wOf L)]{fullShare} outOf TB X)
            ∗ semVal (thr d L, SemLoc.dma cc0_scoped0.sem) 0
        ∗ semVal (thr d L, SemLoc.dma cc0_scratch2.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
            ∗ ∃ W', ⌜∀ p ∈ W', p ∈ W ∨ p.2 = none⌝ ∗ owes (thr d L) O W') := by
  iintro ⟨#Hlv, Hx, Ht, Hi, Hr, Ho, Hs8, Hs0, Hs1, Hs2, Hs3, Hs4, Hs5, Hs6, Hs7, HO⟩
  ihave Hmw := ((K (F := F)).mayWaits_none (thr := thr d L) hO) $$ Hlv
  rw [cc0__emb_body_eq_skeleton]; unfold cc0__emb_body_skel
  sl_exec
  -- the index scratch now holds the tile's columns of the row numbers: restate, then split by rows
  unfold tile_core.sl.dma0
  ihave Hi := (Entails.of_eq (congrArg (fun f => ((iS).view.loc (thr d L) ↦{fullShare} f : sProp 𝕄)) (idx_after_copy d L fi X))) $$ Hi
  ihave Hi := (Entails.of_eq ((idx_rows d L _).trans (range200_pop6 _))) $$ Hi
  icases Hi with ⟨Hr0, Hr1, Hr2, Hr3, Hr4, Hr5, Hrows⟩
  ihave Hr0 := (Entails.of_eq (row_pts_eq d L ![0, 0] inb_S200x128_S1x128_0_0 0 rfl _).symm) $$ Hr0
  ihave Hr1 := (Entails.of_eq (row_pts_eq d L ![1, 0] inb_S200x128_S1x128_1_0 1 rfl _).symm) $$ Hr1
  ihave Hr2 := (Entails.of_eq (row_pts_eq d L ![2, 0] inb_S200x128_S1x128_2_0 2 rfl _).symm) $$ Hr2
  ihave Hr3 := (Entails.of_eq (row_pts_eq d L ![3, 0] inb_S200x128_S1x128_3_0 3 rfl _).symm) $$ Hr3
  ihave Hr4 := (Entails.of_eq (row_pts_eq d L ![4, 0] inb_S200x128_S1x128_4_0 4 rfl _).symm) $$ Hr4
  ihave Hr5 := (Entails.of_eq (row_pts_eq d L ![5, 0] inb_S200x128_S1x128_5_0 5 rfl _).symm) $$ Hr5
  -- the row scratch by slots
  ihave Hr := (Entails.of_eq ((scratch_slots d L _).trans (range4 _))) $$ Hr
  icases Hr with ⟨Hsl0, Hsl1, Hsl2, Hsl3, -⟩
  ihave Hsl0 := (Entails.of_eq (slot0_pts_eq d L _).symm) $$ Hsl0
  ihave Hsl1 := (Entails.of_eq (slot1_pts_eq d L _).symm) $$ Hsl1
  ihave Hsl2 := (Entails.of_eq (slot2_pts_eq d L _).symm) $$ Hsl2
  ihave Hsl3 := (Entails.of_eq (slot3_pts_eq d L _).symm) $$ Hsl3
  -- the table's share as one read token per gather semaphore, the remainder aside
  ihave Ht := (Transfers.pointsTo_toks_split q 4) $$ Ht
  icases Ht with ⟨Htd, Htoks⟩
  ihave Htoks := (Entails.of_eq (fin4 _)) $$ Htoks
  icases Htoks with ⟨Ht0, Ht1, Ht2, Ht3⟩
  -- the tile's block of the result by slabs
  ihave Ho := (Entails.of_eq ((oblk_slabs d L (wOf L) _).trans (range200_pop4 _))) $$ Ho
  icases Ho with ⟨Ho0, Ho1, Ho2, Ho3, Hslabs⟩
  ihave Ho0 := (Entails.of_eq (slab_pts_eq d L (k0_off2 L) (k0_off2_inb L) 0 (by rw [k0_off2_eq, offlit_eq]) _).symm) $$ Ho0
  ihave Ho1 := (Entails.of_eq (slab_pts_eq d L (k0_off3 L) (k0_off3_inb L) 1 (by rw [k0_off3_eq, offlit_eq]) _).symm) $$ Ho1
  ihave Ho2 := (Entails.of_eq (slab_pts_eq d L (k0_off4 L) (k0_off4_inb L) 2 (by rw [k0_off4_eq, offlit_eq]) _).symm) $$ Ho2
  ihave Ho3 := (Entails.of_eq (slab_pts_eq d L (k0_off5 L) (k0_off5_inb L) 3 (by rw [k0_off5_eq, offlit_eq]) _).symm) $$ Ho3
  have hin : ∀ (off : Fin 2 → Nat) (h : ∀ a, off a + S1x128.size a ≤ S200x128.size a) (x : S128.Idx),
      ((rowAt off h).view.read (Elt F) (idxOf (wOf L) X) x).toNat < S1000000x128.size gathers_S1000000x128_S128x128.axis :=
    fun off h x => hin_of_range d L X hX off h x
  sl_exec
  -- the state at the loop's entry, restated. Gathers of positions 4 and 5 in flight into slots 0 and 1:
  generalize hC0 : (slot0).view.writes (Elt F) fr _ = C0
  have hc0 : ∀ i ∈ (slot0).view.set, C0 i = gathered TB (idxOf (wOf L) X) (4 * 0 + 4) i := by
    subst hC0
    exact gather_writes_eq d L TB (idxOf (wOf L) X) ![0, 0] inb_S512x128_S128x128_0_0 0 rfl ![4, 0] inb_S200x128_S1x128_4_0 4 rfl (by omega) _ _ fr _
  ihave Hs0 := (gflight_of d L X TB _ _ _ _ slot0 ![4, 0] inb_S200x128_S1x128_4_0 (4 * 0 + 4) rfl C0 _ hc0) $$ Hs0
  generalize hC1 : (slot1).view.writes (Elt F) fr _ = C1
  have hc1 : ∀ i ∈ (slot1).view.set, C1 i = gathered TB (idxOf (wOf L) X) (4 * 0 + 5) i := by
    subst hC1
    exact gather_writes_eq d L TB (idxOf (wOf L) X) ![128, 0] inb_S512x128_S128x128_128_0 1 rfl ![5, 0] inb_S200x128_S1x128_5_0 5 rfl (by omega) _ _ fr _
  ihave Hs1 := (gflight_of d L X TB _ _ _ _ slot1 ![5, 0] inb_S200x128_S1x128_5_0 (4 * 0 + 5) rfl C1 _ hc1) $$ Hs1
  -- copy-outs of positions 2 and 3 in flight out of slots 2 and 3:
  generalize hC2 : (slot2).view.writes (Elt F) fr _ = C2
  have hc2 : ∀ i ∈ (slot2).view.set, C2 i = gathered TB (idxOf (wOf L) X) (4 * 0 + 2) i := by
    subst hC2
    exact gather_writes_eq d L TB (idxOf (wOf L) X) ![256, 0] inb_S512x128_S128x128_256_0 2 rfl ![2, 0] inb_S200x128_S1x128_2_0 2 rfl (by omega) _ _ fr _
  generalize hCS2 : (slabAt (k0_off4 L) (k0_off4_inb L)).view.writes (Elt F) O0 _ = CS2
  have hcs2 : ∀ i ∈ (slabAt (k0_off4 L) (k0_off4_inb L)).view.set, CS2 i = outOf TB X i := by
    subst hCS2 hC2
    exact copyout_writes_eq d L TB X ![256, 0] inb_S512x128_S128x128_256_0 2 rfl (k0_off4 L) (k0_off4_inb L) 2 (by rw [k0_off4_eq, offlit_eq]) (by omega) _ hc2 _ _
  ihave Hs6 := (sflight_of d L _ _ _ slot2 (k0_off4 L) (k0_off4_inb L) (4 * 0 + 2) (by rw [k0_off4_eq, offlit_eq]) CS2 _ hcs2 C2 _ hc2) $$ Hs6
  generalize hC3 : (slot3).view.writes (Elt F) fr _ = C3
  have hc3 : ∀ i ∈ (slot3).view.set, C3 i = gathered TB (idxOf (wOf L) X) (4 * 0 + 3) i := by
    subst hC3
    exact gather_writes_eq d L TB (idxOf (wOf L) X) ![384, 0] inb_S512x128_S128x128_384_0 3 rfl ![3, 0] inb_S200x128_S1x128_3_0 3 rfl (by omega) _ _ fr _
  generalize hCS3 : (slabAt (k0_off5 L) (k0_off5_inb L)).view.writes (Elt F) O0 _ = CS3
  have hcs3 : ∀ i ∈ (slabAt (k0_off5 L) (k0_off5_inb L)).view.set, CS3 i = outOf TB X i := by
    subst hCS3 hC3
    exact copyout_writes_eq d L TB X ![384, 0] inb_S512x128_S128x128_384_0 3 rfl (k0_off5 L) (k0_off5_inb L) 3 (by rw [k0_off5_eq, offlit_eq]) (by omega) _ hc3 _ _
  ihave Hs7 := (sflight_of d L _ _ _ slot3 (k0_off5 L) (k0_off5_inb L) (4 * 0 + 3) (by rw [k0_off5_eq, offlit_eq]) CS3 _ hcs3 C3 _ hc3) $$ Hs7
  -- the slabs of positions 0 and 1 hold their rows:
  generalize hCS0 : (slabAt (k0_off2 L) (k0_off2_inb L)).view.writes (Elt F) _ _ = CS0
  have hcs0 : ∀ i ∈ (slabAt (k0_off2 L) (k0_off2_inb L)).view.set, CS0 i = outOf TB X i := by
    subst hCS0
    exact copyout_writes_eq d L TB X ![0, 0] inb_S512x128_S128x128_0_0 0 rfl (k0_off2 L) (k0_off2_inb L) 0 (by rw [k0_off2_eq, offlit_eq]) (by omega) _
      (gather_writes_eq d L TB (idxOf (wOf L) X) ![0, 0] inb_S512x128_S128x128_0_0 0 rfl ![0, 0] inb_S200x128_S1x128_0_0 0 rfl (by omega) _ _ fr []) _ _
  ihave Ho0 := (Entails.of_eq (slab_of d L (k0_off2 L) (k0_off2_inb L) 0 (by rw [k0_off2_eq, offlit_eq]) CS0 (outOf TB X) hcs0)) $$ Ho0
  generalize hCS1 : (slabAt (k0_off3 L) (k0_off3_inb L)).view.writes (Elt F) _ _ = CS1
  have hcs1 : ∀ i ∈ (slabAt (k0_off3 L) (k0_off3_inb L)).view.set, CS1 i = outOf TB X i := by
    subst hCS1
    exact copyout_writes_eq d L TB X ![128, 0] inb_S512x128_S128x128_128_0 1 rfl (k0_off3 L) (k0_off3_inb L) 1 (by rw [k0_off3_eq, offlit_eq]) (by omega) _
      (gather_writes_eq d L TB (idxOf (wOf L) X) ![128, 0] inb_S512x128_S128x128_128_0 1 rfl ![1, 0] inb_S200x128_S1x128_1_0 1 rfl (by omega) _ _ fr []) _ _
  ihave Ho1 := (Entails.of_eq (slab_of d L (k0_off3 L) (k0_off3_inb L) 1 (by rw [k0_off3_eq, offlit_eq]) CS1 (outOf TB X) hcs1)) $$ Ho1
  -- rows 0 to 3 are back
  ihave Hr0 := (Entails.of_eq (row_pts_eq d L ![0, 0] inb_S200x128_S1x128_0_0 0 rfl _)) $$ Hr0
  ihave Hr1 := (Entails.of_eq (row_pts_eq d L ![1, 0] inb_S200x128_S1x128_1_0 1 rfl _)) $$ Hr1
  ihave Hr2 := (Entails.of_eq (row_pts_eq d L ![2, 0] inb_S200x128_S1x128_2_0 2 rfl _)) $$ Hr2
  ihave Hr3 := (Entails.of_eq (row_pts_eq d L ![3, 0] inb_S200x128_S1x128_3_0 3 rfl _)) $$ Hr3
  sl_for (tinv d L q X TB O0 O W) $$ [Hmw Hs0 Hs1 Hs6 Hs7 Ht0 Ht1 Ht2 Ht3 Hs2 Hs3 Hs4 Hs5 Hr0 Hr1 Hr2 Hr3 Hrows Ho0 Ho1 Hslabs HO]
  case region =>
    intro k u
    cases u
    exact trip d L q X TB O0 O W hX k
  · unfold tinv
    isplitl [Hmw]; · iexact Hmw
    isplitl [Hs0]; · iexact Hs0
    isplitl [Hs1]; · iexact Hs1
    isplitl [Hs6]; · iexact Hs6
    isplitl [Hs7]; · iexact Hs7
    isplitl [Ht0]; · iexact Ht0
    isplitl [Ht1]; · iexact Ht1
    isplitl [Ht2]; · iexact Ht2
    isplitl [Ht3]; · iexact Ht3
    isplitl [Hs2]; · iexact Hs2
    isplitl [Hs3]; · iexact Hs3
    isplitl [Hs4]; · iexact Hs4
    isplitl [Hs5]; · iexact Hs5
    isplitl [Hr0 Hr1 Hr2 Hr3]
    · iapply (Entails.of_eq (range4z (rowPts d L X)).symm)
      isplitl [Hr0]; · iexact Hr0
      isplitl [Hr1]; · iexact Hr1
      isplitl [Hr2]; · iexact Hr2
      isplitl [Hr3]; · iexact Hr3
      iempintro
    isplitl [Hrows]; · iexact Hrows
    isplitl [Ho0 Ho1]
    · iapply (Entails.of_eq (range2z (slabDone d L X TB)).symm)
      isplitl [Ho0]; · iexact Ho0
      isplitl [Ho1]; · iexact Ho1
      iempintro
    isplitl [Hslabs]; · iexact Hslabs
    iexists _; isplitr
    rotate_left
    · iexact HO
    · ipureintro; intro p hp
      simp only [Finset.mem_insert] at hp
      rcases hp with rfl | rfl | rfl | rfl | rfl | rfl | rfl | hp
      all_goals first | exact .inr rfl | exact .inl hp
  iintro %b HI
  ihave HI := (Entails.of_eq (congrArg (fun n => tinv d L q X TB O0 O W n b) trips_eq)) $$ HI
  unfold tinv
  icases HI with ⟨Hmw', Hs0, Hs1, Hs6, Hs7, Ht0, Ht1, Ht2, Ht3, Hs2, Hs3, Hs4, Hs5, Hrdone, Hrows, Hsdone, Hslabs, %W', %hW', HO⟩
  -- the last rows (198, 199) and slabs (196 … 199), in the program's spelling
  ihave Hrows := (Entails.of_eq (Ico_pop2e (rowPts d L X) (a := 4 * 48 + 6))) $$ Hrows
  icases Hrows with ⟨Hr198, Hr199, -⟩
  ihave Hr198 := (Entails.of_eq (row_pts_eq d L ![198, 0] inb_S200x128_S1x128_198_0 (4 * 48 + 6) rfl _).symm) $$ Hr198
  ihave Hr199 := (Entails.of_eq (row_pts_eq d L ![199, 0] inb_S200x128_S1x128_199_0 (4 * 48 + 6 + 1) rfl _).symm) $$ Hr199
  ihave Hslabs := (Entails.of_eq (Ico_pop4e (slabTodo d L O0) (a := 4 * 48 + 4))) $$ Hslabs
  icases Hslabs with ⟨Ho196, Ho197, Ho198, Ho199, -⟩
  ihave Ho196 := (Entails.of_eq (slab_pts_eq d L (k0_off9 L) (k0_off9_inb L) (4 * 48 + 4) (by rw [k0_off9_eq, offlit_eq]) _).symm) $$ Ho196
  ihave Ho197 := (Entails.of_eq (slab_pts_eq d L (k0_off10 L) (k0_off10_inb L) (4 * 48 + 4 + 1) (by rw [k0_off10_eq, offlit_eq]) _).symm) $$ Ho197
  ihave Ho198 := (Entails.of_eq (slab_pts_eq d L (k0_off11 L) (k0_off11_inb L) (4 * 48 + 4 + 2) (by rw [k0_off11_eq, offlit_eq]) _).symm) $$ Ho198
  ihave Ho199 := (Entails.of_eq (slab_pts_eq d L (k0_off12 L) (k0_off12_inb L) (4 * 48 + 4 + 3) (by rw [k0_off12_eq, offlit_eq]) _).symm) $$ Ho199
  sl_exec
  -- everything has drained. The last two gathers' slots, and the last four slabs, restated:
  generalize hC2f : (slot2).view.writes (Elt F) (gathered TB (idxOf (wOf L) X) (4 * 48 + 2)) _ = C2f
  have hc2f : ∀ i ∈ (slot2).view.set, C2f i = gathered TB (idxOf (wOf L) X) 198 i := by
    subst hC2f
    exact gather_writes_eq d L TB (idxOf (wOf L) X) ![256, 0] inb_S512x128_S128x128_256_0 2 rfl ![198, 0] inb_S200x128_S1x128_198_0 198 rfl (by omega) _ _ _ _
  generalize hC3f : (slot3).view.writes (Elt F) (gathered TB (idxOf (wOf L) X) (4 * 48 + 3)) _ = C3f
  have hc3f : ∀ i ∈ (slot3).view.set, C3f i = gathered TB (idxOf (wOf L) X) 199 i := by
    subst hC3f
    exact gather_writes_eq d L TB (idxOf (wOf L) X) ![384, 0] inb_S512x128_S128x128_384_0 3 rfl ![199, 0] inb_S200x128_S1x128_199_0 199 rfl (by omega) _ _ _ _
  generalize hCS196 : (slabAt (k0_off9 L) (k0_off9_inb L)).view.writes (Elt F) O0 _ = CS196
  have hcs196 : ∀ i ∈ (slabAt (k0_off9 L) (k0_off9_inb L)).view.set, CS196 i = outOf TB X i := by
    subst hCS196
    exact copyout_writes_eq d L TB X ![0, 0] inb_S512x128_S128x128_0_0 0 rfl (k0_off9 L) (k0_off9_inb L) 196 (by rw [k0_off9_eq, offlit_eq]) (by omega)
      (gathered TB (idxOf (wOf L) X) (4 * 48 + 4)) (fun _ _ => rfl) _ _
  ihave Ho196 := (Entails.of_eq (slab_of d L (k0_off9 L) (k0_off9_inb L) 196 (by rw [k0_off9_eq, offlit_eq]) CS196 (outOf TB X) hcs196)) $$ Ho196
  generalize hCS197 : (slabAt (k0_off10 L) (k0_off10_inb L)).view.writes (Elt F) O0 _ = CS197
  have hcs197 : ∀ i ∈ (slabAt (k0_off10 L) (k0_off10_inb L)).view.set, CS197 i = outOf TB X i := by
    subst hCS197
    exact copyout_writes_eq d L TB X ![128, 0] inb_S512x128_S128x128_128_0 1 rfl (k0_off10 L) (k0_off10_inb L) 197 (by rw [k0_off10_eq, offlit_eq]) (by omega)
      (gathered TB (idxOf (wOf L) X) (4 * 48 + 5)) (fun _ _ => rfl) _ _
  ihave Ho197 := (Entails.of_eq (slab_of d L (k0_off10 L) (k0_off10_inb L) 197 (by rw [k0_off10_eq, offlit_eq]) CS197 (outOf TB X) hcs197)) $$ Ho197
  generalize hCS198 : (slabAt (k0_off11 L) (k0_off11_inb L)).view.writes (Elt F) O0 _ = CS198
  have hcs198 : ∀ i ∈ (slabAt (k0_off11 L) (k0_off11_inb L)).view.set, CS198 i = outOf TB X i := by
    subst hCS198 hC2f
    exact copyout_writes_eq d L TB X ![256, 0] inb_S512x128_S128x128_256_0 2 rfl (k0_off11 L) (k0_off11_inb L) 198 (by rw [k0_off11_eq, offlit_eq]) (by omega)
      _ hc2f _ _
  ihave Ho198 := (Entails.of_eq (slab_of d L (k0_off11 L) (k0_off11_inb L) 198 (by rw [k0_off11_eq, offlit_eq]) CS198 (outOf TB X) hcs198)) $$ Ho198
  generalize hCS199 : (slabAt (k0_off12 L) (k0_off12_inb L)).view.writes (Elt F) O0 _ = CS199
  have hcs199 : ∀ i ∈ (slabAt (k0_off12 L) (k0_off12_inb L)).view.set, CS199 i = outOf TB X i := by
    subst hCS199 hC3f
    exact copyout_writes_eq d L TB X ![384, 0] inb_S512x128_S128x128_384_0 3 rfl (k0_off12 L) (k0_off12_inb L) 199 (by rw [k0_off12_eq, offlit_eq]) (by omega)
      _ hc3f _ _
  ihave Ho199 := (Entails.of_eq (slab_of d L (k0_off12 L) (k0_off12_inb L) 199 (by rw [k0_off12_eq, offlit_eq]) CS199 (outOf TB X) hcs199)) $$ Ho199
  ihave Hr198 := (Entails.of_eq (row_pts_eq d L ![198, 0] inb_S200x128_S1x128_198_0 198 rfl _)) $$ Hr198
  ihave Hr199 := (Entails.of_eq (row_pts_eq d L ![199, 0] inb_S200x128_S1x128_199_0 199 rfl _)) $$ Hr199
  ihave Hs0_dst := (Entails.of_eq (slot0_pts_eq d L _)) $$ Hs0_dst
  ihave Hs1_dst := (Entails.of_eq (slot1_pts_eq d L _)) $$ Hs1_dst
  ihave Hs6_src := (Entails.of_eq (slot2_pts_eq d L _)) $$ Hs6_src
  ihave Hs7_src := (Entails.of_eq (slot3_pts_eq d L _)) $$ Hs7_src
  sl_step
  -- the tile's columns of the row numbers, untouched
  isplitl [Hx]; · iexact Hx
  -- the table's share, its tokens joined
  isplitl [Htd Ht0 Ht1 Ht2 Ht3]
  · iapply (Transfers.pointsTo_toks_join q 4)
    isplitl [Htd]; · iexact Htd
    iapply (Entails.of_eq (fin4 _).symm)
    isplitl [Ht0]; · iexact Ht0
    isplitl [Ht1]; · iexact Ht1
    isplitl [Ht2]; · iexact Ht2
    iexact Ht3
  -- the index scratch, its rows joined
  isplitl [Hrdone Hs0_dst_and Hs1_dst_and Hr198 Hr199]
  · iexists (idxOf (wOf L) X)
    iapply (Entails.of_eq ((idx_rows d L _).trans (range200_tail4 _)).symm)
    isplitl [Hr199]; · iexact Hr199
    isplitl [Hr198]; · iexact Hr198
    isplitl [Hs1_dst_and]; · iexact Hs1_dst_and
    isplitl [Hs0_dst_and]; · iexact Hs0_dst_and
    iexact Hrdone
  -- the row scratch, its slots joined
  isplitl [Hs0_dst Hs1_dst Hs6_src Hs7_src]
  · iapply (slots_join4 d L _ _ _ _)
    isplitl [Hs0_dst]; · iexact Hs0_dst
    isplitl [Hs1_dst]; · iexact Hs1_dst
    isplitl [Hs6_src]; · iexact Hs6_src
    iexact Hs7_src
  -- the tile's block of the result: every slab holds its looked-up rows
  isplitl [Hsdone Hs6_dst Hs7_dst Ho196 Ho197 Ho198 Ho199]
  · iapply (oblk_slabs_join d L (wOf L) (outOf TB X))
    iapply (Entails.of_eq (range200_tail6 _).symm)
    isplitl [Ho199]; · iexact Ho199
    isplitl [Ho198]; · iexact Ho198
    isplitl [Ho197]; · iexact Ho197
    isplitl [Ho196]; · iexact Ho196
    isplitl [Hs7_dst]; · iexact Hs7_dst
    isplitl [Hs6_dst]; · iexact Hs6_dst
    iexact Hsdone
  -- the semaphores, all at zero again
  isplitl [Hs8]; · iexact Hs8
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  iexists _; isplitr
  rotate_left
  · iexact HO
  · ipureintro; intro p hp
    simp only [Finset.mem_insert] at hp
    rcases hp with rfl | rfl | rfl | rfl | rfl | rfl | rfl | rfl | rfl | rfl | hp
    all_goals first | exact .inr rfl | exact hW' p hp

end Core

end Cert.Proof.Kernel

end
-- ==== Proof.KBLaunchA.lean ====
/-
  The launch of the lookup kernel, first part: the arrays @main computes before and after the call, what the
  handshakes carry to each SparseCore and each tile, how a SparseCore's operands split among its tiles, the launch
  element of the ghost state, @main on the TensorCore (the host operations as steps, the three arrays split among the
  SparseCores and joined again), and what the final memory says.
-/
import proofs.«206931_g83167746720501_cont_9to1_m_74_15_alg».proof.Proof.KBGeom
import proofs.«206931_g83167746720501_cont_9to1_m_74_15_alg».proof.Proof.LibHostStep
import Idealize.ShloMosaic.Lib.Transfers

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch memory, the arrays and what the call computes from them -/

variable (m : (ℓ : Loc nD τ sig) → Buf (Elt F) ℓ) (ρ : Dev nD → PrngReg)

abbrev arg0Loc (d : Dev nD) : Loc nD τ sig := (SparseCore.T d).loc main_arg0
abbrev arg1Loc (d : Dev nD) : Loc nD τ sig := (SparseCore.T d).loc main_arg1
abbrev v0Loc (d : Dev nD) : Loc nD τ sig := (SparseCore.T d).loc main_v0
abbrev cLoc (d : Dev nD) : Loc nD τ sig := (SparseCore.T d).loc main_c
abbrev c0Loc (d : Dev nD) : Loc nD τ sig := (SparseCore.T d).loc main_call0_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

variable [FloatOps F]

/-- The transposed row numbers: position by batch column. -/
def XT (d : Dev nD) : Buf (Elt F) (v0Loc d) :=
  transpose S200x4096 [1, 0] (m (arg0Loc d)) transposes_S4096x200_S200x4096_1_0
/-- The table padded to 128 lanes with zeros. -/
def TBp (d : Dev nD) : Buf (Elt F) (v1Loc d) :=
  pad S1000000x128 ![0, 0] ![0, 64] ![0, 0] (m (arg1Loc d)) (sitofp .f32 (constantI S_ 32 0#32)) pads_S1000000x64_S1000000x128_000_0640 h_S_
/-- The looked-up rows, padded lanes included. -/
def OUT (d : Dev nD) : Buf (Elt F) (v2Loc d) := outOf (TBp m d) (XT m d)

/-! ## What the handshakes carry

Tile `(c, i)` — worker `2 i + c` — is handed its columns of the transposed row numbers, a read share of the padded
table and its block of the result; it hands them back, the block at the looked-up rows. A SparseCore is handed its
sixteen tiles' pieces and the rest of its own read share of the table. -/

/-- The read share of the table for SparseCore `c`, and of it for tile `i`. -/
abbrev qC (c : ℕ) : PosShare TreeShare := Transfers.shareTokN fullShare c
abbrev qT (c i : ℕ) : PosShare TreeShare := Transfers.shareTokN (qC c) i

def goP (d : Dev nD) (c i : ℕ) : sProp 𝕄 :=
  iprop((v0Loc d ↦[xtSet (2 * i + c)]{fullShare} XT m d) ∗ (v1Loc d ↦{qT c i} TBp m d) ∗ (v2Loc d ↦[oblkSet (2 * i + c)]{fullShare} m (v2Loc d)))
def tdP (d : Dev nD) (c i : ℕ) : sProp 𝕄 :=
  iprop((v0Loc d ↦[xtSet (2 * i + c)]{fullShare} XT m d) ∗ (v1Loc d ↦{qT c i} TBp m d) ∗ (v2Loc d ↦[oblkSet (2 * i + c)]{fullShare} OUT m d))
def stP (d : Dev nD) (c : ℕ) : sProp 𝕄 :=
  iprop((v1Loc d ↦{Transfers.shareDrop (qC c) 16} TBp m d) ∗ bigSep (Finset.univ : Finset (Fin 16)) fun i => goP m d c i.val)
def dnP (d : Dev nD) (c : ℕ) : sProp 𝕄 :=
  iprop((v1Loc d ↦{Transfers.shareDrop (qC c) 16} TBp m d) ∗ bigSep (Finset.univ : Finset (Fin 16)) fun i => tdP m d c i.val)

def P : (K (F := F)).Pay (nD := nD) (Val := Elt F) (Name := ℕ) (U := UU) where
  st := fun _ d c => stP m d c.val
  dn := fun _ d c => dnP m d c.val
  go := fun _ d c i => goP m d c.val i.val
  td := fun _ d c i => tdP m d c.val i.val
  x := fun _ _ => iprop(emp)

instance goP_storable (d : Dev nD) (c i : ℕ) : BI.Storable (upEmb : UEmb _ 𝕄) (goP m d c i) := by unfold goP; infer_instance
instance tdP_storable (d : Dev nD) (c i : ℕ) : BI.Storable (upEmb : UEmb _ 𝕄) (tdP m d c i) := by unfold tdP; infer_instance
instance stP_storable (d : Dev nD) (c : ℕ) : BI.Storable (upEmb : UEmb _ 𝕄) (stP m d c) := by unfold stP; infer_instance
instance dnP_storable (d : Dev nD) (c : ℕ) : BI.Storable (upEmb : UEmb _ 𝕄) (dnP m d c) := by unfold dnP; infer_instance

instance P_storable : (P (F := F) m).IsStorable where
  st _ d c := by unfold P; infer_instance
  dn _ d c := by unfold P; infer_instance
  go _ _ _ _ := by unfold P; infer_instance
  td _ _ _ _ := by unfold P; infer_instance

/-- A SparseCore's operands are its tiles' and the rest of its read share, both ways. -/
theorem vecSplit : (K (F := F)).VecSplit' (P m) 0 := by
  intro d c
  show stP m d c.val ⊢ |={Set.univ}=> iprop((bigSep Finset.univ fun i : Fin ((K (F := F)).nSub 0) => goP m d c.val i.val)
      ∗ ((bigSep Finset.univ fun i : Fin ((K (F := F)).nSub 0) => tdP m d c.val i.val) -∗ dnP m d c.val))
  unfold stP dnP
  iintro ⟨Hr, Hgo⟩
  imodintro
  isplitl [Hgo]; · iexact Hgo
  iintro Htd
  isplitl [Hr]; · iexact Hr
  iexact Htd

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Host operations as steps on the buffers they touch -/

section HostOps

variable {Λ : Labels} {defs' : Defs nD τ sig (Elt F) Λ} (𝒱' : Variants) (c : Thread nD τ) (bd : Option 𝒱'.V) (E : Set ℕ) {α : Type}

omit [FloatOps F] in
/-- A constant `y := v` on the buffer it writes. -/
theorem wp_nullary {hp : c.2.kind.runsHlo = true} (V₀ : Valuation τ sig (Elt F)) (y : Ref sig .tc) (v : y.ty.Contents (Elt F)) (hy)
    (Y : y.ty.Contents (Elt F)) {k : Prog (TpuEff nD τ sig (Elt F) Λ c.2) α} {Q : α → sProp 𝕄} :
    iprop(boundary c ∗ ((c.1, (Proc.devRef .tc y : DevRef τ sig)) ↦{fullShare} Y))
      ⊢ iprop(((boundary c ∗ ((c.1, (Proc.devRef .tc y : DevRef τ sig)) ↦{fullShare} v)) -∗ wp frame (wpE defs' 𝒱' c bd) E k Q)
        -∗ wp frame (wpE defs' 𝒱' c bd) E (hlo hp (StableHlo.nullary y v hy) fun _ => k) Q) := by
  have hin := wp_hlo_within (defs := defs') 𝒱' c bd E (hp := hp) (op := StableHlo.nullary y v hy) (k := fun _ => k)
    (S := ({(Proc.devRef .tc y : DevRef τ sig)} : Finset (DevRef τ sig))) (Finset.Subset.refl _)
    (V := Function.update V₀ (Proc.devRef .tc y) Y) (Q := Q) rfl
  unfold held at hin
  rw [bigSep_singleton, bigSep_singleton, StableHlo.nullary_result, Function.update_self] at hin
  exact hin

omit [FloatOps F] in
/-- `y := f a b` on the three buffers it touches. -/
theorem wp_binary {hp : c.2.kind.runsHlo = true} (V₀ : Valuation τ sig (Elt F)) (a b y : Ref sig .tc)
    (f : a.ty.Contents (Elt F) → b.ty.Contents (Elt F) → y.ty.Contents (Elt F)) (ha hb hy)
    (hab : (Proc.devRef .tc a : DevRef τ sig) ≠ Proc.devRef .tc b) (hay : (Proc.devRef .tc a : DevRef τ sig) ≠ Proc.devRef .tc y)
    (hby : (Proc.devRef .tc b : DevRef τ sig) ≠ Proc.devRef .tc y)
    (A : a.ty.Contents (Elt F)) (B : b.ty.Contents (Elt F)) (Y : y.ty.Contents (Elt F))
    {k : Prog (TpuEff nD τ sig (Elt F) Λ c.2) α} {Q : α → sProp 𝕄} :
    iprop(boundary c ∗ ((c.1, (Proc.devRef .tc a : DevRef τ sig)) ↦{fullShare} A) ∗ ((c.1, (Proc.devRef .tc b : DevRef τ sig)) ↦{fullShare} B)
        ∗ ((c.1, (Proc.devRef .tc y : DevRef τ sig)) ↦{fullShare} Y))
      ⊢ iprop(((boundary c ∗ ((c.1, (Proc.devRef .tc a : DevRef τ sig)) ↦{fullShare} A) ∗ ((c.1, (Proc.devRef .tc b : DevRef τ sig)) ↦{fullShare} B)
            ∗ ((c.1, (Proc.devRef .tc y : DevRef τ sig)) ↦{fullShare} f A B)) -∗ wp frame (wpE defs' 𝒱' c bd) E k Q)
        -∗ wp frame (wpE defs' 𝒱' c bd) E (hlo hp (StableHlo.binary a b y f ha hb hy) fun _ => k) Q) := by
  have hVa : Function.update (Function.update (Function.update V₀ (Proc.devRef .tc a) A) (Proc.devRef .tc b) B) (Proc.devRef .tc y) Y (Proc.devRef .tc a) = A :=
    (Function.update_of_ne hay _ _).trans ((Function.update_of_ne hab _ _).trans (Function.update_self _ _ _))
  have hVb : Function.update (Function.update (Function.update V₀ (Proc.devRef .tc a) A) (Proc.devRef .tc b) B) (Proc.devRef .tc y) Y (Proc.devRef .tc b) = B :=
    (Function.update_of_ne hby _ _).trans (Function.update_self _ _ _)
  have hVy : Function.update (Function.update (Function.update V₀ (Proc.devRef .tc a) A) (Proc.devRef .tc b) B) (Proc.devRef .tc y) Y (Proc.devRef .tc y) = Y :=
    Function.update_self _ _ _
  have hin := wp_hlo_within (defs := defs') 𝒱' c bd E (hp := hp) (op := StableHlo.binary a b y f ha hb hy) (k := fun _ => k)
    (S := ({(Proc.devRef .tc a : DevRef τ sig), Proc.devRef .tc b, Proc.devRef .tc y} : Finset (DevRef τ sig))) (Finset.Subset.refl _)
    (V := Function.update (Function.update (Function.update V₀ (Proc.devRef .tc a) A) (Proc.devRef .tc b) B) (Proc.devRef .tc y) Y) (Q := Q) rfl
  have hna : (Proc.devRef .tc a : DevRef τ sig) ∉ ({Proc.devRef .tc b, Proc.devRef .tc y} : Finset (DevRef τ sig)) := by
    simp only [Finset.mem_insert, Finset.mem_singleton, not_or]; exact ⟨hab, hay⟩
  have hnb : (Proc.devRef .tc b : DevRef τ sig) ∉ ({Proc.devRef .tc y} : Finset (DevRef τ sig)) := by
    simp only [Finset.mem_singleton]; exact hby
  unfold held at hin
  rw [bigSep_insert hna, bigSep_insert hnb, bigSep_singleton, bigSep_insert hna, bigSep_insert hnb, bigSep_singleton,
    StableHlo.binary_result,
    (StableHlo.binary a b y f ha hb hy : HloOp τ sig (Elt F)).result_of_not_mem _ (b := (Proc.devRef .tc a : DevRef τ sig)) (by simpa using hay),
    (StableHlo.binary a b y f ha hb hy : HloOp τ sig (Elt F)).result_of_not_mem _ (b := (Proc.devRef .tc b : DevRef τ sig)) (by simpa using hby),
    hVa, hVb, hVy] at hin
  exact hin

end HostOps

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((arg0Loc d ↦{fullShare} W main_arg0) ∗ (arg1Loc d ↦{fullShare} W main_arg1) ∗ (v0Loc d ↦{fullShare} W main_v0)
      ∗ (cLoc d ↦{fullShare} W main_c) ∗ (c0Loc d ↦{fullShare} W main_call0_v0) ∗ (v1Loc d ↦{fullShare} W main_v1)
      ∗ (v2Loc d ↦{fullShare} W main_v2) ∗ (v3Loc d ↦{fullShare} W main_v3)) := by
  unfold unscopedBufs
  rw [show (Finset.univ.filter fun b : Ref sig .tc => ¬ b.isScoped) = {main_arg0, main_arg1, main_v0, main_c, main_call0_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The three arrays, split among the two SparseCores and their tiles -/

section Split

variable (d : Dev nD)

/-- What SparseCore `c` is handed, the result's blocks at contents `O`. -/
def coreP (O : Buf (Elt F) (v2Loc d)) (c : ℕ) : sProp 𝕄 :=
  iprop((v1Loc d ↦{Transfers.shareDrop (qC c) 16} TBp m d) ∗ bigSep (Finset.univ : Finset (Fin 16)) fun i =>
    iprop((v0Loc d ↦[xtSet (2 * i.val + c)]{fullShare} XT m d) ∗ (v1Loc d ↦{qT c i.val} TBp m d) ∗ (v2Loc d ↦[oblkSet (2 * i.val + c)]{fullShare} O)))

theorem stP_eq (c : ℕ) : stP m d c = coreP m d (m (v2Loc d)) c := rfl
theorem dnP_eq (c : ℕ) : dnP m d c = coreP m d (OUT m d) c := rfl

/-- A SparseCore's share is its tiles' column blocks, its read share of the table and its tiles' result blocks. -/
theorem coreP_iff (O : Buf (Elt F) (v2Loc d)) (c : ℕ) :
    coreP m d O c ⊣⊢ iprop((bigSep (Finset.univ : Finset (Fin 16)) fun i => (v0Loc d ↦[xtSet (2 * i.val + c)]{fullShare} XT m d : sProp 𝕄))
      ∗ (v1Loc d ↦{qC c} TBp m d)
      ∗ (bigSep (Finset.univ : Finset (Fin 16)) fun i => (v2Loc d ↦[oblkSet (2 * i.val + c)]{fullShare} O : sProp 𝕄))) := by
  unfold coreP
  rw [bigSep_sep', bigSep_sep']
  constructor
  · iintro ⟨Hr, Ha, Hb, Ho⟩
    isplitl [Ha]; · iexact Ha
    isplitl [Hr Hb]
    · iapply (Transfers.pointsTo_toks_join (qC c) 16)
      isplitl [Hr]; · iexact Hr
      iexact Hb
    iexact Ho
  · iintro ⟨Ha, Hv, Ho⟩
    ihave H := (Transfers.pointsTo_toks_split (qC c) 16) $$ Hv
    icases H with ⟨Hr, Hb⟩
    isplitl [Hr]; · iexact Hr
    isplitl [Ha]; · iexact Ha
    isplitl [Hb]; · iexact Hb
    iexact Ho

/-- The transposed row numbers, the table and the result, whole, are the two SparseCores' shares and the rest of the
    table's read share. -/
theorem cores_iff (O : Buf (Elt F) (v2Loc d)) :
    iprop((v0Loc d ↦{fullShare} XT m d) ∗ (v1Loc d ↦{fullShare} TBp m d) ∗ (v2Loc d ↦{fullShare} O))
      ⊣⊢ iprop((v1Loc d ↦{Transfers.shareDrop fullShare 2} TBp m d) ∗ coreP m d O 0 ∗ coreP m d O 1) := by
  rw [xt_workers d (XT m d), out_workers d O, bigSep_univ_two, bigSep_univ_two]
  constructor
  · iintro ⟨⟨Ha0, Ha1⟩, Hv, ⟨Ho0, Ho1⟩⟩
    ihave H := (Transfers.pointsTo_toks_split fullShare 2) $$ Hv
    icases H with ⟨Hr, Ht⟩
    ihave Ht' := (Entails.of_eq (bigSep_univ_two _)) $$ Ht
    icases Ht' with ⟨Hq0, Hq1⟩
    isplitl [Hr]; · iexact Hr
    isplitl [Ha0 Hq0 Ho0]
    · iapply (coreP_iff m d O 0).2
      isplitl [Ha0]; · iexact Ha0
      isplitl [Hq0]; · iexact Hq0
      iexact Ho0
    · iapply (coreP_iff m d O 1).2
      isplitl [Ha1]; · iexact Ha1
      isplitl [Hq1]; · iexact Hq1
      iexact Ho1
  · iintro ⟨Hr, H0, H1⟩
    ihave H0' := (coreP_iff m d O 0).1 $$ H0
    ihave H1' := (coreP_iff m d O 1).1 $$ H1
    icases H0' with ⟨Ha0, Hq0, Ho0⟩
    icases H1' with ⟨Ha1, Hq1, Ho1⟩
    isplitl [Ha0 Ha1]
    · isplitl [Ha0]; · iexact Ha0
      iexact Ha1
    isplitl [Hr Hq0 Hq1]
    · iapply (Transfers.pointsTo_toks_join fullShare 2)
      isplitl [Hr]; · iexact Hr
      rw [bigSep_univ_two]
      isplitl [Hq0]; · iexact Hq0
      iexact Hq1
    · isplitl [Ho0]; · iexact Ho0
      iexact Ho1

theorem st0_eq : (bigSep Finset.univ fun c : Fin ((K (F := F)).nCore 0) => (P m).st 0 d c) = iprop(coreP m d (m (v2Loc d)) 0 ∗ coreP m d (m (v2Loc d)) 1) := by
  show (bigSep (Finset.univ : Finset (Fin 2)) fun c => stP m d c.val) = _
  rw [bigSep_univ_two]; rfl
theorem dn0_eq : (bigSep Finset.univ fun c : Fin ((K (F := F)).nCore 0) => (P m).dn 0 d c) = iprop(coreP m d (OUT m d) 0 ∗ coreP m d (OUT m d) 1) := by
  show (bigSep (Finset.univ : Finset (Fin 2)) fun c => dnP m d c.val) = _
  rw [bigSep_univ_two]; rfl

end Split

/-- What @main leaves the claim: the arguments at their launch contents, the result at the first 64 lanes of the
    looked-up rows. -/
abbrev FIN (d : Dev nD) : sProp 𝕄 :=
  iprop((arg0Loc d ↦{fullShare} m (arg0Loc d)) ∗ (arg1Loc d ↦{fullShare} m (arg1Loc d))
    ∗ (v3Loc d ↦{fullShare} extractStridedSlice S200x4096x64 ![0, 0, 0] (OUT m d) slices_S200x4096x128_S200x4096x64_0_0_0))

/-- @main on device `d`'s TensorCore: the transpose, the constant, its conversion and the pad; the three arrays split
    among the SparseCores and handed to the call; what comes back joined; the slice. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, fn_pad.body, wp_bind, wp_pure]
  iintro ⟨#Hctx, Hst, ⟨Hb, ⟨Ha0, Ha1, Hv0, Hc, Hc0, Hv1, Hv2, Hv3⟩, -, -⟩, -⟩
  -- the transposed row numbers
  iapply (Cert.Lib.HostStep.wp_unary 𝒱 (SparseCore.T d) none Set.univ (fun b => m (d, b)) main_arg0 main_v0 _ _ _ (by decide)
    (m (arg0Loc d)) (m (v0Loc d))) $$ [Hb Ha0 Hv0]
  · isplitl [Hb]; · iexact Hb
    isplitl [Ha0]; · iexact Ha0
    iexact Hv0
  iintro ⟨Hb, Ha0, Hv0⟩
  rw [wp_ret]; imodintro
  -- the pad value: the constant, converted
  iapply (wp_nullary 𝒱 (SparseCore.T d) none Set.univ (fun b => m (d, b)) main_c _ _ (m (cLoc d))) $$ [Hb Hc]
  · isplitl [Hb]; · iexact Hb
    iexact Hc
  iintro ⟨Hb, Hc⟩
  rw [wp_ret]; imodintro
  iapply (Cert.Lib.HostStep.wp_unary 𝒱 (SparseCore.T d) none Set.univ (fun b => m (d, b)) main_c main_call0_v0 _ _ _ (by decide)
    (constantI S_ 32 0#32) (m (c0Loc d))) $$ [Hb Hc Hc0]
  · isplitl [Hb]; · iexact Hb
    isplitl [Hc]; · iexact Hc
    iexact Hc0
  iintro ⟨Hb, Hc, Hc0⟩
  rw [wp_ret]; imodintro
  -- the padded table
  iapply (wp_binary 𝒱 (SparseCore.T d) none Set.univ (fun b => m (d, b)) main_arg1 main_call0_v0 main_v1 _ _ _ _ (by decide) (by decide) (by decide)
    (m (arg1Loc d)) (sitofp .f32 (constantI S_ 32 0#32)) (m (v1Loc d))) $$ [Hb Ha1 Hc0 Hv1]
  · isplitl [Hb]; · iexact Hb
    isplitl [Ha1]; · iexact Ha1
    isplitl [Hc0]; · iexact Hc0
    iexact Hv1
  iintro ⟨Hb, Ha1, Hc0, Hv1⟩
  rw [wp_ret]; imodintro; imodintro
  -- the three arrays, split among the SparseCores
  ihave Hsp := (cores_iff m d (m (v2Loc d))).1 $$ [Hv0 Hv1 Hv2]
  · isplitl [Hv0]; · iexact Hv0
    isplitl [Hv1]; · iexact Hv1
    iexact Hv2
  icases Hsp with ⟨Hrest, H0, H1⟩
  iapply ((K (F := F)).wp_run (D (F := F)) 𝒱 (EH := EH) (P := P m) κ d 0) $$ [Hst H0 H1 Hrest Hb Ha0 Ha1 Hc Hc0 Hv3]
  isplitr; · iexact Hctx
  isplitl [Hst]; · iexact Hst
  isplitl [H0 H1]
  · rw [st0_eq]
    isplitl [H0]; · iexact H0
    iexact H1
  iintro ⟨Hst, Hdn⟩
  ihave Hdn' := (Entails.of_eq (dn0_eq m d)) $$ Hdn
  icases Hdn' with ⟨H0, H1⟩
  ihave Hj := (cores_iff m d (OUT m d)).2 $$ [Hrest H0 H1]
  · isplitl [Hrest]; · iexact Hrest
    isplitl [H0]; · iexact H0
    iexact H1
  icases Hj with ⟨Hv0, Hv1, Hv2⟩
  -- the first 64 lanes
  iapply (Cert.Lib.HostStep.wp_unary 𝒱 (SparseCore.T d) none Set.univ (fun b => m (d, b)) main_v2 main_v3 _ _ _ (by decide)
    (OUT m d) (m (v3Loc d))) $$ [Hb Hv2 Hv3]
  · isplitl [Hb]; · iexact Hb
    isplitl [Hv2]; · iexact Hv2
    iexact Hv3
  iintro ⟨Hb, Hv2, Hv3⟩
  rw [wp_ret]; imodintro; imodintro
  isplitl [Hst]; · iexact Hst
  isplitl [Ha0]; · iexact Ha0
  isplitl [Ha1]; · iexact Ha1
  iexact Hv3

/-! ## What the final memory says -/

def fq (d : Dev nD) (s' : Phys nD τ sig (Elt F)) : Prop :=
  s'.mem.mem (v3Loc d) = extractStridedSlice S200x4096x64 ![0, 0, 0] (OUT m d) slices_S200x4096x128_S200x4096x64_0_0_0
    ∧ s'.mem.mem (arg0Loc d) = m (arg0Loc d) ∧ s'.mem.mem (arg1Loc d) = m (arg1Loc d)

theorem hfin (d : Dev nD) (s' : Phys nD τ sig (Elt F)) : iprop(FIN m d ∗ SI s') ⊢ (⌜fq m d s'⌝ : sProp 𝕄) := by
  iintro ⟨⟨Ha0, Ha1, Hv3⟩, HSI⟩
  ihave H := (persistent_entails_right (SI_pointsTo_agree (st := s') (ℓ := arg0Loc d) (I := Finset.univ) (q := fullShare) (f := m (arg0Loc d)))) $$ [HSI Ha0]
  · isplitl [HSI] <;> iassumption
  icases H with ⟨%h1, HSI, -⟩
  ihave H := (persistent_entails_right (SI_pointsTo_agree (st := s') (ℓ := arg1Loc d) (I := Finset.univ) (q := fullShare) (f := m (arg1Loc d)))) $$ [HSI Ha1]
  · isplitl [HSI] <;> iassumption
  icases H with ⟨%h2, HSI, -⟩
  ihave H := (SI_pointsTo_agree (st := s') (ℓ := v3Loc d) (I := Finset.univ) (q := fullShare)
    (f := extractStridedSlice S200x4096x64 ![0, 0, 0] (OUT m d) slices_S200x4096x128_S200x4096x64_0_0_0)) $$ [HSI Hv3]
  · isplitl [HSI] <;> iassumption
  icases H with %h3
  ipureintro
  exact ⟨funext fun i => h3 i (Finset.mem_univ i), funext fun i => h1 i (Finset.mem_univ i), funext fun i => h2 i (Finset.mem_univ i)⟩

end Cert.Proof.Kernel

end
-- ==== Proof.KBLaunch.lean ====
/-
  The launch of the lookup kernel, second part: one tile's task in the shape the launch theorem asks for — the tile's
  scoped buffers and semaphores unpacked, its pieces respelt at the memrefs the body slices, the body's theorem applied,
  everything packed again — and the program's run.
-/
import proofs.«206931_g83167746720501_cont_9to1_m_74_15_alg».proof.Proof.KBBody
import proofs.«206931_g83167746720501_cont_9to1_m_74_15_alg».proof.Proof.KBLaunchA

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Launch

variable (m : (ℓ : Loc nD τ sig) → Buf (Elt F) ℓ) (ρ : Dev nD → PrngReg)

variable [FloatOps F]

/-! ## One tile's task, as the launch theorem asks for it -/

section Tile

variable (d : Dev nD) (L : grid0.Coords)

/-- The tile's nine DMA semaphores. -/
def semS : Finset (DmaSem sig) :=
  {cc0_scoped0.sem, cc0_scratch2.sem, cc0_scratch3.sem, cc0_scratch4.sem, cc0_scratch5.sem, cc0_scratch6.sem, cc0_scratch7.sem, cc0_scratch8.sem, cc0_scratch9.sem}

abbrev cellOf (s : DmaSem sig) : GSem nD τ sig := (thr d L, SemLoc.dma s)

omit [FloatOps F] in
theorem cellOf_inj : Set.InjOn (cellOf d L) ((semS : Finset (DmaSem sig)) : Set (DmaSem sig)) := by
  intro a _ b _ e
  exact SemLoc.dma.inj (Prod.mk.inj e).2

omit [FloatOps F] in
/-- The nine semaphores are among the tile's own scoped ones: they are them, at zero, and the rest. -/
theorem ownSems0_V :
    (ownSems0 (thr d L) : sProp 𝕄)
      = iprop((semVal (thr d L, SemLoc.dma cc0_scoped0.sem) 0
          ∗ semVal (thr d L, SemLoc.dma cc0_scratch2.sem) 0 ∗ semVal (thr d L, SemLoc.dma cc0_scratch3.sem) 0
          ∗ semVal (thr d L, SemLoc.dma cc0_scratch4.sem) 0 ∗ semVal (thr d L, SemLoc.dma cc0_scratch5.sem) 0
          ∗ semVal (thr d L, SemLoc.dma cc0_scratch6.sem) 0 ∗ semVal (thr d L, SemLoc.dma cc0_scratch7.sem) 0
          ∗ semVal (thr d L, SemLoc.dma cc0_scratch8.sem) 0 ∗ semVal (thr d L, SemLoc.dma cc0_scratch9.sem) 0)
          ∗ bigSep (ownCells (thr d L) \ semS.image (cellOf d L)) fun g => semVal g 0) := by
  unfold SparseCore.Cfg.ownSems0
  have hsc : ∀ s ∈ semS, (SemLoc.dma s : SemLoc sig).isScoped .scVector = true := by decide
  have hsub : semS.image (cellOf d L) ⊆ ownCells (thr d L) := by
    intro g hg
    obtain ⟨s, hs, rfl⟩ := Finset.mem_image.mp hg
    exact mem_ownCells.mpr ⟨rfl, hsc s hs⟩
  rw [SparseCore.bigSep_sdiff_split' hsub, SparseCore.bigSep_image_of_injOn (cellOf_inj d L)]
  unfold semS
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The two scratch buffers are among the tile's own: they are them, at some contents, and the rest. -/
theorem ownBufs_V :
    (ownBufs (thr d L) : sProp 𝕄)
      = iprop((∃ f, (iS).view.loc (thr d L) ↦{fullShare} f) ∗ (∃ f, (rS).view.loc (thr d L) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task of tile `L` of device `d`: its pieces in, the same pieces out with its block at the looked-up rows; its
    scoped buffers and semaphores are lent to the body and returned. -/
theorem tile_body (hF : (K (F := F)).Facts) (hX : XInRange (XT m d)) (O : CellTallies nD τ sig (HIx 1)) (W : Waits sig (HIx 1)) (hO : ∀ g, O g none = 0) :
    iprop(levAts (K (F := F)).L (K (F := F)).lev ∗ emp ∗ goP m d (L 0).val (L 1).val
        ∗ scopedBufs (thr d L) ∗ scopedSems0 (thr d L) ∗ owes (thr d L) O W)
      ⊢ wp frame (wpE (defs₀ (F := F)) 𝒱₀ (thr d L) none) Set.univ
          (cc0__emb_body L xW (Memref.isWhole_whole _) tW (Memref.isWhole_whole _) oW (Memref.isWhole_whole _) iS (Memref.isWhole_whole _) rS (Memref.isWhole_whole _)
            cc0_scratch2 cc0_scratch3 cc0_scratch4 cc0_scratch5 cc0_scratch6 cc0_scratch7 cc0_scratch8 cc0_scratch9 cc0_scoped0)
          fun _ => iprop(tdP m d (L 0).val (L 1).val ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goP tdP
  iintro ⟨Hlv, -, ⟨Hx, Ht, Ho⟩, ⟨⟨%fi, Hi⟩, ⟨%fr, Hr⟩, Hbufs⟩, ⟨⟨s0, s2, s3, s4, s5, s6, s7, s8, s9⟩, Hsems⟩, HO⟩
  ihave Hx' := (Entails.of_eq (show ((v0Loc d ↦[xtSet (2 * (L 1).val + (L 0).val)]{fullShare} XT m d : sProp 𝕄))
      = ((xtM L).view.loc (thr d L) ↦[(xtM L).view.set]{fullShare} XT m d) from by rw [set_xtM])) $$ Hx
  iapply (wp_wand_r frame _ _)
  isplitl [Hlv Hx' Ht Hi Hr Ho s0 s2 s3 s4 s5 s6 s7 s8 s9 HO]
  · iapply (tile_core (F := F) d L (qT (L 0).val (L 1).val) (XT m d) (TBp m d) (m (v2Loc d)) O W hO hX fi fr)
    isplitl [Hlv]; · iexact Hlv
    isplitl [Hx']; · iexact Hx'
    isplitl [Ht]; · iexact Ht
    isplitl [Hi]; · iexact Hi
    isplitl [Hr]; · iexact Hr
    isplitl [Ho]; · iexact Ho
    isplitl [s0]; · iexact s0
    isplitl [s2]; · iexact s2
    isplitl [s3]; · iexact s3
    isplitl [s4]; · iexact s4
    isplitl [s5]; · iexact s5
    isplitl [s6]; · iexact s6
    isplitl [s7]; · iexact s7
    isplitl [s8]; · iexact s8
    isplitl [s9]; · iexact s9
    iexact HO
  iintro %_ ⟨Hx, Ht, ⟨%fi', Hi⟩, ⟨%fr', Hr⟩, Ho, s0, s2, s3, s4, s5, s6, s7, s8, s9, HW⟩
  ihave Hx' := (Entails.of_eq (show ((xtM L).view.loc (thr d L) ↦[(xtM L).view.set]{fullShare} XT m d : sProp 𝕄)
      = (v0Loc d ↦[xtSet (2 * (L 1).val + (L 0).val)]{fullShare} XT m d) from by rw [set_xtM])) $$ Hx
  isplitl [Hx' Ht Ho]
  · isplitl [Hx']; · iexact Hx'
    isplitl [Ht]; · iexact Ht
    iexact Ho
  isplitl [Hi Hr Hbufs]
  · isplitl [Hi]; · iexists fi'; iexact Hi
    isplitl [Hr]; · iexists fr'; iexact Hr
    iexact Hbufs
  isplitl [s0 s2 s3 s4 s5 s6 s7 s8 s9 Hsems]
  · isplitr [Hsems]
    · isplitl [s0]; · iexact s0
      isplitl [s2]; · iexact s2
      isplitl [s3]; · iexact s3
      isplitl [s4]; · iexact s4
      isplitl [s5]; · iexact s5
      isplitl [s6]; · iexact s6
      isplitl [s7]; · iexact s7
      isplitl [s8]; · iexact s8
      iexact s9
    · iexact Hsems
  iexact HW

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_body (coordsV c s)
          xW (Memref.isWhole_whole _) tW (Memref.isWhole_whole _) oW (Memref.isWhole_whole _) iS (Memref.isWhole_whole _) rS (Memref.isWhole_whole _)
          cc0_scratch2 cc0_scratch3 cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hX : ∀ d, XInRange (XT m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hX d) O W hO).trans (wp_mono frame _ _ fun _ => obl_post)

end Launch

/-! ## The program's run -/

/-- Every weakly fair execution of the program ends; the result holds the first 64 lanes of the looked-up rows, the
    arguments what they held. -/
theorem run_main [∀ e, Nonempty (Elt F e)] [FloatOps F] (m : (ℓ : Loc nD τ sig) → Buf (Elt F) ℓ) (ρ : Dev nD → PrngReg)
    (hX : ∀ d, XInRange (XT m d)) :
    θ_run (Cert.Kernel.defs (F := F)) (Cert.Kernel.threads (F := F)) ⟨m, fun _ => 0, ρ⟩
      (fun r => ∀ c : Dev nD,
        r.2.mem ((SparseCore.T c).loc main_v3)
            = extractStridedSlice S200x4096x64 ![0, 0, 0] (outOf (TBp m c) (XT m c)) slices_S200x4096x128_S200x4096x64_0_0_0
          ∧ r.2.mem ((SparseCore.T c).loc main_arg0) = m ((SparseCore.T c).loc main_arg0)
          ∧ r.2.mem ((SparseCore.T c).loc main_arg1) = m ((SparseCore.T c).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m facts hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.Kernel

end
-- ==== Proof.lean ====
/-
  The claim: an embedding lookup laid out position-major, on the SparseCore, against its reference.

  Both programs compute, from row numbers `x : [4096, 200]` and a table `[1000000, 64]`, the array `[200, 4096, 64]`
  whose entry `(s, b, d)` is `table[x[b, s], d]` (`Cert.Spec.lookup`). The precondition says every row number lies in
  `[0, 999999]`; transposing keeps that.
  * The kernel: thirty-two tiles each look up their 128 batch columns of the transposed row numbers in the table
    padded to 128 lanes, position by position; the first 64 lanes of what they leave are the lookup. Its run ends
    with the arguments unchanged: the two frames, at the words as printed and at the extended reals.
  * The reference: `take` in fill mode and a transpose; for row numbers in range the fill is never taken and the
    result is the lookup. Its run ends with the arguments unchanged: its frame.
  * No operation was rewritten for the idealization, so nothing is owed for it.
  * At the extended reals, from memories that agree on the arguments, both results are the lookup of the same arrays.
-/
import proofs.«206931_g83167746720501_cont_9to1_m_74_15_alg».proof.Defs
import proofs.«206931_g83167746720501_cont_9to1_m_74_15_alg».proof.Proof.Gen.Kernel
import proofs.«206931_g83167746720501_cont_9to1_m_74_15_alg».proof.Proof.Gen.Kernel.Skeleton
import proofs.«206931_g83167746720501_cont_9to1_m_74_15_alg».proof.Proof.Gen.KernelIdeal
import proofs.«206931_g83167746720501_cont_9to1_m_74_15_alg».proof.Proof.Gen.KernelIdeal.Skeleton
import proofs.«206931_g83167746720501_cont_9to1_m_74_15_alg».proof.Proof.Gen.ReferenceIdeal
import proofs.«206931_g83167746720501_cont_9to1_m_74_15_alg».proof.Proof.Gen.Pre_input_domain
import Idealize.ShloMosaic.Adequacy
import Idealize.ShloMosaic.Init
import proofs.«206931_g83167746720501_cont_9to1_m_74_15_alg».proof.Proof.PreRange
import proofs.«206931_g83167746720501_cont_9to1_m_74_15_alg».proof.Proof.RefRun
import proofs.«206931_g83167746720501_cont_9to1_m_74_15_alg».proof.Proof.KILaunch
import proofs.«206931_g83167746720501_cont_9to1_m_74_15_alg».proof.Proof.KBLaunch

noncomputable section

namespace Cert.Proof

open Idealize.ShloMosaic Idealize.SL.Sem

/-- The kernel as printed runs to the end and leaves its arguments: its run with the result dropped. -/
theorem frame_Kernel : Cert.frame_Kernel (hKernel := Cert.Kernel.Gen.facts) (hPre_input_domain := Cert.Pre_input_domain.Gen.facts) :=
  fun m g hpre =>
    (θ_run Cert.Kernel.defs _ _).mono (fun _ h c => (h c).2)
      (Cert.Proof.Kernel.run_main (F := Bits) m g fun d =>
        Cert.Proof.Kernel.xinrange_transpose _ (Cert.PreRange.inRange_of_pre _ _ (hpre d)))

/-- The same at the extended reals. -/
theorem frame_KernelIdeal : Cert.frame_KernelIdeal (hKernelIdeal := Cert.KernelIdeal.Gen.facts) (hPre_input_domain := Cert.Pre_input_domain.Gen.facts) :=
  fun m g hpre =>
    (θ_run Cert.KernelIdeal.defs _ _).mono (fun _ h c => (h c).2)
      (Cert.Proof.KernelIdeal.run_main (F := Ideal) m g fun d =>
        Cert.Proof.KernelIdeal.xinrange_transpose _ (Cert.PreRange.inRange_of_pre _ _ (hpre d)))

/-- The reference runs to the end and leaves its arguments: its run with the result dropped. -/
theorem frame_ReferenceIdeal : Cert.frame_ReferenceIdeal (hReferenceIdeal := Cert.ReferenceIdeal.Gen.facts) (hPre_input_domain := Cert.Pre_input_domain.Gen.facts) :=
  fun m g hpre =>
    (θ_run Cert.ReferenceIdeal.defs _ _).mono (fun _ h c => (h c).2)
      (Cert.RefRun.run m g fun c => Cert.PreRange.inRange_of_pre _ _ (hpre c))

/-- Both results are the lookup of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m g m' g' hpre hag =>
    have hr : ∀ c : Dev Cert.KernelIdeal.nD, Cert.Spec.InRange
        (m ((c.tc : Thread Cert.KernelIdeal.nD Cert.KernelIdeal.τ).loc Cert.KernelIdeal.main_arg0)) :=
      fun c => Cert.PreRange.inRange_of_pre _ _ (hpre c)
    ⟨fun c => Cert.Spec.lookup (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      (θ_run Cert.KernelIdeal.defs _ _).mono
        (fun _ h c => ⟨(h c).1.trans (Cert.Proof.KernelIdeal.host_value _ _ _), (h c).2⟩)
        (Cert.Proof.KernelIdeal.run_main (F := Ideal) m g fun d => Cert.Proof.KernelIdeal.xinrange_transpose _ (hr d)),
      (θ_run Cert.ReferenceIdeal.defs _ _).mono
        (fun _ h c => ⟨by rw [(h c).1, (hag c).1, (hag c).2], (h c).2⟩)
        (Cert.RefRun.run m' g' fun c => by rw [(hag c).1]; exact hr c)⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
